-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v28)) (v1 : (c : Dev Cert.KernelIdeal.nD) → Buf (Elt Ideal) ((c.tc : Thread Cert.KernelIdeal.nD Cert.KernelIdeal.τ).loc Cert.KernelIdeal.main_v29)) (v2 : (c : Dev Cert.KernelIdeal.nD) → Buf (Elt Ideal) ((c.tc : Thread Cert.KernelIdeal.nD Cert.KernelIdeal.τ).loc Cert.KernelIdeal.main_v30)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v28) = v0 c
          ∧ r.2.mem ((c.tc : Thread Cert.KernelIdeal.nD Cert.KernelIdeal.τ).loc Cert.KernelIdeal.main_v29) = v1 c
          ∧ r.2.mem ((c.tc : Thread Cert.KernelIdeal.nD Cert.KernelIdeal.τ).loc Cert.KernelIdeal.main_v30) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v48) = v0 c
          ∧ r.2.mem ((c.tc : Thread Cert.ReferenceIdeal.nD Cert.ReferenceIdeal.τ).loc Cert.ReferenceIdeal.main_v55) = v1 c
          ∧ r.2.mem ((c.tc : Thread Cert.ReferenceIdeal.nD Cert.ReferenceIdeal.τ).loc Cert.ReferenceIdeal.main_v62) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x500 : Shape := ⟨2, ![256, 500]⟩
abbrev S2560x500 : Shape := ⟨2, ![2560, 500]⟩
abbrev S25600x500 : Shape := ⟨2, ![25600, 500]⟩
abbrev S1280x500 : Shape := ⟨2, ![1280, 500]⟩
abbrev S12800x500 : Shape := ⟨2, ![12800, 500]⟩
abbrev S128000x500 : Shape := ⟨2, ![128000, 500]⟩
abbrev S1000x256 : Shape := ⟨2, ![1000, 256]⟩
abbrev S512x128 : Shape := ⟨2, ![512, 128]⟩
abbrev S_ : Shape := ⟨0, ![]⟩

class Facts : Prop where
  bcast_S_S256x500 : S_.BroadcastsInDim S256x500 (![] : Fin 0 → Fin S256x500.rank)
  reducesTo_S256x500_S_d0_1 : S256x500.ReducesTo [0, 1] S_
  h_S_ : 0 < S_.numel
  bcast_S_S2560x500 : S_.BroadcastsInDim S2560x500 (![] : Fin 0 → Fin S2560x500.rank)
  reducesTo_S2560x500_S_d0_1 : S2560x500.ReducesTo [0, 1] S_
  bcast_S_S25600x500 : S_.BroadcastsInDim S25600x500 (![] : Fin 0 → Fin S25600x500.rank)
  reducesTo_S25600x500_S_d0_1 : S25600x500.ReducesTo [0, 1] S_
  bcast_S_S1280x500 : S_.BroadcastsInDim S1280x500 (![] : Fin 0 → Fin S1280x500.rank)
  reducesTo_S1280x500_S_d0_1 : S1280x500.ReducesTo [0, 1] S_
  bcast_S_S12800x500 : S_.BroadcastsInDim S12800x500 (![] : Fin 0 → Fin S12800x500.rank)
  reducesTo_S12800x500_S_d0_1 : S12800x500.ReducesTo [0, 1] S_
  bcast_S_S128000x500 : S_.BroadcastsInDim S128000x500 (![] : Fin 0 → Fin S128000x500.rank)
  reducesTo_S128000x500_S_d0_1 : S128000x500.ReducesTo [0, 1] S_
  bcast_S_S1000x256 : S_.BroadcastsInDim S1000x256 (![] : Fin 0 → Fin S1000x256.rank)
  reducesTo_S1000x256_S_d0_1 : S1000x256.ReducesTo [0, 1] S_
  bcast_S_S512x128 : S_.BroadcastsInDim S512x128 (![] : Fin 0 → Fin S512x128.rank)
  reducesTo_S512x128_S_d0_1 : S512x128.ReducesTo [0, 1] S_

variable [Facts]

def fn_part3 {F : FTy → Type} [FloatOps F] (main_v48 : IVec S_ 1) (main_v49 : FVec F S512x128 .f32) (main_v50 : FVec F S512x128 .f32) : IVec S_ 1 :=
  let main_v51 : IVec S512x128 1 := cmpf .olt main_v49 main_v50
  let main_c_19 : IVec S_ 1 := constantI S_ 1 1#1
  let main_v52 : IVec S_ 1 := (fun x v => Host.reduce IntOp.andi x v reducesTo_S512x128_S_d0_1 h_S_) main_v51 main_c_19
  let main_v53 : IVec S_ 1 := andi main_v48 main_v52
  main_v53

def fn_part2 {F : FTy → Type} [FloatOps F] (main_arg7 : FVec F S12800x500 .f32) (main_arg8 : FVec F S128000x500 .f32) (main_arg9 : FVec F S1000x256 .f32) (main_arg10 : FVec F S512x128 .f32) (main_v33 : IVec S_ 1) : IVec S_ 1 :=
  let main_v34 : FVec F S12800x500 .f32 := Host.absf main_arg7
  let main_cst_12 : FVec F S_ .f32 := constant S_ .f32 0x7F800000#32
  let main_v35 : FVec F S12800x500 .f32 := broadcastInDim S12800x500 ![] bcast_S_S12800x500 main_cst_12
  let main_v36 : IVec S12800x500 1 := cmpf .olt main_v34 main_v35
  let main_c_13 : IVec S_ 1 := constantI S_ 1 1#1
  let main_v37 : IVec S_ 1 := (fun x v => Host.reduce IntOp.andi x v reducesTo_S12800x500_S_d0_1 h_S_) main_v36 main_c_13
  let main_v38 : IVec S_ 1 := andi main_v33 main_v37
  let main_v39 : FVec F S128000x500 .f32 := Host.absf main_arg8
  let main_cst_14 : FVec F S_ .f32 := constant S_ .f32 0x7F800000#32
  let main_v40 : FVec F S128000x500 .f32 := broadcastInDim S128000x500 ![] bcast_S_S128000x500 main_cst_14
  let main_v41 : IVec S128000x500 1 := cmpf .olt main_v39 main_v40
  let main_c_15 : IVec S_ 1 := constantI S_ 1 1#1
  let main_v42 : IVec S_ 1 := (fun x v => Host.reduce IntOp.andi x v reducesTo_S128000x500_S_d0_1 h_S_) main_v41 main_c_15
  let main_v43 : IVec S_ 1 := andi main_v38 main_v42
  let main_v44 : FVec F S1000x256 .f32 := Host.absf main_arg9
  let main_cst_16 : FVec F S_ .f32 := constant S_ .f32 0x7F800000#32
  let main_v45 : FVec F S1000x256 .f32 := broadcastInDim S1000x256 ![] bcast_S_S1000x256 main_cst_16
  let main_v46 : IVec S1000x256 1 := cmpf .olt main_v44 main_v45
  let main_c_17 : IVec S_ 1 := constantI S_ 1 1#1
  let main_v47 : IVec S_ 1 := (fun x v => Host.reduce IntOp.andi x v reducesTo_S1000x256_S_d0_1 h_S_) main_v46 main_c_17
  let main_v48 : IVec S_ 1 := andi main_v43 main_v47
  let main_v49 : FVec F S512x128 .f32 := Host.absf main_arg10
  let main_cst_18 : FVec F S_ .f32 := constant S_ .f32 0x7F800000#32
  let main_v50 : FVec F S512x128 .f32 := broadcastInDim S512x128 ![] bcast_S_S512x128 main_cst_18
  fn_part3 (F := F) main_v48 main_v49 main_v50

def fn_part1 {F : FTy → Type} [FloatOps F] (main_arg4 : FVec F S2560x500 .f32) (main_arg5 : FVec F S25600x500 .f32) (main_arg6 : FVec F S1280x500 .f32) (main_arg7 : FVec F S12800x500 .f32) (main_arg8 : FVec F S128000x500 .f32) (main_arg9 : FVec F S1000x256 .f32) (main_arg10 : FVec F S512x128 .f32) (main_v13 : IVec S_ 1) (main_v16 : IVec S256x500 1) : IVec S_ 1 :=
  let main_c_5 : IVec S_ 1 := constantI S_ 1 1#1
  let main_v17 : IVec S_ 1 := (fun x v => Host.reduce IntOp.andi x v reducesTo_S256x500_S_d0_1 h_S_) main_v16 main_c_5
  let main_v18 : IVec S_ 1 := andi main_v13 main_v17
  let main_v19 : FVec F S2560x500 .f32 := Host.absf main_arg4
  let main_cst_6 : FVec F S_ .f32 := constant S_ .f32 0x7F800000#32
  let main_v20 : FVec F S2560x500 .f32 := broadcastInDim S2560x500 ![] bcast_S_S2560x500 main_cst_6
  let main_v21 : IVec S2560x500 1 := cmpf .olt main_v19 main_v20
  let main_c_7 : IVec S_ 1 := constantI S_ 1 1#1
  let main_v22 : IVec S_ 1 := (fun x v => Host.reduce IntOp.andi x v reducesTo_S2560x500_S_d0_1 h_S_) main_v21 main_c_7
  let main_v23 : IVec S_ 1 := andi main_v18 main_v22
  let main_v24 : FVec F S25600x500 .f32 := Host.absf main_arg5
  let main_cst_8 : FVec F S_ .f32 := constant S_ .f32 0x7F800000#32
  let main_v25 : FVec F S25600x500 .f32 := broadcastInDim S25600x500 ![] bcast_S_S25600x500 main_cst_8
  let main_v26 : IVec S25600x500 1 := cmpf .olt main_v24 main_v25
  let main_c_9 : IVec S_ 1 := constantI S_ 1 1#1
  let main_v27 : IVec S_ 1 := (fun x v => Host.reduce IntOp.andi x v reducesTo_S25600x500_S_d0_1 h_S_) main_v26 main_c_9
  let main_v28 : IVec S_ 1 := andi main_v23 main_v27
  let main_v29 : FVec F S1280x500 .f32 := Host.absf main_arg6
  let main_cst_10 : FVec F S_ .f32 := constant S_ .f32 0x7F800000#32
  let main_v30 : FVec F S1280x500 .f32 := broadcastInDim S1280x500 ![] bcast_S_S1280x500 main_cst_10
  let main_v31 : IVec S1280x500 1 := cmpf .olt main_v29 main_v30
  let main_c_11 : IVec S_ 1 := constantI S_ 1 1#1
  let main_v32 : IVec S_ 1 := (fun x v => Host.reduce IntOp.andi x v reducesTo_S1280x500_S_d0_1 h_S_) main_v31 main_c_11
  let main_v33 : IVec S_ 1 := andi main_v28 main_v32
  fn_part2 (F := F) main_arg7 main_arg8 main_arg9 main_arg10 main_v33

def fn {F : FTy → Type} [FloatOps F] (main_arg0 : FVec F S256x500 .f32) (main_arg1 : FVec F S2560x500 .f32) (main_arg2 : FVec F S25600x500 .f32) (main_arg3 : FVec F S256x500 .f32) (main_arg4 : FVec F S2560x500 .f32) (main_arg5 : FVec F S25600x500 .f32) (main_arg6 : FVec F S1280x500 .f32) (main_arg7 : FVec F S12800x500 .f32) (main_arg8 : FVec F S128000x500 .f32) (main_arg9 : FVec F S1000x256 .f32) (main_arg10 : FVec F S512x128 .f32) : IVec S_ 1 :=
  let main_v0 : FVec F S256x500 .f32 := Host.absf main_arg0
  let main_cst : FVec F S_ .f32 := constant S_ .f32 0x7F800000#32
  let main_v1 : FVec F S256x500 .f32 := broadcastInDim S256x500 ![] bcast_S_S256x500 main_cst
  let main_v2 : IVec S256x500 1 := cmpf .olt main_v0 main_v1
  let main_c : IVec S_ 1 := constantI S_ 1 1#1
  let main_v3 : IVec S_ 1 := (fun x v => Host.reduce IntOp.andi x v reducesTo_S256x500_S_d0_1 h_S_) main_v2 main_c
  let main_v4 : FVec F S2560x500 .f32 := Host.absf main_arg1
  let main_cst_0 : FVec F S_ .f32 := constant S_ .f32 0x7F800000#32
  let main_v5 : FVec F S2560x500 .f32 := broadcastInDim S2560x500 ![] bcast_S_S2560x500 main_cst_0
  let main_v6 : IVec S2560x500 1 := cmpf .olt main_v4 main_v5
  let main_c_1 : IVec S_ 1 := constantI S_ 1 1#1
  let main_v7 : IVec S_ 1 := (fun x v => Host.reduce IntOp.andi x v reducesTo_S2560x500_S_d0_1 h_S_) main_v6 main_c_1
  let main_v8 : IVec S_ 1 := andi main_v3 main_v7
  let main_v9 : FVec F S25600x500 .f32 := Host.absf main_arg2
  let main_cst_2 : FVec F S_ .f32 := constant S_ .f32 0x7F800000#32
  let main_v10 : FVec F S25600x500 .f32 := broadcastInDim S25600x500 ![] bcast_S_S25600x500 main_cst_2
  let main_v11 : IVec S25600x500 1 := cmpf .olt main_v9 main_v10
  let main_c_3 : IVec S_ 1 := constantI S_ 1 1#1
  let main_v12 : IVec S_ 1 := (fun x v => Host.reduce IntOp.andi x v reducesTo_S25600x500_S_d0_1 h_S_) main_v11 main_c_3
  let main_v13 : IVec S_ 1 := andi main_v8 main_v12
  let main_v14 : FVec F S256x500 .f32 := Host.absf main_arg3
  let main_cst_4 : FVec F S_ .f32 := constant S_ .f32 0x7F800000#32
  let main_v15 : FVec F S256x500 .f32 := broadcastInDim S256x500 ![] bcast_S_S256x500 main_cst_4
  let main_v16 : IVec S256x500 1 := cmpf .olt main_v14 main_v15
  fn_part1 (F := F) main_arg4 main_arg5 main_arg6 main_arg7 main_arg8 main_arg9 main_arg10 main_v13 main_v16
-- ==== Kernel.lean ====
abbrev S256x500 : Shape := ⟨2, ![256, 500]⟩
abbrev S2560x500 : Shape := ⟨2, ![2560, 500]⟩
abbrev S25600x500 : Shape := ⟨2, ![25600, 500]⟩
abbrev S1280x500 : Shape := ⟨2, ![1280, 500]⟩
abbrev S12800x500 : Shape := ⟨2, ![12800, 500]⟩
abbrev S128000x500 : Shape := ⟨2, ![128000, 500]⟩
abbrev S1000x256 : Shape := ⟨2, ![1000, 256]⟩
abbrev S512x128 : Shape := ⟨2, ![512, 128]⟩
abbrev S500x256 : Shape := ⟨2, ![500, 256]⟩
abbrev S256x128 : Shape := ⟨2, ![256, 128]⟩
abbrev S1792x500 : Shape := ⟨2, ![1792, 500]⟩
abbrev S256x10x500 : Shape := ⟨3, ![256, 10, 500]⟩
abbrev S1280x10x500 : Shape := ⟨3, ![1280, 10, 500]⟩
abbrev S1792x10x500 : Shape := ⟨3, ![1792, 10, 500]⟩
abbrev S1792x256 : Shape := ⟨2, ![1792, 256]⟩
abbrev S256x256 : Shape := ⟨2, ![256, 256]⟩
abbrev S1280x256 : Shape := ⟨2, ![1280, 256]⟩
abbrev S17920x500 : Shape := ⟨2, ![17920, 500]⟩
abbrev S2560x10x500 : Shape := ⟨3, ![2560, 10, 500]⟩
abbrev S12800x10x500 : Shape := ⟨3, ![12800, 10, 500]⟩
abbrev S17920x10x500 : Shape := ⟨3, ![17920, 10, 500]⟩
abbrev S17920x256 : Shape := ⟨2, ![17920, 256]⟩
abbrev S640x500 : Shape := ⟨2, ![640, 500]⟩
abbrev S640x10x500 : Shape := ⟨3, ![640, 10, 500]⟩
abbrev S640x256 : Shape := ⟨2, ![640, 256]⟩
abbrev S2560x256 : Shape := ⟨2, ![2560, 256]⟩
abbrev S12800x256 : Shape := ⟨2, ![12800, 256]⟩
abbrev S256x10x256 : Shape := ⟨3, ![256, 10, 256]⟩
abbrev S1280x10x256 : Shape := ⟨3, ![1280, 10, 256]⟩
abbrev S1792x10x256 : Shape := ⟨3, ![1792, 10, 256]⟩
abbrev S1792x128 : Shape := ⟨2, ![1792, 128]⟩
abbrev S1280x128 : Shape := ⟨2, ![1280, 128]⟩

abbrev nBuf : Space → Nat
  | .hbm => 42
  | .vmem => 24
  | .smem => 0
  | _ => 0

abbrev bufTy : (tb : Table) → Fin (tcTables nBuf tb) → BufTy
  | .hbm, ⟨0, _⟩ => ⟨S256x500, .f32⟩
  | .hbm, ⟨1, _⟩ => ⟨S2560x500, .f32⟩
  | .hbm, ⟨2, _⟩ => ⟨S25600x500, .f32⟩
  | .hbm, ⟨3, _⟩ => ⟨S256x500, .f32⟩
  | .hbm, ⟨4, _⟩ => ⟨S2560x500, .f32⟩
  | .hbm, ⟨5, _⟩ => ⟨S25600x500, .f32⟩
  | .hbm, ⟨6, _⟩ => ⟨S1280x500, .f32⟩
  | .hbm, ⟨7, _⟩ => ⟨S12800x500, .f32⟩
  | .hbm, ⟨8, _⟩ => ⟨S128000x500, .f32⟩
  | .hbm, ⟨9, _⟩ => ⟨S1000x256, .f32⟩
  | .hbm, ⟨10, _⟩ => ⟨S512x128, .f32⟩
  | .hbm, ⟨11, _⟩ => ⟨S500x256, .f32⟩
  | .hbm, ⟨12, _⟩ => ⟨S500x256, .f32⟩
  | .hbm, ⟨13, _⟩ => ⟨S256x128, .f32⟩
  | .hbm, ⟨14, _⟩ => ⟨S256x128, .f32⟩
  | .hbm, ⟨15, _⟩ => ⟨S1792x500, .f32⟩
  | .hbm, ⟨16, _⟩ => ⟨S256x10x500, .f32⟩
  | .hbm, ⟨17, _⟩ => ⟨S256x10x500, .f32⟩
  | .hbm, ⟨18, _⟩ => ⟨S1280x10x500, .f32⟩
  | .hbm, ⟨19, _⟩ => ⟨S1792x10x500, .f32⟩
  | .hbm, ⟨20, _⟩ => ⟨S1792x256, .f32⟩
  | .hbm, ⟨21, _⟩ => ⟨S256x256, .f32⟩
  | .hbm, ⟨22, _⟩ => ⟨S256x256, .f32⟩
  | .hbm, ⟨23, _⟩ => ⟨S1280x256, .f32⟩
  | .hbm, ⟨24, _⟩ => ⟨S17920x500, .f32⟩
  | .hbm, ⟨25, _⟩ => ⟨S2560x10x500, .f32⟩
  | .hbm, ⟨26, _⟩ => ⟨S2560x10x500, .f32⟩
  | .hbm, ⟨27, _⟩ => ⟨S12800x10x500, .f32⟩
  | .hbm, ⟨28, _⟩ => ⟨S17920x10x500, .f32⟩
  | .hbm, ⟨29, _⟩ => ⟨S17920x256, .f32⟩
  | .hbm, ⟨30, _⟩ => ⟨S2560x256, .f32⟩
  | .hbm, ⟨31, _⟩ => ⟨S2560x256, .f32⟩
  | .hbm, ⟨32, _⟩ => ⟨S12800x256, .f32⟩
  | .hbm, ⟨33, _⟩ => ⟨S1792x256, .f32⟩
  | .hbm, ⟨34, _⟩ => ⟨S256x10x256, .f32⟩
  | .hbm, ⟨35, _⟩ => ⟨S256x10x256, .f32⟩
  | .hbm, ⟨36, _⟩ => ⟨S1280x10x256, .f32⟩
  | .hbm, ⟨37, _⟩ => ⟨S1792x10x256, .f32⟩
  | .hbm, ⟨38, _⟩ => ⟨S1792x128, .f32⟩
  | .hbm, ⟨39, _⟩ => ⟨S256x128, .f32⟩
  | .hbm, ⟨40, _⟩ => ⟨S256x128, .f32⟩
  | .hbm, ⟨41, _⟩ => ⟨S1280x128, .f32⟩
  | .local _ .vmem, ⟨0, _⟩ => ⟨S256x500, .f32⟩
  | .local _ .vmem, ⟨1, _⟩ => ⟨S256x500, .f32⟩
  | .local _ .vmem, ⟨2, _⟩ => ⟨S256x10x500, .f32⟩
  | .local _ .vmem, ⟨3, _⟩ => ⟨S256x10x500, .f32⟩
  | .local _ .vmem, ⟨4, _⟩ => ⟨S500x256, .f32⟩
  | .local _ .vmem, ⟨5, _⟩ => ⟨S500x256, .f32⟩
  | .local _ .vmem, ⟨6, _⟩ => ⟨S256x256, .f32⟩
  | .local _ .vmem, ⟨7, _⟩ => ⟨S256x256, .f32⟩
  | .local _ .vmem, ⟨8, _⟩ => ⟨S640x500, .f32⟩
  | .local _ .vmem, ⟨9, _⟩ => ⟨S640x500, .f32⟩
  | .local _ .vmem, ⟨10, _⟩ => ⟨S640x10x500, .f32⟩
  | .local _ .vmem, ⟨11, _⟩ => ⟨S640x10x500, .f32⟩
  | .local _ .vmem, ⟨12, _⟩ => ⟨S500x256, .f32⟩
  | .local _ .vmem, ⟨13, _⟩ => ⟨S500x256, .f32⟩
  | .local _ .vmem, ⟨14, _⟩ => ⟨S640x256, .f32⟩
  | .local _ .vmem, ⟨15, _⟩ => ⟨S640x256, .f32⟩
  | .local _ .vmem, ⟨16, _⟩ => ⟨S256x256, .f32⟩
  | .local _ .vmem, ⟨17, _⟩ => ⟨S256x256, .f32⟩
  | .local _ .vmem, ⟨18, _⟩ => ⟨S256x10x256, .f32⟩
  | .local _ .vmem, ⟨19, _⟩ => ⟨S256x10x256, .f32⟩
  | .local _ .vmem, ⟨20, _⟩ => ⟨S256x128, .f32⟩
  | .local _ .vmem, ⟨21, _⟩ => ⟨S256x128, .f32⟩
  | .local _ .vmem, ⟨22, _⟩ => ⟨S256x128, .f32⟩
  | .local _ .vmem, ⟨23, _⟩ => ⟨S256x128, .f32⟩
  | _, _ => ⟨S256x500, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg4_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc2_stg3_0 : Ref sig .tc := ⟨.vmem, 21, rfl⟩
abbrev cc2_stg4_0 : Ref sig .tc := ⟨.vmem, 22, rfl⟩
abbrev cc2_stg4_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem4_0 : DmaSem sig := 14
abbrev cc1_sem4_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem3_0 : DmaSem sig := 21
abbrev cc2_sem4_0 : DmaSem sig := 22
abbrev cc2_sem4_1 : DmaSem sig := 23

abbrev nD : Nat := 1
abbrev τ : Topo := Topo.v7x

variable {F : FTy → Type} [FloatOps F]

abbrev grid0 : Pipeline.Grid := ⟨1, ![7], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x500 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x10x500 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S500x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S500x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![28], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S640x500 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S640x10x500 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S500x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S500x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S640x256 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![7], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S256x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S256x10x256 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S256x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S256x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S256x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

class Facts₀ : Prop where
  slices_S1000x256_S500x256_0_0 : S1000x256.Slices ![0, 0] S500x256
  slices_S1000x256_S500x256_500_0 : S1000x256.Slices ![500, 0] S500x256
  slices_S512x128_S256x128_0_0 : S512x128.Slices ![0, 0] S256x128
  slices_S512x128_S256x128_256_0 : S512x128.Slices ![256, 0] S256x128
  concatenates_S256x500_S256x500_S1280x500_S1792x500_d0 : Shape.Concatenates [S256x500, S256x500, S1280x500] S1792x500 0
  shapeCasts_S2560x500_S256x10x500 : S2560x500.ShapeCasts S256x10x500
  shapeCasts_S12800x500_S1280x10x500 : S12800x500.ShapeCasts S1280x10x500
  concatenates_S256x10x500_S256x10x500_S1280x10x500_S1792x10x500_d0 : Shape.Concatenates [S256x10x500, S256x10x500, S1280x10x500] S1792x10x500 0
  inb_S256x10x500_S256x10x500_0_0_0 : ∀ a, (![0, 0, 0] : Fin 3 → Nat) a + S256x10x500.size a ≤ S256x10x500.size a
  h_S256x10x500 : 0 < S256x10x500.numel
  shapeCasts_S256x10x500_S256x10x500 : S256x10x500.ShapeCasts S256x10x500
  reduces_S256x10x500_S256x500 : S256x10x500.Reduces [1] S256x500
  inb_S256x500_S256x500_0_0 : ∀ a, (![0, 0] : Fin 2 → Nat) a + S256x500.size a ≤ S256x500.size a
  h_S256x500 : 0 < S256x500.numel
  shapeCasts_S256x500_S256x500 : S256x500.ShapeCasts S256x500
  inb_S500x256_S500x256_0_0 : ∀ a, (![0, 0] : Fin 2 → Nat) a + S500x256.size a ≤ S500x256.size a
  h_S500x256 : 0 < S500x256.numel
  shapeCasts_S500x256_S500x256 : S500x256.ShapeCasts S500x256
  inb_S256x256_S256x256_0_0 : ∀ a, (![0, 0] : Fin 2 → Nat) a + S256x256.size a ≤ S256x256.size a
  h_S256x256 : 0 < S256x256.numel
  slices_S1792x256_S256x256_0_0 : S1792x256.Slices ![0, 0] S256x256
  slices_S1792x256_S256x256_256_0 : S1792x256.Slices ![256, 0] S256x256
  slices_S1792x256_S1280x256_512_0 : S1792x256.Slices ![512, 0] S1280x256
  concatenates_S2560x500_S2560x500_S12800x500_S17920x500_d0 : Shape.Concatenates [S2560x500, S2560x500, S12800x500] S17920x500 0
  shapeCasts_S25600x500_S2560x10x500 : S25600x500.ShapeCasts S2560x10x500
  shapeCasts_S128000x500_S12800x10x500 : S128000x500.ShapeCasts S12800x10x500
  concatenates_S2560x10x500_S2560x10x500_S12800x10x500_S17920x10x500_d0 : Shape.Concatenates [S2560x10x500, S2560x10x500, S12800x10x500] S17920x10x500 0
  inb_S640x10x500_S640x10x500_0_0_0 : ∀ a, (![0, 0, 0] : Fin 3 → Nat) a + S640x10x500.size a ≤ S640x10x500.size a
  h_S640x10x500 : 0 < S640x10x500.numel
  shapeCasts_S640x10x500_S640x10x500 : S640x10x500.ShapeCasts S640x10x500
  reduces_S640x10x500_S640x500 : S640x10x500.Reduces [1] S640x500
  inb_S640x500_S640x500_0_0 : ∀ a, (![0, 0] : Fin 2 → Nat) a + S640x500.size a ≤ S640x500.size a
  h_S640x500 : 0 < S640x500.numel
  shapeCasts_S640x500_S640x500 : S640x500.ShapeCasts S640x500
  inb_S640x256_S640x256_0_0 : ∀ a, (![0, 0] : Fin 2 → Nat) a + S640x256.size a ≤ S640x256.size a
  h_S640x256 : 0 < S640x256.numel
  slices_S17920x256_S2560x256_0_0 : S17920x256.Slices ![0, 0] S2560x256
  slices_S17920x256_S2560x256_2560_0 : S17920x256.Slices ![2560, 0] S2560x256
  slices_S17920x256_S12800x256_5120_0 : S17920x256.Slices ![5120, 0] S12800x256
  concatenates_S256x256_S256x256_S1280x256_S1792x256_d0 : Shape.Concatenates [S256x256, S256x256, S1280x256] S1792x256 0
  shapeCasts_S2560x256_S256x10x256 : S2560x256.ShapeCasts S256x10x256
  shapeCasts_S12800x256_S1280x10x256 : S12800x256.ShapeCasts S1280x10x256
  concatenates_S256x10x256_S256x10x256_S1280x10x256_S1792x10x256_d0 : Shape.Concatenates [S256x10x256, S256x10x256, S1280x10x256] S1792x10x256 0
  inb_S256x10x256_S256x10x256_0_0_0 : ∀ a, (![0, 0, 0] : Fin 3 → Nat) a + S256x10x256.size a ≤ S256x10x256.size a
  h_S256x10x256 : 0 < S256x10x256.numel
  shapeCasts_S256x10x256_S256x10x256 : S256x10x256.ShapeCasts S256x10x256
  reduces_S256x10x256_S256x256 : S256x10x256.Reduces [1] S256x256
  shapeCasts_S256x256_S256x256 : S256x256.ShapeCasts S256x256
  inb_S256x128_S256x128_0_0 : ∀ a, (![0, 0] : Fin 2 → Nat) a + S256x128.size a ≤ S256x128.size a
  h_S256x128 : 0 < S256x128.numel
  shapeCasts_S256x128_S256x128 : S256x128.ShapeCasts S256x128
  slices_S1792x128_S256x128_0_0 : S1792x128.Slices ![0, 0] S256x128
  slices_S1792x128_S256x128_256_0 : S1792x128.Slices ![256, 0] S256x128
  slices_S1792x128_S1280x128_512_0 : S1792x128.Slices ![512, 0] S1280x128
  dot_S256x500_S500x256_S256x256_1_0_0_1_n_n_wf : DotDims.WF S256x500 S500x256 S256x256 [1] [0] [0] [1] [] []
  dot_S640x500_S500x256_S640x256_1_0_0_1_n_n_wf : DotDims.WF S640x500 S500x256 S640x256 [1] [0] [0] [1] [] []
  dot_S256x256_S256x128_S256x128_1_0_0_1_n_n_wf : DotDims.WF S256x256 S256x128 S256x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x500.size a ≤ S1792x500.size a
  hwx0_0 : ∀ i : grid0.Coords, EltTy.bits .f32 = 32 ∨ (Rect.block (s := S1792x500) S256x500.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x10x500.size a ≤ S1792x10x500.size a
  hwx0_1 : ∀ i : grid0.Coords, EltTy.bits .f32 = 32 ∨ (Rect.block (s := S1792x10x500) S256x10x500.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S500x256.size a ≤ S500x256.size a
  hwx0_2 : ∀ i : grid0.Coords, EltTy.bits .f32 = 32 ∨ (Rect.block (s := S500x256) S500x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S500x256.size a ≤ S500x256.size a
  hwx0_3 : ∀ i : grid0.Coords, EltTy.bits .f32 = 32 ∨ (Rect.block (s := S500x256) S500x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256x256.size a ≤ S1792x256.size a
  hwx0_4 : ∀ i : grid0.Coords, EltTy.bits .f32 = 32 ∨ (Rect.block (s := S1792x256) S256x256.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S640x500.size a ≤ S17920x500.size a
  hwx1_0 : ∀ i : grid1.Coords, EltTy.bits .f32 = 32 ∨ (Rect.block (s := S17920x500) S640x500.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S640x10x500.size a ≤ S17920x10x500.size a
  hwx1_1 : ∀ i : grid1.Coords, EltTy.bits .f32 = 32 ∨ (Rect.block (s := S17920x10x500) S640x10x500.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S500x256.size a ≤ S500x256.size a
  hwx1_2 : ∀ i : grid1.Coords, EltTy.bits .f32 = 32 ∨ (Rect.block (s := S500x256) S500x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S500x256.size a ≤ S500x256.size a
  hwx1_3 : ∀ i : grid1.Coords, EltTy.bits .f32 = 32 ∨ (Rect.block (s := S500x256) S500x256.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S640x256.size a ≤ S17920x256.size a
  hwx1_4 : ∀ i : grid1.Coords, EltTy.bits .f32 = 32 ∨ (Rect.block (s := S17920x256) S640x256.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S256x256.size a ≤ S1792x256.size a
  hwx2_0 : ∀ i : grid2.Coords, EltTy.bits .f32 = 32 ∨ (Rect.block (s := S1792x256) S256x256.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S256x10x256.size a ≤ S1792x10x256.size a
  hwx2_1 : ∀ i : grid2.Coords, EltTy.bits .f32 = 32 ∨ (Rect.block (s := S1792x10x256) S256x10x256.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S256x128.size a ≤ S256x128.size a
  hwx2_2 : ∀ i : grid2.Coords, EltTy.bits .f32 = 32 ∨ (Rect.block (s := S256x128) S256x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S256x128.size a ≤ S256x128.size a
  hwx2_3 : ∀ i : grid2.Coords, EltTy.bits .f32 = 32 ∨ (Rect.block (s := S256x128) S256x128.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S256x128.size a ≤ S1792x128.size a
  hwx2_4 : ∀ i : grid2.Coords, EltTy.bits .f32 = 32 ∨ (Rect.block (s := S1792x128) S256x128.size (cc2_transform_4 i) (hinb2_4 i)).WholeWords (EltTy.packing .f32)

variable [Facts₀]

def dot_S256x500_S500x256_S256x256_1_0_0_1_n_n : DotDims S256x500 S500x256 S256x256 where
  lhsContracting := [1]
  rhsContracting := [0]
  lhsNonContracting := [0]
  rhsNonContracting := [1]
  lhsBatch := []
  rhsBatch := []
  wf := dot_S256x500_S500x256_S256x256_1_0_0_1_n_n_wf
def dot_S640x500_S500x256_S640x256_1_0_0_1_n_n : DotDims S640x500 S500x256 S640x256 where
  lhsContracting := [1]
  rhsContracting := [0]
  lhsNonContracting := [0]
  rhsNonContracting := [1]
  lhsBatch := []
  rhsBatch := []
  wf := dot_S640x500_S500x256_S640x256_1_0_0_1_n_n_wf
def dot_S256x256_S256x128_S256x128_1_0_0_1_n_n : DotDims S256x256 S256x128 S256x128 where
  lhsContracting := [1]
  rhsContracting := [0]
  lhsNonContracting := [0]
  rhsNonContracting := [1]
  lhsBatch := []
  rhsBatch := []
  wf := dot_S256x256_S256x128_S256x128_1_0_0_1_n_n_wf

abbrev win0_0 : Pipeline.Window sig grid0 :=
  Pipeline.Window.ofSpec (Memref.whole main_v4) S256x500.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v8) S256x10x500.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S500x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S500x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v9) S256x256.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v13) S640x500.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v17) S640x10x500.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v0) S500x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v1) S500x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v18) S640x256.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v22) S256x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v26) S256x10x256.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v2) S256x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v3) S256x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v27) S256x128.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

class Facts : Prop extends Facts₀ where

variable [Facts]
-- ==== ReferenceIdeal.lean ====
abbrev S256x500 : Shape := ⟨2, ![256, 500]⟩
abbrev S2560x500 : Shape := ⟨2, ![2560, 500]⟩
abbrev S25600x500 : Shape := ⟨2, ![25600, 500]⟩
abbrev S1280x500 : Shape := ⟨2, ![1280, 500]⟩
abbrev S12800x500 : Shape := ⟨2, ![12800, 500]⟩
abbrev S128000x500 : Shape := ⟨2, ![128000, 500]⟩
abbrev S1000x256 : Shape := ⟨2, ![1000, 256]⟩
abbrev S512x128 : Shape := ⟨2, ![512, 128]⟩
abbrev S256x10x500 : Shape := ⟨3, ![256, 10, 500]⟩
abbrev S_ : Shape := ⟨0, ![]⟩
abbrev S256x1000 : Shape := ⟨2, ![256, 1000]⟩
abbrev S256x256 : Shape := ⟨2, ![256, 256]⟩
abbrev S1280x10x500 : Shape := ⟨3, ![1280, 10, 500]⟩
abbrev S1280x1000 : Shape := ⟨2, ![1280, 1000]⟩
abbrev S1280x256 : Shape := ⟨2, ![1280, 256]⟩
abbrev S2560x10x500 : Shape := ⟨3, ![2560, 10, 500]⟩
abbrev S2560x1000 : Shape := ⟨2, ![2560, 1000]⟩
abbrev S2560x256 : Shape := ⟨2, ![2560, 256]⟩
abbrev S12800x10x500 : Shape := ⟨3, ![12800, 10, 500]⟩
abbrev S12800x1000 : Shape := ⟨2, ![12800, 1000]⟩
abbrev S12800x256 : Shape := ⟨2, ![12800, 256]⟩
abbrev S256x10x256 : Shape := ⟨3, ![256, 10, 256]⟩
abbrev S256x512 : Shape := ⟨2, ![256, 512]⟩
abbrev S256x128 : Shape := ⟨2, ![256, 128]⟩
abbrev S1280x10x256 : Shape := ⟨3, ![1280, 10, 256]⟩
abbrev S1280x512 : Shape := ⟨2, ![1280, 512]⟩
abbrev S1280x128 : Shape := ⟨2, ![1280, 128]⟩

abbrev nBuf : Space → Nat
  | .hbm => 110
  | .vmem => 0
  | .smem => 0
  | _ => 0

abbrev bufTy : (tb : Table) → Fin (tcTables nBuf tb) → BufTy
  | .hbm, ⟨0, _⟩ => ⟨S256x500, .f32⟩
  | .hbm, ⟨1, _⟩ => ⟨S2560x500, .f32⟩
  | .hbm, ⟨2, _⟩ => ⟨S25600x500, .f32⟩
  | .hbm, ⟨3, _⟩ => ⟨S256x500, .f32⟩
  | .hbm, ⟨4, _⟩ => ⟨S2560x500, .f32⟩
  | .hbm, ⟨5, _⟩ => ⟨S25600x500, .f32⟩
  | .hbm, ⟨6, _⟩ => ⟨S1280x500, .f32⟩
  | .hbm, ⟨7, _⟩ => ⟨S12800x500, .f32⟩
  | .hbm, ⟨8, _⟩ => ⟨S128000x500, .f32⟩
  | .hbm, ⟨9, _⟩ => ⟨S1000x256, .f32⟩
  | .hbm, ⟨10, _⟩ => ⟨S512x128, .f32⟩
  | .hbm, ⟨11, _⟩ => ⟨S256x10x500, .f32⟩
  | .hbm, ⟨12, _⟩ => ⟨S_, .f32⟩
  | .hbm, ⟨13, _⟩ => ⟨S256x500, .f32⟩
  | .hbm, ⟨14, _⟩ => ⟨S_, .f32⟩
  | .hbm, ⟨15, _⟩ => ⟨S256x500, .f32⟩
  | .hbm, ⟨16, _⟩ => ⟨S256x500, .f32⟩
  | .hbm, ⟨17, _⟩ => ⟨S256x1000, .f32⟩
  | .hbm, ⟨18, _⟩ => ⟨S256x256, .f32⟩
  | .hbm, ⟨19, _⟩ => ⟨S_, .f32⟩
  | .hbm, ⟨20, _⟩ => ⟨S256x256, .f32⟩
  | .hbm, ⟨21, _⟩ => ⟨S256x256, .f32⟩
  | .hbm, ⟨22, _⟩ => ⟨S256x10x500, .f32⟩
  | .hbm, ⟨23, _⟩ => ⟨S_, .f32⟩
  | .hbm, ⟨24, _⟩ => ⟨S256x500, .f32⟩
  | .hbm, ⟨25, _⟩ => ⟨S_, .f32⟩
  | .hbm, ⟨26, _⟩ => ⟨S256x500, .f32⟩
  | .hbm, ⟨27, _⟩ => ⟨S256x500, .f32⟩
  | .hbm, ⟨28, _⟩ => ⟨S256x1000, .f32⟩
  | .hbm, ⟨29, _⟩ => ⟨S256x256, .f32⟩
  | .hbm, ⟨30, _⟩ => ⟨S_, .f32⟩
  | .hbm, ⟨31, _⟩ => ⟨S256x256, .f32⟩
  | .hbm, ⟨32, _⟩ => ⟨S256x256, .f32⟩
  | .hbm, ⟨33, _⟩ => ⟨S1280x10x500, .f32⟩
  | .hbm, ⟨34, _⟩ => ⟨S_, .f32⟩
  | .hbm, ⟨35, _⟩ => ⟨S1280x500, .f32⟩
  | .hbm, ⟨36, _⟩ => ⟨S_, .f32⟩
  | .hbm, ⟨37, _⟩ => ⟨S1280x500, .f32⟩
  | .hbm, ⟨38, _⟩ => ⟨S1280x500, .f32⟩
  | .hbm, ⟨39, _⟩ => ⟨S1280x1000, .f32⟩
  | .hbm, ⟨40, _⟩ => ⟨S1280x256, .f32⟩
  | .hbm, ⟨41, _⟩ => ⟨S_, .f32⟩
  | .hbm, ⟨42, _⟩ => ⟨S1280x256, .f32⟩
  | .hbm, ⟨43, _⟩ => ⟨S1280x256, .f32⟩
  | .hbm, ⟨44, _⟩ => ⟨S2560x10x500, .f32⟩
  | .hbm, ⟨45, _⟩ => ⟨S_, .f32⟩
  | .hbm, ⟨46, _⟩ => ⟨S2560x500, .f32⟩
  | .hbm, ⟨47, _⟩ => ⟨S_, .f32⟩
  | .hbm, ⟨48, _⟩ => ⟨S2560x500, .f32⟩
  | .hbm, ⟨49, _⟩ => ⟨S2560x500, .f32⟩
  | .hbm, ⟨50, _⟩ => ⟨S2560x1000, .f32⟩
  | .hbm, ⟨51, _⟩ => ⟨S2560x256, .f32⟩
  | .hbm, ⟨52, _⟩ => ⟨S_, .f32⟩
  | .hbm, ⟨53, _⟩ => ⟨S2560x256, .f32⟩
  | .hbm, ⟨54, _⟩ => ⟨S2560x256, .f32⟩
  | .hbm, ⟨55, _⟩ => ⟨S2560x10x500, .f32⟩
  | .hbm, ⟨56, _⟩ => ⟨S_, .f32⟩
  | .hbm, ⟨57, _⟩ => ⟨S2560x500, .f32⟩
  | .hbm, ⟨58, _⟩ => ⟨S_, .f32⟩
  | .hbm, ⟨59, _⟩ => ⟨S2560x500, .f32⟩
  | .hbm, ⟨60, _⟩ => ⟨S2560x500, .f32⟩
  | .hbm, ⟨61, _⟩ => ⟨S2560x1000, .f32⟩
  | .hbm, ⟨62, _⟩ => ⟨S2560x256, .f32⟩
  | .hbm, ⟨63, _⟩ => ⟨S_, .f32⟩
  | .hbm, ⟨64, _⟩ => ⟨S2560x256, .f32⟩
  | .hbm, ⟨65, _⟩ => ⟨S2560x256, .f32⟩
  | .hbm, ⟨66, _⟩ => ⟨S12800x10x500, .f32⟩
  | .hbm, ⟨67, _⟩ => ⟨S_, .f32⟩
  | .hbm, ⟨68, _⟩ => ⟨S12800x500, .f32⟩
  | .hbm, ⟨69, _⟩ => ⟨S_, .f32⟩
  | .hbm, ⟨70, _⟩ => ⟨S12800x500, .f32⟩
  | .hbm, ⟨71, _⟩ => ⟨S12800x500, .f32⟩
  | .hbm, ⟨72, _⟩ => ⟨S12800x1000, .f32⟩
  | .hbm, ⟨73, _⟩ => ⟨S12800x256, .f32⟩
  | .hbm, ⟨74, _⟩ => ⟨S_, .f32⟩
  | .hbm, ⟨75, _⟩ => ⟨S12800x256, .f32⟩
  | .hbm, ⟨76, _⟩ => ⟨S12800x256, .f32⟩
  | .hbm, ⟨77, _⟩ => ⟨S256x10x256, .f32⟩
  | .hbm, ⟨78, _⟩ => ⟨S_, .f32⟩
  | .hbm, ⟨79, _⟩ => ⟨S256x256, .f32⟩
  | .hbm, ⟨80, _⟩ => ⟨S_, .f32⟩
  | .hbm, ⟨81, _⟩ => ⟨S256x256, .f32⟩
  | .hbm, ⟨82, _⟩ => ⟨S256x256, .f32⟩
  | .hbm, ⟨83, _⟩ => ⟨S256x512, .f32⟩
  | .hbm, ⟨84, _⟩ => ⟨S256x128, .f32⟩
  | .hbm, ⟨85, _⟩ => ⟨S_, .f32⟩
  | .hbm, ⟨86, _⟩ => ⟨S256x128, .f32⟩
  | .hbm, ⟨87, _⟩ => ⟨S256x128, .f32⟩
  | .hbm, ⟨88, _⟩ => ⟨S256x10x256, .f32⟩
  | .hbm, ⟨89, _⟩ => ⟨S_, .f32⟩
  | .hbm, ⟨90, _⟩ => ⟨S256x256, .f32⟩
  | .hbm, ⟨91, _⟩ => ⟨S_, .f32⟩
  | .hbm, ⟨92, _⟩ => ⟨S256x256, .f32⟩
  | .hbm, ⟨93, _⟩ => ⟨S256x256, .f32⟩
  | .hbm, ⟨94, _⟩ => ⟨S256x512, .f32⟩
  | .hbm, ⟨95, _⟩ => ⟨S256x128, .f32⟩
  | .hbm, ⟨96, _⟩ => ⟨S_, .f32⟩
  | .hbm, ⟨97, _⟩ => ⟨S256x128, .f32⟩
  | .hbm, ⟨98, _⟩ => ⟨S256x128, .f32⟩
  | .hbm, ⟨99, _⟩ => ⟨S1280x10x256, .f32⟩
  | .hbm, ⟨100, _⟩ => ⟨S_, .f32⟩
  | .hbm, ⟨101, _⟩ => ⟨S1280x256, .f32⟩
  | .hbm, ⟨102, _⟩ => ⟨S_, .f32⟩
  | .hbm, ⟨103, _⟩ => ⟨S1280x256, .f32⟩
  | .hbm, ⟨104, _⟩ => ⟨S1280x256, .f32⟩
  | .hbm, ⟨105, _⟩ => ⟨S1280x512, .f32⟩
  | .hbm, ⟨106, _⟩ => ⟨S1280x128, .f32⟩
  | .hbm, ⟨107, _⟩ => ⟨S_, .f32⟩
  | .hbm, ⟨108, _⟩ => ⟨S1280x128, .f32⟩
  | .hbm, ⟨109, _⟩ => ⟨S1280x128, .f32⟩
  | _, _ => ⟨S256x500, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_cst : Ref sig .tc := ⟨.hbm, 12, rfl⟩
abbrev main_v1 : Ref sig .tc := ⟨.hbm, 13, rfl⟩
abbrev main_cst_0 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_call0_cst : Ref sig .tc := ⟨.hbm, 19, rfl⟩
abbrev main_call0_v0 : Ref sig .tc := ⟨.hbm, 20, rfl⟩
abbrev main_v6 : Ref sig .tc := ⟨.hbm, 21, rfl⟩
abbrev main_v7 : Ref sig .tc := ⟨.hbm, 22, rfl⟩
abbrev main_cst_1 : Ref sig .tc := ⟨.hbm, 23, rfl⟩
abbrev main_v8 : Ref sig .tc := ⟨.hbm, 24, rfl⟩
abbrev main_cst_2 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_call1_cst : Ref sig .tc := ⟨.hbm, 30, rfl⟩
abbrev main_call1_v0 : Ref sig .tc := ⟨.hbm, 31, rfl⟩
abbrev main_v13 : Ref sig .tc := ⟨.hbm, 32, rfl⟩
abbrev main_v14 : Ref sig .tc := ⟨.hbm, 33, rfl⟩
abbrev main_cst_3 : Ref sig .tc := ⟨.hbm, 34, rfl⟩
abbrev main_v15 : Ref sig .tc := ⟨.hbm, 35, rfl⟩
abbrev main_cst_4 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_call2_cst : Ref sig .tc := ⟨.hbm, 41, rfl⟩
abbrev main_call2_v0 : Ref sig .tc := ⟨.hbm, 42, rfl⟩
abbrev main_v20 : Ref sig .tc := ⟨.hbm, 43, rfl⟩
abbrev main_v21 : Ref sig .tc := ⟨.hbm, 44, rfl⟩
abbrev main_cst_5 : Ref sig .tc := ⟨.hbm, 45, rfl⟩
abbrev main_v22 : Ref sig .tc := ⟨.hbm, 46, rfl⟩
abbrev main_cst_6 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_call3_cst : Ref sig .tc := ⟨.hbm, 52, rfl⟩
abbrev main_call3_v0 : Ref sig .tc := ⟨.hbm, 53, rfl⟩
abbrev main_v27 : Ref sig .tc := ⟨.hbm, 54, rfl⟩
abbrev main_v28 : Ref sig .tc := ⟨.hbm, 55, rfl⟩
abbrev main_cst_7 : Ref sig .tc := ⟨.hbm, 56, rfl⟩
abbrev main_v29 : Ref sig .tc := ⟨.hbm, 57, rfl⟩
abbrev main_cst_8 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_call4_cst : Ref sig .tc := ⟨.hbm, 63, rfl⟩
abbrev main_call4_v0 : Ref sig .tc := ⟨.hbm, 64, rfl⟩
abbrev main_v34 : Ref sig .tc := ⟨.hbm, 65, rfl⟩
abbrev main_v35 : Ref sig .tc := ⟨.hbm, 66, rfl⟩
abbrev main_cst_9 : Ref sig .tc := ⟨.hbm, 67, rfl⟩
abbrev main_v36 : Ref sig .tc := ⟨.hbm, 68, rfl⟩
abbrev main_cst_10 : Ref sig .tc := ⟨.hbm, 69, rfl⟩
abbrev main_v37 : Ref sig .tc := ⟨.hbm, 70, rfl⟩
abbrev main_v38 : Ref sig .tc := ⟨.hbm, 71, rfl⟩
abbrev main_v39 : Ref sig .tc := ⟨.hbm, 72, rfl⟩
abbrev main_v40 : Ref sig .tc := ⟨.hbm, 73, rfl⟩
abbrev main_call5_cst : Ref sig .tc := ⟨.hbm, 74, rfl⟩
abbrev main_call5_v0 : Ref sig .tc := ⟨.hbm, 75, rfl⟩
abbrev main_v41 : Ref sig .tc := ⟨.hbm, 76, rfl⟩
abbrev main_v42 : Ref sig .tc := ⟨.hbm, 77, rfl⟩
abbrev main_cst_11 : Ref sig .tc := ⟨.hbm, 78, rfl⟩
abbrev main_v43 : Ref sig .tc := ⟨.hbm, 79, rfl⟩
abbrev main_cst_12 : Ref sig .tc := ⟨.hbm, 80, rfl⟩
abbrev main_v44 : Ref sig .tc := ⟨.hbm, 81, rfl⟩
abbrev main_v45 : Ref sig .tc := ⟨.hbm, 82, rfl⟩
abbrev main_v46 : Ref sig .tc := ⟨.hbm, 83, rfl⟩
abbrev main_v47 : Ref sig .tc := ⟨.hbm, 84, rfl⟩
abbrev main_call6_cst : Ref sig .tc := ⟨.hbm, 85, rfl⟩
abbrev main_call6_v0 : Ref sig .tc := ⟨.hbm, 86, rfl⟩
abbrev main_v48 : Ref sig .tc := ⟨.hbm, 87, rfl⟩
abbrev main_v49 : Ref sig .tc := ⟨.hbm, 88, rfl⟩
abbrev main_cst_13 : Ref sig .tc := ⟨.hbm, 89, rfl⟩
abbrev main_v50 : Ref sig .tc := ⟨.hbm, 90, rfl⟩
abbrev main_cst_14 : Ref sig .tc := ⟨.hbm, 91, rfl⟩
abbrev main_v51 : Ref sig .tc := ⟨.hbm, 92, rfl⟩
abbrev main_v52 : Ref sig .tc := ⟨.hbm, 93, rfl⟩
abbrev main_v53 : Ref sig .tc := ⟨.hbm, 94, rfl⟩
abbrev main_v54 : Ref sig .tc := ⟨.hbm, 95, rfl⟩
abbrev main_call7_cst : Ref sig .tc := ⟨.hbm, 96, rfl⟩
abbrev main_call7_v0 : Ref sig .tc := ⟨.hbm, 97, rfl⟩
abbrev main_v55 : Ref sig .tc := ⟨.hbm, 98, rfl⟩
abbrev main_v56 : Ref sig .tc := ⟨.hbm, 99, rfl⟩
abbrev main_cst_15 : Ref sig .tc := ⟨.hbm, 100, rfl⟩
abbrev main_v57 : Ref sig .tc := ⟨.hbm, 101, rfl⟩
abbrev main_cst_16 : Ref sig .tc := ⟨.hbm, 102, rfl⟩
abbrev main_v58 : Ref sig .tc := ⟨.hbm, 103, rfl⟩
abbrev main_v59 : Ref sig .tc := ⟨.hbm, 104, rfl⟩
abbrev main_v60 : Ref sig .tc := ⟨.hbm, 105, rfl⟩
abbrev main_v61 : Ref sig .tc := ⟨.hbm, 106, rfl⟩
abbrev main_call8_cst : Ref sig .tc := ⟨.hbm, 107, rfl⟩
abbrev main_call8_v0 : Ref sig .tc := ⟨.hbm, 108, rfl⟩
abbrev main_v62 : Ref sig .tc := ⟨.hbm, 109, rfl⟩

abbrev nD : Nat := 1
abbrev τ : Topo := Topo.v7x

variable {F : FTy → Type} [FloatOps F]

class Facts₀ : Prop where
  shapeCasts_S2560x500_S256x10x500 : S2560x500.ShapeCasts S256x10x500
  reducesTo_S256x10x500_S256x500_d1 : S256x10x500.ReducesTo [1] S256x500
  h_S_ : 0 < S_.numel
  bcast_S_S256x500 : S_.BroadcastsInDim S256x500 (![] : Fin 0 → Fin S256x500.rank)
  concatenates_S256x500_S256x500_S256x1000_d1 : Shape.Concatenates [S256x500, S256x500] S256x1000 1
  bcast_S_S256x256 : S_.BroadcastsInDim S256x256 (![] : Fin 0 → Fin S256x256.rank)
  shapeCasts_S12800x500_S1280x10x500 : S12800x500.ShapeCasts S1280x10x500
  reducesTo_S1280x10x500_S1280x500_d1 : S1280x10x500.ReducesTo [1] S1280x500
  bcast_S_S1280x500 : S_.BroadcastsInDim S1280x500 (![] : Fin 0 → Fin S1280x500.rank)
  concatenates_S1280x500_S1280x500_S1280x1000_d1 : Shape.Concatenates [S1280x500, S1280x500] S1280x1000 1
  bcast_S_S1280x256 : S_.BroadcastsInDim S1280x256 (![] : Fin 0 → Fin S1280x256.rank)
  shapeCasts_S25600x500_S2560x10x500 : S25600x500.ShapeCasts S2560x10x500
  reducesTo_S2560x10x500_S2560x500_d1 : S2560x10x500.ReducesTo [1] S2560x500
  bcast_S_S2560x500 : S_.BroadcastsInDim S2560x500 (![] : Fin 0 → Fin S2560x500.rank)
  concatenates_S2560x500_S2560x500_S2560x1000_d1 : Shape.Concatenates [S2560x500, S2560x500] S2560x1000 1
  bcast_S_S2560x256 : S_.BroadcastsInDim S2560x256 (![] : Fin 0 → Fin S2560x256.rank)
  shapeCasts_S128000x500_S12800x10x500 : S128000x500.ShapeCasts S12800x10x500
  reducesTo_S12800x10x500_S12800x500_d1 : S12800x10x500.ReducesTo [1] S12800x500
  bcast_S_S12800x500 : S_.BroadcastsInDim S12800x500 (![] : Fin 0 → Fin S12800x500.rank)
  concatenates_S12800x500_S12800x500_S12800x1000_d1 : Shape.Concatenates [S12800x500, S12800x500] S12800x1000 1
  bcast_S_S12800x256 : S_.BroadcastsInDim S12800x256 (![] : Fin 0 → Fin S12800x256.rank)
  shapeCasts_S2560x256_S256x10x256 : S2560x256.ShapeCasts S256x10x256
  reducesTo_S256x10x256_S256x256_d1 : S256x10x256.ReducesTo [1] S256x256
  concatenates_S256x256_S256x256_S256x512_d1 : Shape.Concatenates [S256x256, S256x256] S256x512 1
  bcast_S_S256x128 : S_.BroadcastsInDim S256x128 (![] : Fin 0 → Fin S256x128.rank)
  shapeCasts_S12800x256_S1280x10x256 : S12800x256.ShapeCasts S1280x10x256
  reducesTo_S1280x10x256_S1280x256_d1 : S1280x10x256.ReducesTo [1] S1280x256
  concatenates_S1280x256_S1280x256_S1280x512_d1 : Shape.Concatenates [S1280x256, S1280x256] S1280x512 1
  bcast_S_S1280x128 : S_.BroadcastsInDim S1280x128 (![] : Fin 0 → Fin S1280x128.rank)
  dot_S256x1000_S1000x256_S256x256_1_0_0_1_n_n_wf : DotDims.WF S256x1000 S1000x256 S256x256 [1] [0] [0] [1] [] []
  dot_S1280x1000_S1000x256_S1280x256_1_0_0_1_n_n_wf : DotDims.WF S1280x1000 S1000x256 S1280x256 [1] [0] [0] [1] [] []
  dot_S2560x1000_S1000x256_S2560x256_1_0_0_1_n_n_wf : DotDims.WF S2560x1000 S1000x256 S2560x256 [1] [0] [0] [1] [] []
  dot_S12800x1000_S1000x256_S12800x256_1_0_0_1_n_n_wf : DotDims.WF S12800x1000 S1000x256 S12800x256 [1] [0] [0] [1] [] []
  dot_S256x512_S512x128_S256x128_1_0_0_1_n_n_wf : DotDims.WF S256x512 S512x128 S256x128 [1] [0] [0] [1] [] []
  dot_S1280x512_S512x128_S1280x128_1_0_0_1_n_n_wf : DotDims.WF S1280x512 S512x128 S1280x128 [1] [0] [0] [1] [] []

variable [Facts₀]

def dot_S256x1000_S1000x256_S256x256_1_0_0_1_n_n : DotDims S256x1000 S1000x256 S256x256 where
  lhsContracting := [1]
  rhsContracting := [0]
  lhsNonContracting := [0]
  rhsNonContracting := [1]
  lhsBatch := []
  rhsBatch := []
  wf := dot_S256x1000_S1000x256_S256x256_1_0_0_1_n_n_wf
def dot_S1280x1000_S1000x256_S1280x256_1_0_0_1_n_n : DotDims S1280x1000 S1000x256 S1280x256 where
  lhsContracting := [1]
  rhsContracting := [0]
  lhsNonContracting := [0]
  rhsNonContracting := [1]
  lhsBatch := []
  rhsBatch := []
  wf := dot_S1280x1000_S1000x256_S1280x256_1_0_0_1_n_n_wf
def dot_S2560x1000_S1000x256_S2560x256_1_0_0_1_n_n : DotDims S2560x1000 S1000x256 S2560x256 where
  lhsContracting := [1]
  rhsContracting := [0]
  lhsNonContracting := [0]
  rhsNonContracting := [1]
  lhsBatch := []
  rhsBatch := []
  wf := dot_S2560x1000_S1000x256_S2560x256_1_0_0_1_n_n_wf
def dot_S12800x1000_S1000x256_S12800x256_1_0_0_1_n_n : DotDims S12800x1000 S1000x256 S12800x256 where
  lhsContracting := [1]
  rhsContracting := [0]
  lhsNonContracting := [0]
  rhsNonContracting := [1]
  lhsBatch := []
  rhsBatch := []
  wf := dot_S12800x1000_S1000x256_S12800x256_1_0_0_1_n_n_wf
def dot_S256x512_S512x128_S256x128_1_0_0_1_n_n : DotDims S256x512 S512x128 S256x128 where
  lhsContracting := [1]
  rhsContracting := [0]
  lhsNonContracting := [0]
  rhsNonContracting := [1]
  lhsBatch := []
  rhsBatch := []
  wf := dot_S256x512_S512x128_S256x128_1_0_0_1_n_n_wf
def dot_S1280x512_S512x128_S1280x128_1_0_0_1_n_n : DotDims S1280x512 S512x128 S1280x128 where
  lhsContracting := [1]
  rhsContracting := [0]
  lhsNonContracting := [0]
  rhsNonContracting := [1]
  lhsBatch := []
  rhsBatch := []
  wf := dot_S1280x512_S512x128_S1280x128_1_0_0_1_n_n_wf

class Facts : Prop extends Facts₀ where

variable [Facts]
-- ==== Proof.KSageData.lean ====
/-
  The data of the three aggregation regions of `Kernel`'s @main, at any float instance.

  Each region runs one layer `relu (self · W_self + mean_n (neigh) · W_neigh)` on a block of rows: per grid point it is
  handed a block of `self` rows, the matching block of neighbour rows (ten per row), and the two halves of the weight
  matrix whole, and it stores the whole output block.  Here are: a window's block at a point as a function of the
  region-entry contents, what the one store leaves in the output window's buffer, the per-region bookkeeping of what
  every window's buffer holds after each point, and the contents of the unscoped buffers at the eight boundaries of
  @main's seven items (four host stretches alternating with the three regions), folded from the launch memory.
-/
import proofs.«110833_j58789512348198_2_alg».proof.Proof.Gen.Kernel.Launch
import proofs.«110833_j58789512348198_2_alg».proof.Proof.Gen.Kernel.Skeleton
import proofs.«110833_j58789512348198_2_alg».proof.Proof.Gen.Kernel.Points
import Idealize.ShloMosaic.Lib.Pipeline.FrameBody
import Idealize.ShloMosaic.Lib.Pipeline.RegionsLoop
import Idealize.ShloMosaic.Lib.Pipeline.FrameSuffix

noncomputable section

namespace Cert.Kernel.Sage

open Idealize.ShloMosaic Idealize.ShloMosaic.TcCoe
open Idealize.SL Idealize.SL.RA Idealize.SL.BI
open scoped Idealize.SL.BI
open Idealize.SL.BI.BIBase Idealize.SL.Sem
open Idealize.ShloMosaic.Pipeline (Dat Cfg Window)
open Cert.Kernel Cert.Kernel.Gen

variable {F : FTy → Type} [FloatOps F]

variable (m : (ℓ : Loc nD τ sig) → Buf (Elt F) ℓ) (ρ : Dev nD → PrngReg)

section Regions

/- The contents of the TensorCore's buffers when a region is entered. -/
variable (V : (c : Dev nD) → (b : Ref sig .tc) → Buf (Elt F) ((c : Thread nD τ).loc b))

/-! ## Region 0: layer one on the 1792 stacked level-0 rows, 256 rows per point -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The whole block of `self` rows, of neighbour rows, of a weight half, of output rows. -/
abbrev rSelf0 : Rect S256x500 := Rect.unit (s := S256x500) ![0, 0] S256x500.size inb_S256x500_S256x500_0_0
abbrev rNeigh0 : Rect S256x10x500 := Rect.unit (s := S256x10x500) ![0, 0, 0] S256x10x500.size inb_S256x10x500_S256x10x500_0_0_0
abbrev rW0 : Rect S500x256 := Rect.unit (s := S500x256) ![0, 0] S500x256.size inb_S500x256_S500x256_0_0
abbrev rOut0 : Rect S256x256 := Rect.unit (s := S256x256) ![0, 0] S256x256.size inb_S256x256_S256x256_0_0

/-- What the body leaves in the output window's buffer: its one store, of the layer of the four input blocks. -/
def sageOut0 (xs : Vec F S256x500 .f32) (xn : Vec F S256x10x500 .f32) (ws wn : Vec F S500x256 .f32) : Vec F S256x256 .f32 :=
  View.canon [⟨rOut0, k0_pay1 (View.ld xn rNeigh0) (View.ld xs rSelf0) (View.ld ws rW0) (View.ld wn rW0)⟩]

/-- The bookkeeping of region 0 on core `c`: the arrays as the region finds them; after the body at point `t` each
    input's buffer still at its block and the output's at the layer of the input blocks; nothing owed, full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => sageOut0 (iblk0 V c 0 t) (iblk0 V c 1 t) (iblk0 V c 2 t) (iblk0 V c 3 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) :
    (dat0 V c).after 4 t = sageOut0 (iblk0 V c 0 t) (iblk0 V c 1 t) (iblk0 V c 2 t) (iblk0 V c 3 t) := by dsimp only [dat0]

/-! ## Region 1: layer one on the 17920 stacked level-1 rows, 640 rows per point -/

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev rSelf1 : Rect S640x500 := Rect.unit (s := S640x500) ![0, 0] S640x500.size inb_S640x500_S640x500_0_0
abbrev rNeigh1 : Rect S640x10x500 := Rect.unit (s := S640x10x500) ![0, 0, 0] S640x10x500.size inb_S640x10x500_S640x10x500_0_0_0
abbrev rOut1 : Rect S640x256 := Rect.unit (s := S640x256) ![0, 0] S640x256.size inb_S640x256_S640x256_0_0

def sageOut1 (xs : Vec F S640x500 .f32) (xn : Vec F S640x10x500 .f32) (ws wn : Vec F S500x256 .f32) : Vec F S640x256 .f32 :=
  View.canon [⟨rOut1, k1_pay1 (View.ld xn rNeigh1) (View.ld xs rSelf1) (View.ld ws rW0) (View.ld wn rW0)⟩]

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => sageOut1 (iblk1 V c 0 t) (iblk1 V c 1 t) (iblk1 V c 2 t) (iblk1 V c 3 t)
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) :
    (dat1 V c).after 4 t = sageOut1 (iblk1 V c 0 t) (iblk1 V c 1 t) (iblk1 V c 2 t) (iblk1 V c 3 t) := by dsimp only [dat1]

/-! ## Region 2: layer two on the 1792 stacked rows of layer one's outputs, 256 rows per point -/

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev rSelf2 : Rect S256x256 := Rect.unit (s := S256x256) ![0, 0] S256x256.size inb_S256x256_S256x256_0_0
abbrev rNeigh2 : Rect S256x10x256 := Rect.unit (s := S256x10x256) ![0, 0, 0] S256x10x256.size inb_S256x10x256_S256x10x256_0_0_0
abbrev rW2 : Rect S256x128 := Rect.unit (s := S256x128) ![0, 0] S256x128.size inb_S256x128_S256x128_0_0
abbrev rOut2 : Rect S256x128 := Rect.unit (s := S256x128) ![0, 0] S256x128.size inb_S256x128_S256x128_0_0

def sageOut2 (xs : Vec F S256x256 .f32) (xn : Vec F S256x10x256 .f32) (ws wn : Vec F S256x128 .f32) : Vec F S256x128 .f32 :=
  View.canon [⟨rOut2, k2_pay1 (View.ld xn rNeigh2) (View.ld xs rSelf2) (View.ld ws rW2) (View.ld wn rW2)⟩]

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => sageOut2 (iblk2 V c 0 t) (iblk2 V c 1 t) (iblk2 V c 2 t) (iblk2 V c 3 t)
  Φ _ := Pipeline.ΦA spec2 c
  q _ := fullShare
  owed _ := 0

theorem A_eq2 (c : Dev nD) (w : Fin cfg2.W) : (dat2 V c).A w = V c (Pipeline.arrRef spec2 w) := by
  dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) :
    (dat2 V c).after 4 t = sageOut2 (iblk2 V c 0 t) (iblk2 V c 1 t) (iblk2 V c 2 t) (iblk2 V c 3 t) := by dsimp only [dat2]

end Regions

/-! ## The buffers' contents at the boundaries of @main's seven items -/

/-- Core `c`'s buffers at launch. -/
abbrev W0 : Dev nD → Valuation τ sig (Elt F) := fun c b => (s₀ m ρ).mem ((c : Dev nD), b)
/-- After the first host stretch: region 0's entry. -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At region 0's exit: its arrays at what its write-backs leave, every other buffer as entered. -/
def W2 (c : Dev nD) : Valuation τ sig (Elt F) :=
  Pipeline.withArrays spec0 c (W1 m ρ c) fun w => (dat0 (V1 m ρ) c).arrAt w cfg0.N
abbrev V2 : (c : Dev nD) → (b : Ref sig .tc) → Buf (Elt F) ((c : Thread nD τ).loc b) := fun c b => W2 m ρ c b
/-- After the second host stretch: region 1's entry. -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- At region 1's exit. -/
def W4 (c : Dev nD) : Valuation τ sig (Elt F) :=
  Pipeline.withArrays spec1 c (W3 m ρ c) fun w => (dat1 (V3 m ρ) c).arrAt w cfg1.N
abbrev V4 : (c : Dev nD) → (b : Ref sig .tc) → Buf (Elt F) ((c : Thread nD τ).loc b) := fun c b => W4 m ρ c b
/-- After the third host stretch: region 2's entry. -/
abbrev W5 : Dev nD → Valuation τ sig (Elt F) := fun c => StableHlo.after hostOps2 (W4 m ρ c)
abbrev V5 : (c : Dev nD) → (b : Ref sig .tc) → Buf (Elt F) ((c : Thread nD τ).loc b) := fun c b => W5 m ρ c b
/-- At region 2's exit. -/
def W6 (c : Dev nD) : Valuation τ sig (Elt F) :=
  Pipeline.withArrays spec2 c (W5 m ρ c) fun w => (dat2 (V5 m ρ) c).arrAt w cfg2.N
abbrev V6 : (c : Dev nD) → (b : Ref sig .tc) → Buf (Elt F) ((c : Thread nD τ).loc b) := fun c b => W6 m ρ c b
/-- After the last host stretch: the return. -/
abbrev W7 : Dev nD → Valuation τ sig (Elt F) := fun c => StableHlo.after hostOps3 (W6 m ρ c)

theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb

/-- The tables' admissible contents: no region has a table. -/
abbrev adm : (p : Fin 3) → (pcfgs (F := F) p).Adm := fun p => (cfgs p).toPCfg_adm

/-- Every region's bookkeeping, each at its region's entry contents. -/
def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c

end Cert.Kernel.Sage

end
-- ==== Proof.KSageBody0.lean ====
/-
  Region 0: one grid point of the layer.

  At every grid point the four input windows' staging buffers hold their blocks of the arrays as the region found them
  (a block that is not fetched again at a point is the block of the point before: its index did not move); the body
  reads the four blocks whole, reads the output window's buffer whole (a value nothing uses), and overwrites the output
  window's buffer whole with the layer of the four blocks.  One store of the whole rectangle covers the buffer, so what
  the buffer holds afterwards is that payload, whatever it held before.
-/
import proofs.«110833_j58789512348198_2_alg».proof.Proof.KSageData
import Idealize.ShloMosaic.Lib.Pipeline.FrameBody
import Idealize.ShloMosaic.Lib.Ring
import Idealize.ShloMosaic.Lib.Tactic

set_option maxRecDepth 16384

noncomputable section

namespace Cert.Kernel.Sage

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-! ## What the body finds in the input windows' buffers -/

/-- Input window 0's current buffer holds its block at every point, fetched there or not: the window is uncut and
    never idle, and the body leaves the block in place. -/
theorem before0_0 (c : Dev nD) (t : Fin cfg0.N) (d) : (dat0 V c).before 0 t d = iblk0 V c 0 t :=
  ((dat0 V c).before_in_eq_fetched 0 rfl (fun _ => rfl) (fun _ _ _ => rfl)
      (fun t => by rw [after0_0]; unfold Dat.blockOf iblk0; rw [A_eq0]; try rfl) t d).trans
    (by unfold Dat.fetched Dat.blockOf iblk0; rw [A_eq0]; try rfl)

/-- Input window 1's current buffer holds its block at every point, fetched there or not: the window is uncut and
    never idle, and the body leaves the block in place. -/
theorem before0_1 (c : Dev nD) (t : Fin cfg0.N) (d) : (dat0 V c).before 1 t d = iblk0 V c 1 t :=
  ((dat0 V c).before_in_eq_fetched 1 rfl (fun _ => rfl) (fun _ _ _ => rfl)
      (fun t => by rw [after0_1]; unfold Dat.blockOf iblk0; rw [A_eq0]; try rfl) t d).trans
    (by unfold Dat.fetched Dat.blockOf iblk0; rw [A_eq0]; try rfl)

/-- Input window 2's current buffer holds its block at every point, fetched there or not: the window is uncut and
    never idle, and the body leaves the block in place. -/
theorem before0_2 (c : Dev nD) (t : Fin cfg0.N) (d) : (dat0 V c).before 2 t d = iblk0 V c 2 t :=
  ((dat0 V c).before_in_eq_fetched 2 rfl (fun _ => rfl) (fun _ _ _ => rfl)
      (fun t => by rw [after0_2]; unfold Dat.blockOf iblk0; rw [A_eq0]; try rfl) t d).trans
    (by unfold Dat.fetched Dat.blockOf iblk0; rw [A_eq0]; try rfl)

/-- Input window 3's current buffer holds its block at every point, fetched there or not: the window is uncut and
    never idle, and the body leaves the block in place. -/
theorem before0_3 (c : Dev nD) (t : Fin cfg0.N) (d) : (dat0 V c).before 3 t d = iblk0 V c 3 t :=
  ((dat0 V c).before_in_eq_fetched 3 rfl (fun _ => rfl) (fun _ _ _ => rfl)
      (fun t => by rw [after0_3]; unfold Dat.blockOf iblk0; rw [A_eq0]; try rfl) t d).trans
    (by unfold Dat.fetched Dat.blockOf iblk0; rw [A_eq0]; try rfl)

end

/-! ## The one store covers the output window's buffer -/

theorem cover0 (p0 : Vec F S256x256 .f32) (y : S256x256.Idx) :
    ∃ pc ∈ ([⟨rOut0, p0⟩] : List (View.Piece (Elt F) S256x256 .f32)), y ∈ pc.1.set :=
  View.cover_of_tiled [⟨rOut0, p0⟩] S256x256.size (by rfl) y

/-! ## The body's triple -/

set_option maxHeartbeats 1000000 in
/-- The body on whole buffers, the four inputs' at read contents and the output's at anything, runs to the continuation
    holding the inputs' as they were and the output's at the layer of the inputs. -/
theorem sound_kernel0 (c : Dev nD) (E : Set ℕ) (i : grid0.Coords)
    (arg1 : Memref sig .tc .vmem S256x500 .f32) (harg1 : arg1.IsWhole)
    (arg2 : Memref sig .tc .vmem S256x10x500 .f32) (harg2 : arg2.IsWhole)
    (arg3 : Memref sig .tc .vmem S500x256 .f32) (harg3 : arg3.IsWhole)
    (arg4 : Memref sig .tc .vmem S500x256 .f32) (harg4 : arg4.IsWhole)
    (arg5 : Memref sig .tc .vmem S256x256 .f32) (harg5 : arg5.IsWhole)
    (x0 : Vec F S256x500 .f32) (x1 : Vec F S256x10x500 .f32) (x2 x3 : Vec F S500x256 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ (∃ d, owns (c : Thread nD τ) arg5 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare (sageOut0 x0 x1 x2 x3)) -∗ K ⟨⟩))
      ⊢ wp frame (wpE (defs₀ (F := F)) Variants.none c none) E
          (cc0__sage_layer_kernel i arg1 harg1 arg2 harg2 arg3 harg3 arg4 harg4 arg5 harg5) K := by
  simp only [cc0__sage_layer_kernel_eq_skeleton]; unfold cc0__sage_layer_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover0 _)

section
variable (V : (c : Dev nD) → (b : Ref sig .tc) → Buf (Elt F) ((c : Thread nD τ).loc b))

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

/-- The body at any point: the inputs' buffers hold their blocks, so the triple applies; the invariant and what the
    core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel0 c Set.univ _ _ _ _ _ _ _ _ _ _ _ (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body obligation, at every point. -/
theorem body_obligation0 (c : Dev nD) : BodyObligation (dat0 (F := F) V c) (defs₀ (F := F)) Variants.none () Set.univ := fun t => by
  rw [bigSep_W0, bigSep_W0]
  exact sound_body0 V c t

end

end Cert.Kernel.Sage

end
-- ==== Proof.KSageBody1.lean ====
/-
  Region 1: one grid point of the layer.

  At every grid point the four input windows' staging buffers hold their blocks of the arrays as the region found them
  (a block that is not fetched again at a point is the block of the point before: its index did not move); the body
  reads the four blocks whole, reads the output window's buffer whole (a value nothing uses), and overwrites the output
  window's buffer whole with the layer of the four blocks.  One store of the whole rectangle covers the buffer, so what
  the buffer holds afterwards is that payload, whatever it held before.
-/
import proofs.«110833_j58789512348198_2_alg».proof.Proof.KSageData
import Idealize.ShloMosaic.Lib.Pipeline.FrameBody
import Idealize.ShloMosaic.Lib.Ring
import Idealize.ShloMosaic.Lib.Tactic

set_option maxRecDepth 16384

noncomputable section

namespace Cert.Kernel.Sage

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-! ## What the body finds in the input windows' buffers -/

/-- Input window 0's current buffer holds its block at every point, fetched there or not: the window is uncut and
    never idle, and the body leaves the block in place. -/
theorem before1_0 (c : Dev nD) (t : Fin cfg1.N) (d) : (dat1 V c).before 0 t d = iblk1 V c 0 t :=
  ((dat1 V c).before_in_eq_fetched 0 rfl (fun _ => rfl) (fun _ _ _ => rfl)
      (fun t => by rw [after1_0]; unfold Dat.blockOf iblk1; rw [A_eq1]; try rfl) t d).trans
    (by unfold Dat.fetched Dat.blockOf iblk1; rw [A_eq1]; try rfl)

/-- Input window 1's current buffer holds its block at every point, fetched there or not: the window is uncut and
    never idle, and the body leaves the block in place. -/
theorem before1_1 (c : Dev nD) (t : Fin cfg1.N) (d) : (dat1 V c).before 1 t d = iblk1 V c 1 t :=
  ((dat1 V c).before_in_eq_fetched 1 rfl (fun _ => rfl) (fun _ _ _ => rfl)
      (fun t => by rw [after1_1]; unfold Dat.blockOf iblk1; rw [A_eq1]; try rfl) t d).trans
    (by unfold Dat.fetched Dat.blockOf iblk1; rw [A_eq1]; try rfl)

/-- Input window 2's current buffer holds its block at every point, fetched there or not: the window is uncut and
    never idle, and the body leaves the block in place. -/
theorem before1_2 (c : Dev nD) (t : Fin cfg1.N) (d) : (dat1 V c).before 2 t d = iblk1 V c 2 t :=
  ((dat1 V c).before_in_eq_fetched 2 rfl (fun _ => rfl) (fun _ _ _ => rfl)
      (fun t => by rw [after1_2]; unfold Dat.blockOf iblk1; rw [A_eq1]; try rfl) t d).trans
    (by unfold Dat.fetched Dat.blockOf iblk1; rw [A_eq1]; try rfl)

/-- Input window 3's current buffer holds its block at every point, fetched there or not: the window is uncut and
    never idle, and the body leaves the block in place. -/
theorem before1_3 (c : Dev nD) (t : Fin cfg1.N) (d) : (dat1 V c).before 3 t d = iblk1 V c 3 t :=
  ((dat1 V c).before_in_eq_fetched 3 rfl (fun _ => rfl) (fun _ _ _ => rfl)
      (fun t => by rw [after1_3]; unfold Dat.blockOf iblk1; rw [A_eq1]; try rfl) t d).trans
    (by unfold Dat.fetched Dat.blockOf iblk1; rw [A_eq1]; try rfl)

end

/-! ## The one store covers the output window's buffer -/

theorem cover1 (p0 : Vec F S640x256 .f32) (y : S640x256.Idx) :
    ∃ pc ∈ ([⟨rOut1, p0⟩] : List (View.Piece (Elt F) S640x256 .f32)), y ∈ pc.1.set :=
  View.cover_of_tiled [⟨rOut1, p0⟩] S640x256.size (by rfl) y

/-! ## The body's triple -/

set_option maxHeartbeats 1000000 in
/-- The body on whole buffers, the four inputs' at read contents and the output's at anything, runs to the continuation
    holding the inputs' as they were and the output's at the layer of the inputs. -/
theorem sound_kernel1 (c : Dev nD) (E : Set ℕ) (i : grid1.Coords)
    (arg1 : Memref sig .tc .vmem S640x500 .f32) (harg1 : arg1.IsWhole)
    (arg2 : Memref sig .tc .vmem S640x10x500 .f32) (harg2 : arg2.IsWhole)
    (arg3 : Memref sig .tc .vmem S500x256 .f32) (harg3 : arg3.IsWhole)
    (arg4 : Memref sig .tc .vmem S500x256 .f32) (harg4 : arg4.IsWhole)
    (arg5 : Memref sig .tc .vmem S640x256 .f32) (harg5 : arg5.IsWhole)
    (x0 : Vec F S640x500 .f32) (x1 : Vec F S640x10x500 .f32) (x2 x3 : Vec F S500x256 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ (∃ d, owns (c : Thread nD τ) arg5 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare (sageOut1 x0 x1 x2 x3)) -∗ K ⟨⟩))
      ⊢ wp frame (wpE (defs₀ (F := F)) Variants.none c none) E
          (cc1__sage_layer_kernel i arg1 harg1 arg2 harg2 arg3 harg3 arg4 harg4 arg5 harg5) K := by
  simp only [cc1__sage_layer_kernel_eq_skeleton]; unfold cc1__sage_layer_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover1 _)

section
variable (V : (c : Dev nD) → (b : Ref sig .tc) → Buf (Elt F) ((c : Thread nD τ).loc b))

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

/-- The body at any point: the inputs' buffers hold their blocks, so the triple applies; the invariant and what the
    core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ _ _ _ _ _ _ _ _ _ _ _ (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body obligation, at every point. -/
theorem body_obligation1 (c : Dev nD) : BodyObligation (dat1 (F := F) V c) (defs₀ (F := F)) Variants.none () Set.univ := fun t => by
  rw [bigSep_W1, bigSep_W1]
  exact sound_body1 V c t

end

end Cert.Kernel.Sage

end
-- ==== Proof.KSageBody2.lean ====
/-
  Region 2: one grid point of the layer.

  At every grid point the four input windows' staging buffers hold their blocks of the arrays as the region found them
  (a block that is not fetched again at a point is the block of the point before: its index did not move); the body
  reads the four blocks whole, reads the output window's buffer whole (a value nothing uses), and overwrites the output
  window's buffer whole with the layer of the four blocks.  One store of the whole rectangle covers the buffer, so what
  the buffer holds afterwards is that payload, whatever it held before.
-/
import proofs.«110833_j58789512348198_2_alg».proof.Proof.KSageData
import Idealize.ShloMosaic.Lib.Pipeline.FrameBody
import Idealize.ShloMosaic.Lib.Ring
import Idealize.ShloMosaic.Lib.Tactic

set_option maxRecDepth 16384

noncomputable section

namespace Cert.Kernel.Sage

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-! ## What the body finds in the input windows' buffers -/

/-- Input window 0's current buffer holds its block at every point, fetched there or not: the window is uncut and
    never idle, and the body leaves the block in place. -/
theorem before2_0 (c : Dev nD) (t : Fin cfg2.N) (d) : (dat2 V c).before 0 t d = iblk2 V c 0 t :=
  ((dat2 V c).before_in_eq_fetched 0 rfl (fun _ => rfl) (fun _ _ _ => rfl)
      (fun t => by rw [after2_0]; unfold Dat.blockOf iblk2; rw [A_eq2]; try rfl) t d).trans
    (by unfold Dat.fetched Dat.blockOf iblk2; rw [A_eq2]; try rfl)

/-- Input window 1's current buffer holds its block at every point, fetched there or not: the window is uncut and
    never idle, and the body leaves the block in place. -/
theorem before2_1 (c : Dev nD) (t : Fin cfg2.N) (d) : (dat2 V c).before 1 t d = iblk2 V c 1 t :=
  ((dat2 V c).before_in_eq_fetched 1 rfl (fun _ => rfl) (fun _ _ _ => rfl)
      (fun t => by rw [after2_1]; unfold Dat.blockOf iblk2; rw [A_eq2]; try rfl) t d).trans
    (by unfold Dat.fetched Dat.blockOf iblk2; rw [A_eq2]; try rfl)

/-- Input window 2's current buffer holds its block at every point, fetched there or not: the window is uncut and
    never idle, and the body leaves the block in place. -/
theorem before2_2 (c : Dev nD) (t : Fin cfg2.N) (d) : (dat2 V c).before 2 t d = iblk2 V c 2 t :=
  ((dat2 V c).before_in_eq_fetched 2 rfl (fun _ => rfl) (fun _ _ _ => rfl)
      (fun t => by rw [after2_2]; unfold Dat.blockOf iblk2; rw [A_eq2]; try rfl) t d).trans
    (by unfold Dat.fetched Dat.blockOf iblk2; rw [A_eq2]; try rfl)

/-- Input window 3's current buffer holds its block at every point, fetched there or not: the window is uncut and
    never idle, and the body leaves the block in place. -/
theorem before2_3 (c : Dev nD) (t : Fin cfg2.N) (d) : (dat2 V c).before 3 t d = iblk2 V c 3 t :=
  ((dat2 V c).before_in_eq_fetched 3 rfl (fun _ => rfl) (fun _ _ _ => rfl)
      (fun t => by rw [after2_3]; unfold Dat.blockOf iblk2; rw [A_eq2]; try rfl) t d).trans
    (by unfold Dat.fetched Dat.blockOf iblk2; rw [A_eq2]; try rfl)

end

/-! ## The one store covers the output window's buffer -/

theorem cover2 (p0 : Vec F S256x128 .f32) (y : S256x128.Idx) :
    ∃ pc ∈ ([⟨rOut2, p0⟩] : List (View.Piece (Elt F) S256x128 .f32)), y ∈ pc.1.set :=
  View.cover_of_tiled [⟨rOut2, p0⟩] S256x128.size (by rfl) y

/-! ## The body's triple -/

set_option maxHeartbeats 1000000 in
/-- The body on whole buffers, the four inputs' at read contents and the output's at anything, runs to the continuation
    holding the inputs' as they were and the output's at the layer of the inputs. -/
theorem sound_kernel2 (c : Dev nD) (E : Set ℕ) (i : grid2.Coords)
    (arg1 : Memref sig .tc .vmem S256x256 .f32) (harg1 : arg1.IsWhole)
    (arg2 : Memref sig .tc .vmem S256x10x256 .f32) (harg2 : arg2.IsWhole)
    (arg3 : Memref sig .tc .vmem S256x128 .f32) (harg3 : arg3.IsWhole)
    (arg4 : Memref sig .tc .vmem S256x128 .f32) (harg4 : arg4.IsWhole)
    (arg5 : Memref sig .tc .vmem S256x128 .f32) (harg5 : arg5.IsWhole)
    (x0 : Vec F S256x256 .f32) (x1 : Vec F S256x10x256 .f32) (x2 x3 : Vec F S256x128 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ (∃ d, owns (c : Thread nD τ) arg5 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare (sageOut2 x0 x1 x2 x3)) -∗ K ⟨⟩))
      ⊢ wp frame (wpE (defs₀ (F := F)) Variants.none c none) E
          (cc2__sage_layer_kernel i arg1 harg1 arg2 harg2 arg3 harg3 arg4 harg4 arg5 harg5) K := by
  simp only [cc2__sage_layer_kernel_eq_skeleton]; unfold cc2__sage_layer_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover2 _)

section
variable (V : (c : Dev nD) → (b : Ref sig .tc) → Buf (Elt F) ((c : Thread nD τ).loc b))

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t))

/-- The body at any point: the inputs' buffers hold their blocks, so the triple applies; the invariant and what the
    core owes pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).Φ t.succ = (dat2 V c).Φ t.castSucc from rfl,
    show (dat2 V c).owesAt () t.succ = (dat2 V c).owesAt () t.castSucc from rfl,
    after2_0, after2_1, after2_2, after2_3, after2_4]
  iintro ⟨HΦ, Ho, ⟨%d0, H0⟩, ⟨%d1, H1⟩, ⟨%d2, H2⟩, ⟨%d3, H3⟩, ⟨%d4, H4⟩⟩
  iapply (sound_kernel2 c Set.univ _ _ _ _ _ _ _ _ _ _ _ (iblk2 V c 0 t) (iblk2 V c 1 t) (iblk2 V c 2 t) (iblk2 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body obligation, at every point. -/
theorem body_obligation2 (c : Dev nD) : BodyObligation (dat2 (F := F) V c) (defs₀ (F := F)) Variants.none () Set.univ := fun t => by
  rw [bigSep_W2, bigSep_W2]
  exact sound_body2 V c t

end

end Cert.Kernel.Sage

end
-- ==== Proof.KSageRun.lean ====
/-
  The run of `Kernel`'s @main: four host stretches alternating with the three aggregation regions.

  The thread state between two items is "every unscoped buffer whole at the boundary's contents, the generator register at
  some state, nothing owed".  A host stretch takes the contents to their image under its operations; a region takes its
  windows' arrays out of the unscoped buffers, runs its pipeline from the region's bookkeeping, and puts the arrays back at
  what the write-backs leave, every other buffer as entered.  Chaining the seven items from the launch memory and reading
  the last thread state against the final memory gives: every unscoped buffer ends at the last boundary's contents.
-/
import proofs.«110833_j58789512348198_2_alg».proof.Proof.KSageData
import proofs.«110833_j58789512348198_2_alg».proof.Proof.KSageBody0
import proofs.«110833_j58789512348198_2_alg».proof.Proof.KSageBody1
import proofs.«110833_j58789512348198_2_alg».proof.Proof.KSageBody2
import proofs.«110833_j58789512348198_2_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Sage

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## At a region's exit each of its arrays holds what the pipeline leaves, every other buffer what it held at entry -/

theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)

/-! ## The thread state -/

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state, and what it owes, nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- No operation of a host stretch allocates a buffer. -/
theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps2_fresh : (hostOps2 : List (HloOp τ sig (Elt F))).Forall fun op => op.fresh = ∅ := by
  simp only [List.Forall]; repeat' constructor
theorem hostOps3_fresh : (hostOps3 : List (HloOp τ sig (Elt F))).Forall fun op => op.fresh = ∅ := by
  simp only [List.Forall]; repeat' constructor

/-- The last thread state without what the core owes: every unscoped buffer at the last boundary's contents, the generator
    register at some state. -/
abbrev Tₙ (c : Dev nD) : sProp 𝕄 := iprop(StableHlo.held (c : Thread nD τ) (Pipeline.ucRefs τ sig) (W7 m ρ c) ∗ ∃ r, prngReg c r)

/-- The state the last host stretch leaves is the last thread state beside the core owing nothing. -/
theorem last_state (c : Dev nD) :
    (iprop(StableHlo.held (c : Thread nD τ) (Pipeline.ucRefs τ sig) (W7 m ρ c) ∗ R c) : sProp 𝕄)
      ⊢ iprop(Tₙ m ρ c ∗ ∃ W, owes (c : Thread nD τ) (0 : CellTallies nD τ sig Unit) W) := by
  iintro ⟨Hh, Hp, HO⟩
  isplitl [Hh Hp]
  · isplitl [Hh]; · iexact Hh
    iexact Hp
  iexact HO

/-! ## The regions as segments -/

-- a library lemma stated over the pinned configuration unifies with the printed one only when unification may unfold
-- plain definitions in a metavariable's type
set_option backward.isDefEq.respectTransparency.types false in
/-- Region 0 over the thread state: entered from every unscoped buffer at `W1`, left at `W2`.  Its arrays are split out
    of the unscoped buffers and put back at the exit contents; the generator register goes into the region's invariant
    and comes out; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- Region 1 over the thread state: entered from every unscoped buffer at `W3`, left at `W4`.  Its arrays are split out
    of the unscoped buffers and put back at the exit contents; the generator register goes into the region's invariant
    and comes out; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- Region 2 over the thread state: entered from every unscoped buffer at `W5`, left at `W6`.  Its arrays are split out
    of the unscoped buffers and put back at the exit contents; the generator register goes into the region's invariant
    and comes out; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's seven items in order. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)) ]

/-- @main is the run of the segments. -/
theorem main_run (c : Dev nD) : main (F := F) c = Pipeline.Seg.run (segs m ρ) := (main_chain c).trans (by chain_rfl)

-- the launch theorem's implicit arguments are found by unifying its conclusion with this one, which takes unfolding plain
-- definitions in a metavariable's type
set_option backward.isDefEq.respectTransparency.types false in
/-- From any memory with zero counters, every weakly fair execution of @main terminates, nothing faulting, and in every final
    state each unscoped buffer of each core holds the last boundary's contents. -/
theorem run_all : θ_run defs (onTc (τ := τ) (main (F := F))) ⟨m, fun _ => 0, ρ⟩ (fun r => ∀ c : Dev nD,
      ∀ b ∈ Pipeline.ucRefs τ sig, r.2.mem ((c : Thread nD τ).1, b) = W7 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => last_state m ρ c⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c => h c)

/-! ## The arguments end as launched -/

/-- A buffer that no host stretch writes and that is no window's array of any region holds at the return what it held at
    launch: the fold of the boundary contents at it walks back to the launch memory. -/
theorem W7_of_untouched (c : Dev nD) (r : Ref sig .tc)
    (h3 : r ∉ hostOps3_W) (h2 : r ∉ hostOps2_W) (h1 : r ∉ hostOps1_W) (h0 : r ∉ hostOps0_W)
    (a2 : ∀ w, Pipeline.arrRef spec2 w ≠ r) (a1 : ∀ w, Pipeline.arrRef spec1 w ≠ r) (a0 : ∀ w, Pipeline.arrRef spec0 w ≠ r) :
    W7 m ρ c (Proc.devRef .tc r) = m ((c : Thread nD τ).loc r) :=
  calc W7 m ρ c (Proc.devRef .tc r)
    _ = W6 m ρ c (Proc.devRef .tc r) := StableHlo.after_of_writes_sub hostOps3 _ hostOps3_writes h3
    _ = W5 m ρ c (Proc.devRef .tc r) := W6_of_ne m ρ c r a2
    _ = W4 m ρ c (Proc.devRef .tc r) := StableHlo.after_of_writes_sub hostOps2 _ hostOps2_writes h2
    _ = W3 m ρ c (Proc.devRef .tc r) := W4_of_ne m ρ c r a1
    _ = W2 m ρ c (Proc.devRef .tc r) := StableHlo.after_of_writes_sub hostOps1 _ hostOps1_writes h1
    _ = W1 m ρ c (Proc.devRef .tc r) := W2_of_ne m ρ c r a0
    _ = W0 m ρ c (Proc.devRef .tc r) := StableHlo.after_of_writes_sub hostOps0 _ hostOps0_writes h0
    _ = m ((c : Thread nD τ).loc r) := rfl

/-- `main_arg0` is written by no host stretch and is no region's array (the regions read stacked copies). -/
theorem W7_main_arg0 (c : Dev nD) : W7 m ρ c (Proc.devRef .tc main_arg0) = m ((c : Thread nD τ).loc main_arg0) :=
  W7_of_untouched m ρ c main_arg0 (by decide) (by decide) (by decide) (by decide) (by decide) (by decide) (by decide)
/-- `main_arg1` is written by no host stretch and is no region's array (the regions read stacked copies). -/
theorem W7_main_arg1 (c : Dev nD) : W7 m ρ c (Proc.devRef .tc main_arg1) = m ((c : Thread nD τ).loc main_arg1) :=
  W7_of_untouched m ρ c main_arg1 (by decide) (by decide) (by decide) (by decide) (by decide) (by decide) (by decide)
/-- `main_arg2` is written by no host stretch and is no region's array (the regions read stacked copies). -/
theorem W7_main_arg2 (c : Dev nD) : W7 m ρ c (Proc.devRef .tc main_arg2) = m ((c : Thread nD τ).loc main_arg2) :=
  W7_of_untouched m ρ c main_arg2 (by decide) (by decide) (by decide) (by decide) (by decide) (by decide) (by decide)
/-- `main_arg3` is written by no host stretch and is no region's array (the regions read stacked copies). -/
theorem W7_main_arg3 (c : Dev nD) : W7 m ρ c (Proc.devRef .tc main_arg3) = m ((c : Thread nD τ).loc main_arg3) :=
  W7_of_untouched m ρ c main_arg3 (by decide) (by decide) (by decide) (by decide) (by decide) (by decide) (by decide)
/-- `main_arg4` is written by no host stretch and is no region's array (the regions read stacked copies). -/
theorem W7_main_arg4 (c : Dev nD) : W7 m ρ c (Proc.devRef .tc main_arg4) = m ((c : Thread nD τ).loc main_arg4) :=
  W7_of_untouched m ρ c main_arg4 (by decide) (by decide) (by decide) (by decide) (by decide) (by decide) (by decide)
/-- `main_arg5` is written by no host stretch and is no region's array (the regions read stacked copies). -/
theorem W7_main_arg5 (c : Dev nD) : W7 m ρ c (Proc.devRef .tc main_arg5) = m ((c : Thread nD τ).loc main_arg5) :=
  W7_of_untouched m ρ c main_arg5 (by decide) (by decide) (by decide) (by decide) (by decide) (by decide) (by decide)
/-- `main_arg6` is written by no host stretch and is no region's array (the regions read stacked copies). -/
theorem W7_main_arg6 (c : Dev nD) : W7 m ρ c (Proc.devRef .tc main_arg6) = m ((c : Thread nD τ).loc main_arg6) :=
  W7_of_untouched m ρ c main_arg6 (by decide) (by decide) (by decide) (by decide) (by decide) (by decide) (by decide)
/-- `main_arg7` is written by no host stretch and is no region's array (the regions read stacked copies). -/
theorem W7_main_arg7 (c : Dev nD) : W7 m ρ c (Proc.devRef .tc main_arg7) = m ((c : Thread nD τ).loc main_arg7) :=
  W7_of_untouched m ρ c main_arg7 (by decide) (by decide) (by decide) (by decide) (by decide) (by decide) (by decide)
/-- `main_arg8` is written by no host stretch and is no region's array (the regions read stacked copies). -/
theorem W7_main_arg8 (c : Dev nD) : W7 m ρ c (Proc.devRef .tc main_arg8) = m ((c : Thread nD τ).loc main_arg8) :=
  W7_of_untouched m ρ c main_arg8 (by decide) (by decide) (by decide) (by decide) (by decide) (by decide) (by decide)
/-- `main_arg9` is written by no host stretch and is no region's array (the regions read stacked copies). -/
theorem W7_main_arg9 (c : Dev nD) : W7 m ρ c (Proc.devRef .tc main_arg9) = m ((c : Thread nD τ).loc main_arg9) :=
  W7_of_untouched m ρ c main_arg9 (by decide) (by decide) (by decide) (by decide) (by decide) (by decide) (by decide)
/-- `main_arg10` is written by no host stretch and is no region's array (the regions read stacked copies). -/
theorem W7_main_arg10 (c : Dev nD) : W7 m ρ c (Proc.devRef .tc main_arg10) = m ((c : Thread nD τ).loc main_arg10) :=
  W7_of_untouched m ρ c main_arg10 (by decide) (by decide) (by decide) (by decide) (by decide) (by decide) (by decide)

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- From any memory with zero counters, every weakly fair execution of @main terminates, nothing faulting, and every final
    state has the eleven argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c =>
    ⟨(h c _ (mem_uc main_arg0 (by decide))).trans (W7_main_arg0 m ρ c),
     (h c _ (mem_uc main_arg1 (by decide))).trans (W7_main_arg1 m ρ c),
     (h c _ (mem_uc main_arg2 (by decide))).trans (W7_main_arg2 m ρ c),
     (h c _ (mem_uc main_arg3 (by decide))).trans (W7_main_arg3 m ρ c),
     (h c _ (mem_uc main_arg4 (by decide))).trans (W7_main_arg4 m ρ c),
     (h c _ (mem_uc main_arg5 (by decide))).trans (W7_main_arg5 m ρ c),
     (h c _ (mem_uc main_arg6 (by decide))).trans (W7_main_arg6 m ρ c),
     (h c _ (mem_uc main_arg7 (by decide))).trans (W7_main_arg7 m ρ c),
     (h c _ (mem_uc main_arg8 (by decide))).trans (W7_main_arg8 m ρ c),
     (h c _ (mem_uc main_arg9 (by decide))).trans (W7_main_arg9 m ρ c),
     (h c _ (mem_uc main_arg10 (by decide))).trans (W7_main_arg10 m ρ c)⟩) (run_all m ρ)

end Cert.Kernel.Sage

end
-- ==== Proof.SageData.lean ====
/-
  The data of the three aggregation regions of `KernelIdeal`'s @main, at any float instance.

  Each region runs one layer `relu (self · W_self + mean_n (neigh) · W_neigh)` on a block of rows: per grid point it is
  handed a block of `self` rows, the matching block of neighbour rows (ten per row), and the two halves of the weight
  matrix whole, and it stores the whole output block.  Here are: a window's block at a point as a function of the
  region-entry contents, what the one store leaves in the output window's buffer, the per-region bookkeeping of what
  every window's buffer holds after each point, and the contents of the unscoped buffers at the eight boundaries of
  @main's seven items (four host stretches alternating with the three regions), folded from the launch memory.
-/
import proofs.«110833_j58789512348198_2_alg».proof.Proof.Gen.KernelIdeal.Launch
import proofs.«110833_j58789512348198_2_alg».proof.Proof.Gen.KernelIdeal.Skeleton
import proofs.«110833_j58789512348198_2_alg».proof.Proof.Gen.KernelIdeal.Points
import Idealize.ShloMosaic.Lib.Pipeline.FrameBody
import Idealize.ShloMosaic.Lib.Pipeline.RegionsLoop
import Idealize.ShloMosaic.Lib.Pipeline.FrameSuffix

noncomputable section

namespace Cert.KernelIdeal.Sage

open Idealize.ShloMosaic Idealize.ShloMosaic.TcCoe
open Idealize.SL Idealize.SL.RA Idealize.SL.BI
open scoped Idealize.SL.BI
open Idealize.SL.BI.BIBase Idealize.SL.Sem
open Idealize.ShloMosaic.Pipeline (Dat Cfg Window)
open Cert.KernelIdeal Cert.KernelIdeal.Gen

variable {F : FTy → Type} [FloatOps F]

variable (m : (ℓ : Loc nD τ sig) → Buf (Elt F) ℓ) (ρ : Dev nD → PrngReg)

section Regions

/- The contents of the TensorCore's buffers when a region is entered. -/
variable (V : (c : Dev nD) → (b : Ref sig .tc) → Buf (Elt F) ((c : Thread nD τ).loc b))

/-! ## Region 0: layer one on the 1792 stacked level-0 rows, 256 rows per point -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The whole block of `self` rows, of neighbour rows, of a weight half, of output rows. -/
abbrev rSelf0 : Rect S256x500 := Rect.unit (s := S256x500) ![0, 0] S256x500.size inb_S256x500_S256x500_0_0
abbrev rNeigh0 : Rect S256x10x500 := Rect.unit (s := S256x10x500) ![0, 0, 0] S256x10x500.size inb_S256x10x500_S256x10x500_0_0_0
abbrev rW0 : Rect S500x256 := Rect.unit (s := S500x256) ![0, 0] S500x256.size inb_S500x256_S500x256_0_0
abbrev rOut0 : Rect S256x256 := Rect.unit (s := S256x256) ![0, 0] S256x256.size inb_S256x256_S256x256_0_0

/-- What the body leaves in the output window's buffer: its one store, of the layer of the four input blocks. -/
def sageOut0 (xs : Vec F S256x500 .f32) (xn : Vec F S256x10x500 .f32) (ws wn : Vec F S500x256 .f32) : Vec F S256x256 .f32 :=
  View.canon [⟨rOut0, k0_pay1 (View.ld xn rNeigh0) (View.ld xs rSelf0) (View.ld ws rW0) (View.ld wn rW0)⟩]

/-- The bookkeeping of region 0 on core `c`: the arrays as the region finds them; after the body at point `t` each
    input's buffer still at its block and the output's at the layer of the input blocks; nothing owed, full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => sageOut0 (iblk0 V c 0 t) (iblk0 V c 1 t) (iblk0 V c 2 t) (iblk0 V c 3 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) :
    (dat0 V c).after 4 t = sageOut0 (iblk0 V c 0 t) (iblk0 V c 1 t) (iblk0 V c 2 t) (iblk0 V c 3 t) := by dsimp only [dat0]

/-! ## Region 1: layer one on the 17920 stacked level-1 rows, 640 rows per point -/

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev rSelf1 : Rect S640x500 := Rect.unit (s := S640x500) ![0, 0] S640x500.size inb_S640x500_S640x500_0_0
abbrev rNeigh1 : Rect S640x10x500 := Rect.unit (s := S640x10x500) ![0, 0, 0] S640x10x500.size inb_S640x10x500_S640x10x500_0_0_0
abbrev rOut1 : Rect S640x256 := Rect.unit (s := S640x256) ![0, 0] S640x256.size inb_S640x256_S640x256_0_0

def sageOut1 (xs : Vec F S640x500 .f32) (xn : Vec F S640x10x500 .f32) (ws wn : Vec F S500x256 .f32) : Vec F S640x256 .f32 :=
  View.canon [⟨rOut1, k1_pay1 (View.ld xn rNeigh1) (View.ld xs rSelf1) (View.ld ws rW0) (View.ld wn rW0)⟩]

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => sageOut1 (iblk1 V c 0 t) (iblk1 V c 1 t) (iblk1 V c 2 t) (iblk1 V c 3 t)
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) :
    (dat1 V c).after 4 t = sageOut1 (iblk1 V c 0 t) (iblk1 V c 1 t) (iblk1 V c 2 t) (iblk1 V c 3 t) := by dsimp only [dat1]

/-! ## Region 2: layer two on the 1792 stacked rows of layer one's outputs, 256 rows per point -/

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev rSelf2 : Rect S256x256 := Rect.unit (s := S256x256) ![0, 0] S256x256.size inb_S256x256_S256x256_0_0
abbrev rNeigh2 : Rect S256x10x256 := Rect.unit (s := S256x10x256) ![0, 0, 0] S256x10x256.size inb_S256x10x256_S256x10x256_0_0_0
abbrev rW2 : Rect S256x128 := Rect.unit (s := S256x128) ![0, 0] S256x128.size inb_S256x128_S256x128_0_0
abbrev rOut2 : Rect S256x128 := Rect.unit (s := S256x128) ![0, 0] S256x128.size inb_S256x128_S256x128_0_0

def sageOut2 (xs : Vec F S256x256 .f32) (xn : Vec F S256x10x256 .f32) (ws wn : Vec F S256x128 .f32) : Vec F S256x128 .f32 :=
  View.canon [⟨rOut2, k2_pay1 (View.ld xn rNeigh2) (View.ld xs rSelf2) (View.ld ws rW2) (View.ld wn rW2)⟩]

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => sageOut2 (iblk2 V c 0 t) (iblk2 V c 1 t) (iblk2 V c 2 t) (iblk2 V c 3 t)
  Φ _ := Pipeline.ΦA spec2 c
  q _ := fullShare
  owed _ := 0

theorem A_eq2 (c : Dev nD) (w : Fin cfg2.W) : (dat2 V c).A w = V c (Pipeline.arrRef spec2 w) := by
  dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) :
    (dat2 V c).after 4 t = sageOut2 (iblk2 V c 0 t) (iblk2 V c 1 t) (iblk2 V c 2 t) (iblk2 V c 3 t) := by dsimp only [dat2]

end Regions

/-! ## The buffers' contents at the boundaries of @main's seven items -/

/-- Core `c`'s buffers at launch. -/
abbrev W0 : Dev nD → Valuation τ sig (Elt F) := fun c b => (s₀ m ρ).mem ((c : Dev nD), b)
/-- After the first host stretch: region 0's entry. -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At region 0's exit: its arrays at what its write-backs leave, every other buffer as entered. -/
def W2 (c : Dev nD) : Valuation τ sig (Elt F) :=
  Pipeline.withArrays spec0 c (W1 m ρ c) fun w => (dat0 (V1 m ρ) c).arrAt w cfg0.N
abbrev V2 : (c : Dev nD) → (b : Ref sig .tc) → Buf (Elt F) ((c : Thread nD τ).loc b) := fun c b => W2 m ρ c b
/-- After the second host stretch: region 1's entry. -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- At region 1's exit. -/
def W4 (c : Dev nD) : Valuation τ sig (Elt F) :=
  Pipeline.withArrays spec1 c (W3 m ρ c) fun w => (dat1 (V3 m ρ) c).arrAt w cfg1.N
abbrev V4 : (c : Dev nD) → (b : Ref sig .tc) → Buf (Elt F) ((c : Thread nD τ).loc b) := fun c b => W4 m ρ c b
/-- After the third host stretch: region 2's entry. -/
abbrev W5 : Dev nD → Valuation τ sig (Elt F) := fun c => StableHlo.after hostOps2 (W4 m ρ c)
abbrev V5 : (c : Dev nD) → (b : Ref sig .tc) → Buf (Elt F) ((c : Thread nD τ).loc b) := fun c b => W5 m ρ c b
/-- At region 2's exit. -/
def W6 (c : Dev nD) : Valuation τ sig (Elt F) :=
  Pipeline.withArrays spec2 c (W5 m ρ c) fun w => (dat2 (V5 m ρ) c).arrAt w cfg2.N
abbrev V6 : (c : Dev nD) → (b : Ref sig .tc) → Buf (Elt F) ((c : Thread nD τ).loc b) := fun c b => W6 m ρ c b
/-- After the last host stretch: the return. -/
abbrev W7 : Dev nD → Valuation τ sig (Elt F) := fun c => StableHlo.after hostOps3 (W6 m ρ c)

theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb

/-- The tables' admissible contents: no region has a table. -/
abbrev adm : (p : Fin 3) → (pcfgs (F := F) p).Adm := fun p => (cfgs p).toPCfg_adm

/-- Every region's bookkeeping, each at its region's entry contents. -/
def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c

end Cert.KernelIdeal.Sage

end
-- ==== Proof.SageBody0.lean ====
/-
  Region 0: one grid point of the layer.

  At every grid point the four input windows' staging buffers hold their blocks of the arrays as the region found them
  (a block that is not fetched again at a point is the block of the point before: its index did not move); the body
  reads the four blocks whole, reads the output window's buffer whole (a value nothing uses), and overwrites the output
  window's buffer whole with the layer of the four blocks.  One store of the whole rectangle covers the buffer, so what
  the buffer holds afterwards is that payload, whatever it held before.
-/
import proofs.«110833_j58789512348198_2_alg».proof.Proof.SageData
import Idealize.ShloMosaic.Lib.Pipeline.FrameBody
import Idealize.ShloMosaic.Lib.Ring
import Idealize.ShloMosaic.Lib.Tactic

set_option maxRecDepth 16384

noncomputable section

namespace Cert.KernelIdeal.Sage

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-! ## What the body finds in the input windows' buffers -/

/-- Input window 0's current buffer holds its block at every point, fetched there or not: the window is uncut and
    never idle, and the body leaves the block in place. -/
theorem before0_0 (c : Dev nD) (t : Fin cfg0.N) (d) : (dat0 V c).before 0 t d = iblk0 V c 0 t :=
  ((dat0 V c).before_in_eq_fetched 0 rfl (fun _ => rfl) (fun _ _ _ => rfl)
      (fun t => by rw [after0_0]; unfold Dat.blockOf iblk0; rw [A_eq0]; try rfl) t d).trans
    (by unfold Dat.fetched Dat.blockOf iblk0; rw [A_eq0]; try rfl)

/-- Input window 1's current buffer holds its block at every point, fetched there or not: the window is uncut and
    never idle, and the body leaves the block in place. -/
theorem before0_1 (c : Dev nD) (t : Fin cfg0.N) (d) : (dat0 V c).before 1 t d = iblk0 V c 1 t :=
  ((dat0 V c).before_in_eq_fetched 1 rfl (fun _ => rfl) (fun _ _ _ => rfl)
      (fun t => by rw [after0_1]; unfold Dat.blockOf iblk0; rw [A_eq0]; try rfl) t d).trans
    (by unfold Dat.fetched Dat.blockOf iblk0; rw [A_eq0]; try rfl)

/-- Input window 2's current buffer holds its block at every point, fetched there or not: the window is uncut and
    never idle, and the body leaves the block in place. -/
theorem before0_2 (c : Dev nD) (t : Fin cfg0.N) (d) : (dat0 V c).before 2 t d = iblk0 V c 2 t :=
  ((dat0 V c).before_in_eq_fetched 2 rfl (fun _ => rfl) (fun _ _ _ => rfl)
      (fun t => by rw [after0_2]; unfold Dat.blockOf iblk0; rw [A_eq0]; try rfl) t d).trans
    (by unfold Dat.fetched Dat.blockOf iblk0; rw [A_eq0]; try rfl)

/-- Input window 3's current buffer holds its block at every point, fetched there or not: the window is uncut and
    never idle, and the body leaves the block in place. -/
theorem before0_3 (c : Dev nD) (t : Fin cfg0.N) (d) : (dat0 V c).before 3 t d = iblk0 V c 3 t :=
  ((dat0 V c).before_in_eq_fetched 3 rfl (fun _ => rfl) (fun _ _ _ => rfl)
      (fun t => by rw [after0_3]; unfold Dat.blockOf iblk0; rw [A_eq0]; try rfl) t d).trans
    (by unfold Dat.fetched Dat.blockOf iblk0; rw [A_eq0]; try rfl)

end

/-! ## The one store covers the output window's buffer -/

theorem cover0 (p0 : Vec F S256x256 .f32) (y : S256x256.Idx) :
    ∃ pc ∈ ([⟨rOut0, p0⟩] : List (View.Piece (Elt F) S256x256 .f32)), y ∈ pc.1.set :=
  View.cover_of_tiled [⟨rOut0, p0⟩] S256x256.size (by rfl) y

/-! ## The body's triple -/

set_option maxHeartbeats 1000000 in
/-- The body on whole buffers, the four inputs' at read contents and the output's at anything, runs to the continuation
    holding the inputs' as they were and the output's at the layer of the inputs. -/
theorem sound_kernel0 (c : Dev nD) (E : Set ℕ) (i : grid0.Coords)
    (arg1 : Memref sig .tc .vmem S256x500 .f32) (harg1 : arg1.IsWhole)
    (arg2 : Memref sig .tc .vmem S256x10x500 .f32) (harg2 : arg2.IsWhole)
    (arg3 : Memref sig .tc .vmem S500x256 .f32) (harg3 : arg3.IsWhole)
    (arg4 : Memref sig .tc .vmem S500x256 .f32) (harg4 : arg4.IsWhole)
    (arg5 : Memref sig .tc .vmem S256x256 .f32) (harg5 : arg5.IsWhole)
    (x0 : Vec F S256x500 .f32) (x1 : Vec F S256x10x500 .f32) (x2 x3 : Vec F S500x256 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ (∃ d, owns (c : Thread nD τ) arg5 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare (sageOut0 x0 x1 x2 x3)) -∗ K ⟨⟩))
      ⊢ wp frame (wpE (defs₀ (F := F)) Variants.none c none) E
          (cc0__sage_layer_kernel i arg1 harg1 arg2 harg2 arg3 harg3 arg4 harg4 arg5 harg5) K := by
  simp only [cc0__sage_layer_kernel_eq_skeleton]; unfold cc0__sage_layer_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover0 _)

section
variable (V : (c : Dev nD) → (b : Ref sig .tc) → Buf (Elt F) ((c : Thread nD τ).loc b))

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

/-- The body at any point: the inputs' buffers hold their blocks, so the triple applies; the invariant and what the
    core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel0 c Set.univ _ _ _ _ _ _ _ _ _ _ _ (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body obligation, at every point. -/
theorem body_obligation0 (c : Dev nD) : BodyObligation (dat0 (F := F) V c) (defs₀ (F := F)) Variants.none () Set.univ := fun t => by
  rw [bigSep_W0, bigSep_W0]
  exact sound_body0 V c t

end

end Cert.KernelIdeal.Sage

end
-- ==== Proof.SageBody1.lean ====
/-
  Region 1: one grid point of the layer.

  At every grid point the four input windows' staging buffers hold their blocks of the arrays as the region found them
  (a block that is not fetched again at a point is the block of the point before: its index did not move); the body
  reads the four blocks whole, reads the output window's buffer whole (a value nothing uses), and overwrites the output
  window's buffer whole with the layer of the four blocks.  One store of the whole rectangle covers the buffer, so what
  the buffer holds afterwards is that payload, whatever it held before.
-/
import proofs.«110833_j58789512348198_2_alg».proof.Proof.SageData
import Idealize.ShloMosaic.Lib.Pipeline.FrameBody
import Idealize.ShloMosaic.Lib.Ring
import Idealize.ShloMosaic.Lib.Tactic

set_option maxRecDepth 16384

noncomputable section

namespace Cert.KernelIdeal.Sage

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-! ## What the body finds in the input windows' buffers -/

/-- Input window 0's current buffer holds its block at every point, fetched there or not: the window is uncut and
    never idle, and the body leaves the block in place. -/
theorem before1_0 (c : Dev nD) (t : Fin cfg1.N) (d) : (dat1 V c).before 0 t d = iblk1 V c 0 t :=
  ((dat1 V c).before_in_eq_fetched 0 rfl (fun _ => rfl) (fun _ _ _ => rfl)
      (fun t => by rw [after1_0]; unfold Dat.blockOf iblk1; rw [A_eq1]; try rfl) t d).trans
    (by unfold Dat.fetched Dat.blockOf iblk1; rw [A_eq1]; try rfl)

/-- Input window 1's current buffer holds its block at every point, fetched there or not: the window is uncut and
    never idle, and the body leaves the block in place. -/
theorem before1_1 (c : Dev nD) (t : Fin cfg1.N) (d) : (dat1 V c).before 1 t d = iblk1 V c 1 t :=
  ((dat1 V c).before_in_eq_fetched 1 rfl (fun _ => rfl) (fun _ _ _ => rfl)
      (fun t => by rw [after1_1]; unfold Dat.blockOf iblk1; rw [A_eq1]; try rfl) t d).trans
    (by unfold Dat.fetched Dat.blockOf iblk1; rw [A_eq1]; try rfl)

/-- Input window 2's current buffer holds its block at every point, fetched there or not: the window is uncut and
    never idle, and the body leaves the block in place. -/
theorem before1_2 (c : Dev nD) (t : Fin cfg1.N) (d) : (dat1 V c).before 2 t d = iblk1 V c 2 t :=
  ((dat1 V c).before_in_eq_fetched 2 rfl (fun _ => rfl) (fun _ _ _ => rfl)
      (fun t => by rw [after1_2]; unfold Dat.blockOf iblk1; rw [A_eq1]; try rfl) t d).trans
    (by unfold Dat.fetched Dat.blockOf iblk1; rw [A_eq1]; try rfl)

/-- Input window 3's current buffer holds its block at every point, fetched there or not: the window is uncut and
    never idle, and the body leaves the block in place. -/
theorem before1_3 (c : Dev nD) (t : Fin cfg1.N) (d) : (dat1 V c).before 3 t d = iblk1 V c 3 t :=
  ((dat1 V c).before_in_eq_fetched 3 rfl (fun _ => rfl) (fun _ _ _ => rfl)
      (fun t => by rw [after1_3]; unfold Dat.blockOf iblk1; rw [A_eq1]; try rfl) t d).trans
    (by unfold Dat.fetched Dat.blockOf iblk1; rw [A_eq1]; try rfl)

end

/-! ## The one store covers the output window's buffer -/

theorem cover1 (p0 : Vec F S640x256 .f32) (y : S640x256.Idx) :
    ∃ pc ∈ ([⟨rOut1, p0⟩] : List (View.Piece (Elt F) S640x256 .f32)), y ∈ pc.1.set :=
  View.cover_of_tiled [⟨rOut1, p0⟩] S640x256.size (by rfl) y

/-! ## The body's triple -/

set_option maxHeartbeats 1000000 in
/-- The body on whole buffers, the four inputs' at read contents and the output's at anything, runs to the continuation
    holding the inputs' as they were and the output's at the layer of the inputs. -/
theorem sound_kernel1 (c : Dev nD) (E : Set ℕ) (i : grid1.Coords)
    (arg1 : Memref sig .tc .vmem S640x500 .f32) (harg1 : arg1.IsWhole)
    (arg2 : Memref sig .tc .vmem S640x10x500 .f32) (harg2 : arg2.IsWhole)
    (arg3 : Memref sig .tc .vmem S500x256 .f32) (harg3 : arg3.IsWhole)
    (arg4 : Memref sig .tc .vmem S500x256 .f32) (harg4 : arg4.IsWhole)
    (arg5 : Memref sig .tc .vmem S640x256 .f32) (harg5 : arg5.IsWhole)
    (x0 : Vec F S640x500 .f32) (x1 : Vec F S640x10x500 .f32) (x2 x3 : Vec F S500x256 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ (∃ d, owns (c : Thread nD τ) arg5 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare (sageOut1 x0 x1 x2 x3)) -∗ K ⟨⟩))
      ⊢ wp frame (wpE (defs₀ (F := F)) Variants.none c none) E
          (cc1__sage_layer_kernel i arg1 harg1 arg2 harg2 arg3 harg3 arg4 harg4 arg5 harg5) K := by
  simp only [cc1__sage_layer_kernel_eq_skeleton]; unfold cc1__sage_layer_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover1 _)

section
variable (V : (c : Dev nD) → (b : Ref sig .tc) → Buf (Elt F) ((c : Thread nD τ).loc b))

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

/-- The body at any point: the inputs' buffers hold their blocks, so the triple applies; the invariant and what the
    core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ _ _ _ _ _ _ _ _ _ _ _ (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body obligation, at every point. -/
theorem body_obligation1 (c : Dev nD) : BodyObligation (dat1 (F := F) V c) (defs₀ (F := F)) Variants.none () Set.univ := fun t => by
  rw [bigSep_W1, bigSep_W1]
  exact sound_body1 V c t

end

end Cert.KernelIdeal.Sage

end
-- ==== Proof.SageBody2.lean ====
/-
  Region 2: one grid point of the layer.

  At every grid point the four input windows' staging buffers hold their blocks of the arrays as the region found them
  (a block that is not fetched again at a point is the block of the point before: its index did not move); the body
  reads the four blocks whole, reads the output window's buffer whole (a value nothing uses), and overwrites the output
  window's buffer whole with the layer of the four blocks.  One store of the whole rectangle covers the buffer, so what
  the buffer holds afterwards is that payload, whatever it held before.
-/
import proofs.«110833_j58789512348198_2_alg».proof.Proof.SageData
import Idealize.ShloMosaic.Lib.Pipeline.FrameBody
import Idealize.ShloMosaic.Lib.Ring
import Idealize.ShloMosaic.Lib.Tactic

set_option maxRecDepth 16384

noncomputable section

namespace Cert.KernelIdeal.Sage

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-! ## What the body finds in the input windows' buffers -/

/-- Input window 0's current buffer holds its block at every point, fetched there or not: the window is uncut and
    never idle, and the body leaves the block in place. -/
theorem before2_0 (c : Dev nD) (t : Fin cfg2.N) (d) : (dat2 V c).before 0 t d = iblk2 V c 0 t :=
  ((dat2 V c).before_in_eq_fetched 0 rfl (fun _ => rfl) (fun _ _ _ => rfl)
      (fun t => by rw [after2_0]; unfold Dat.blockOf iblk2; rw [A_eq2]; try rfl) t d).trans
    (by unfold Dat.fetched Dat.blockOf iblk2; rw [A_eq2]; try rfl)

/-- Input window 1's current buffer holds its block at every point, fetched there or not: the window is uncut and
    never idle, and the body leaves the block in place. -/
theorem before2_1 (c : Dev nD) (t : Fin cfg2.N) (d) : (dat2 V c).before 1 t d = iblk2 V c 1 t :=
  ((dat2 V c).before_in_eq_fetched 1 rfl (fun _ => rfl) (fun _ _ _ => rfl)
      (fun t => by rw [after2_1]; unfold Dat.blockOf iblk2; rw [A_eq2]; try rfl) t d).trans
    (by unfold Dat.fetched Dat.blockOf iblk2; rw [A_eq2]; try rfl)

/-- Input window 2's current buffer holds its block at every point, fetched there or not: the window is uncut and
    never idle, and the body leaves the block in place. -/
theorem before2_2 (c : Dev nD) (t : Fin cfg2.N) (d) : (dat2 V c).before 2 t d = iblk2 V c 2 t :=
  ((dat2 V c).before_in_eq_fetched 2 rfl (fun _ => rfl) (fun _ _ _ => rfl)
      (fun t => by rw [after2_2]; unfold Dat.blockOf iblk2; rw [A_eq2]; try rfl) t d).trans
    (by unfold Dat.fetched Dat.blockOf iblk2; rw [A_eq2]; try rfl)

/-- Input window 3's current buffer holds its block at every point, fetched there or not: the window is uncut and
    never idle, and the body leaves the block in place. -/
theorem before2_3 (c : Dev nD) (t : Fin cfg2.N) (d) : (dat2 V c).before 3 t d = iblk2 V c 3 t :=
  ((dat2 V c).before_in_eq_fetched 3 rfl (fun _ => rfl) (fun _ _ _ => rfl)
      (fun t => by rw [after2_3]; unfold Dat.blockOf iblk2; rw [A_eq2]; try rfl) t d).trans
    (by unfold Dat.fetched Dat.blockOf iblk2; rw [A_eq2]; try rfl)

end

/-! ## The one store covers the output window's buffer -/

theorem cover2 (p0 : Vec F S256x128 .f32) (y : S256x128.Idx) :
    ∃ pc ∈ ([⟨rOut2, p0⟩] : List (View.Piece (Elt F) S256x128 .f32)), y ∈ pc.1.set :=
  View.cover_of_tiled [⟨rOut2, p0⟩] S256x128.size (by rfl) y

/-! ## The body's triple -/

set_option maxHeartbeats 1000000 in
/-- The body on whole buffers, the four inputs' at read contents and the output's at anything, runs to the continuation
    holding the inputs' as they were and the output's at the layer of the inputs. -/
theorem sound_kernel2 (c : Dev nD) (E : Set ℕ) (i : grid2.Coords)
    (arg1 : Memref sig .tc .vmem S256x256 .f32) (harg1 : arg1.IsWhole)
    (arg2 : Memref sig .tc .vmem S256x10x256 .f32) (harg2 : arg2.IsWhole)
    (arg3 : Memref sig .tc .vmem S256x128 .f32) (harg3 : arg3.IsWhole)
    (arg4 : Memref sig .tc .vmem S256x128 .f32) (harg4 : arg4.IsWhole)
    (arg5 : Memref sig .tc .vmem S256x128 .f32) (harg5 : arg5.IsWhole)
    (x0 : Vec F S256x256 .f32) (x1 : Vec F S256x10x256 .f32) (x2 x3 : Vec F S256x128 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ (∃ d, owns (c : Thread nD τ) arg5 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare (sageOut2 x0 x1 x2 x3)) -∗ K ⟨⟩))
      ⊢ wp frame (wpE (defs₀ (F := F)) Variants.none c none) E
          (cc2__sage_layer_kernel i arg1 harg1 arg2 harg2 arg3 harg3 arg4 harg4 arg5 harg5) K := by
  simp only [cc2__sage_layer_kernel_eq_skeleton]; unfold cc2__sage_layer_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover2 _)

section
variable (V : (c : Dev nD) → (b : Ref sig .tc) → Buf (Elt F) ((c : Thread nD τ).loc b))

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t))

/-- The body at any point: the inputs' buffers hold their blocks, so the triple applies; the invariant and what the
    core owes pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).Φ t.succ = (dat2 V c).Φ t.castSucc from rfl,
    show (dat2 V c).owesAt () t.succ = (dat2 V c).owesAt () t.castSucc from rfl,
    after2_0, after2_1, after2_2, after2_3, after2_4]
  iintro ⟨HΦ, Ho, ⟨%d0, H0⟩, ⟨%d1, H1⟩, ⟨%d2, H2⟩, ⟨%d3, H3⟩, ⟨%d4, H4⟩⟩
  iapply (sound_kernel2 c Set.univ _ _ _ _ _ _ _ _ _ _ _ (iblk2 V c 0 t) (iblk2 V c 1 t) (iblk2 V c 2 t) (iblk2 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body obligation, at every point. -/
theorem body_obligation2 (c : Dev nD) : BodyObligation (dat2 (F := F) V c) (defs₀ (F := F)) Variants.none () Set.univ := fun t => by
  rw [bigSep_W2, bigSep_W2]
  exact sound_body2 V c t

end

end Cert.KernelIdeal.Sage

end
-- ==== Proof.SageRun.lean ====
/-
  The run of `KernelIdeal`'s @main: four host stretches alternating with the three aggregation regions.

  The thread state between two items is "every unscoped buffer whole at the boundary's contents, the generator register at
  some state, nothing owed".  A host stretch takes the contents to their image under its operations; a region takes its
  windows' arrays out of the unscoped buffers, runs its pipeline from the region's bookkeeping, and puts the arrays back at
  what the write-backs leave, every other buffer as entered.  Chaining the seven items from the launch memory and reading
  the last thread state against the final memory gives: every unscoped buffer ends at the last boundary's contents.
-/
import proofs.«110833_j58789512348198_2_alg».proof.Proof.SageData
import proofs.«110833_j58789512348198_2_alg».proof.Proof.SageBody0
import proofs.«110833_j58789512348198_2_alg».proof.Proof.SageBody1
import proofs.«110833_j58789512348198_2_alg».proof.Proof.SageBody2
import proofs.«110833_j58789512348198_2_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Sage

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## At a region's exit each of its arrays holds what the pipeline leaves, every other buffer what it held at entry -/

theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)

/-! ## The thread state -/

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state, and what it owes, nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- No operation of a host stretch allocates a buffer. -/
theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps2_fresh : (hostOps2 : List (HloOp τ sig (Elt F))).Forall fun op => op.fresh = ∅ := by
  simp only [List.Forall]; repeat' constructor
theorem hostOps3_fresh : (hostOps3 : List (HloOp τ sig (Elt F))).Forall fun op => op.fresh = ∅ := by
  simp only [List.Forall]; repeat' constructor

/-- The last thread state without what the core owes: every unscoped buffer at the last boundary's contents, the generator
    register at some state. -/
abbrev Tₙ (c : Dev nD) : sProp 𝕄 := iprop(StableHlo.held (c : Thread nD τ) (Pipeline.ucRefs τ sig) (W7 m ρ c) ∗ ∃ r, prngReg c r)

/-- The state the last host stretch leaves is the last thread state beside the core owing nothing. -/
theorem last_state (c : Dev nD) :
    (iprop(StableHlo.held (c : Thread nD τ) (Pipeline.ucRefs τ sig) (W7 m ρ c) ∗ R c) : sProp 𝕄)
      ⊢ iprop(Tₙ m ρ c ∗ ∃ W, owes (c : Thread nD τ) (0 : CellTallies nD τ sig Unit) W) := by
  iintro ⟨Hh, Hp, HO⟩
  isplitl [Hh Hp]
  · isplitl [Hh]; · iexact Hh
    iexact Hp
  iexact HO

/-! ## The regions as segments -/

-- a library lemma stated over the pinned configuration unifies with the printed one only when unification may unfold
-- plain definitions in a metavariable's type
set_option backward.isDefEq.respectTransparency.types false in
/-- Region 0 over the thread state: entered from every unscoped buffer at `W1`, left at `W2`.  Its arrays are split out
    of the unscoped buffers and put back at the exit contents; the generator register goes into the region's invariant
    and comes out; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- Region 1 over the thread state: entered from every unscoped buffer at `W3`, left at `W4`.  Its arrays are split out
    of the unscoped buffers and put back at the exit contents; the generator register goes into the region's invariant
    and comes out; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- Region 2 over the thread state: entered from every unscoped buffer at `W5`, left at `W6`.  Its arrays are split out
    of the unscoped buffers and put back at the exit contents; the generator register goes into the region's invariant
    and comes out; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's seven items in order. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)) ]

/-- @main is the run of the segments. -/
theorem main_run (c : Dev nD) : main (F := F) c = Pipeline.Seg.run (segs m ρ) := (main_chain c).trans (by chain_rfl)

-- the launch theorem's implicit arguments are found by unifying its conclusion with this one, which takes unfolding plain
-- definitions in a metavariable's type
set_option backward.isDefEq.respectTransparency.types false in
/-- From any memory with zero counters, every weakly fair execution of @main terminates, nothing faulting, and in every final
    state each unscoped buffer of each core holds the last boundary's contents. -/
theorem run_all : θ_run defs (onTc (τ := τ) (main (F := F))) ⟨m, fun _ => 0, ρ⟩ (fun r => ∀ c : Dev nD,
      ∀ b ∈ Pipeline.ucRefs τ sig, r.2.mem ((c : Thread nD τ).1, b) = W7 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => last_state m ρ c⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c => h c)

/-! ## The arguments end as launched -/

/-- A buffer that no host stretch writes and that is no window's array of any region holds at the return what it held at
    launch: the fold of the boundary contents at it walks back to the launch memory. -/
theorem W7_of_untouched (c : Dev nD) (r : Ref sig .tc)
    (h3 : r ∉ hostOps3_W) (h2 : r ∉ hostOps2_W) (h1 : r ∉ hostOps1_W) (h0 : r ∉ hostOps0_W)
    (a2 : ∀ w, Pipeline.arrRef spec2 w ≠ r) (a1 : ∀ w, Pipeline.arrRef spec1 w ≠ r) (a0 : ∀ w, Pipeline.arrRef spec0 w ≠ r) :
    W7 m ρ c (Proc.devRef .tc r) = m ((c : Thread nD τ).loc r) :=
  calc W7 m ρ c (Proc.devRef .tc r)
    _ = W6 m ρ c (Proc.devRef .tc r) := StableHlo.after_of_writes_sub hostOps3 _ hostOps3_writes h3
    _ = W5 m ρ c (Proc.devRef .tc r) := W6_of_ne m ρ c r a2
    _ = W4 m ρ c (Proc.devRef .tc r) := StableHlo.after_of_writes_sub hostOps2 _ hostOps2_writes h2
    _ = W3 m ρ c (Proc.devRef .tc r) := W4_of_ne m ρ c r a1
    _ = W2 m ρ c (Proc.devRef .tc r) := StableHlo.after_of_writes_sub hostOps1 _ hostOps1_writes h1
    _ = W1 m ρ c (Proc.devRef .tc r) := W2_of_ne m ρ c r a0
    _ = W0 m ρ c (Proc.devRef .tc r) := StableHlo.after_of_writes_sub hostOps0 _ hostOps0_writes h0
    _ = m ((c : Thread nD τ).loc r) := rfl

/-- `main_arg0` is written by no host stretch and is no region's array (the regions read stacked copies). -/
theorem W7_main_arg0 (c : Dev nD) : W7 m ρ c (Proc.devRef .tc main_arg0) = m ((c : Thread nD τ).loc main_arg0) :=
  W7_of_untouched m ρ c main_arg0 (by decide) (by decide) (by decide) (by decide) (by decide) (by decide) (by decide)
/-- `main_arg1` is written by no host stretch and is no region's array (the regions read stacked copies). -/
theorem W7_main_arg1 (c : Dev nD) : W7 m ρ c (Proc.devRef .tc main_arg1) = m ((c : Thread nD τ).loc main_arg1) :=
  W7_of_untouched m ρ c main_arg1 (by decide) (by decide) (by decide) (by decide) (by decide) (by decide) (by decide)
/-- `main_arg2` is written by no host stretch and is no region's array (the regions read stacked copies). -/
theorem W7_main_arg2 (c : Dev nD) : W7 m ρ c (Proc.devRef .tc main_arg2) = m ((c : Thread nD τ).loc main_arg2) :=
  W7_of_untouched m ρ c main_arg2 (by decide) (by decide) (by decide) (by decide) (by decide) (by decide) (by decide)
/-- `main_arg3` is written by no host stretch and is no region's array (the regions read stacked copies). -/
theorem W7_main_arg3 (c : Dev nD) : W7 m ρ c (Proc.devRef .tc main_arg3) = m ((c : Thread nD τ).loc main_arg3) :=
  W7_of_untouched m ρ c main_arg3 (by decide) (by decide) (by decide) (by decide) (by decide) (by decide) (by decide)
/-- `main_arg4` is written by no host stretch and is no region's array (the regions read stacked copies). -/
theorem W7_main_arg4 (c : Dev nD) : W7 m ρ c (Proc.devRef .tc main_arg4) = m ((c : Thread nD τ).loc main_arg4) :=
  W7_of_untouched m ρ c main_arg4 (by decide) (by decide) (by decide) (by decide) (by decide) (by decide) (by decide)
/-- `main_arg5` is written by no host stretch and is no region's array (the regions read stacked copies). -/
theorem W7_main_arg5 (c : Dev nD) : W7 m ρ c (Proc.devRef .tc main_arg5) = m ((c : Thread nD τ).loc main_arg5) :=
  W7_of_untouched m ρ c main_arg5 (by decide) (by decide) (by decide) (by decide) (by decide) (by decide) (by decide)
/-- `main_arg6` is written by no host stretch and is no region's array (the regions read stacked copies). -/
theorem W7_main_arg6 (c : Dev nD) : W7 m ρ c (Proc.devRef .tc main_arg6) = m ((c : Thread nD τ).loc main_arg6) :=
  W7_of_untouched m ρ c main_arg6 (by decide) (by decide) (by decide) (by decide) (by decide) (by decide) (by decide)
/-- `main_arg7` is written by no host stretch and is no region's array (the regions read stacked copies). -/
theorem W7_main_arg7 (c : Dev nD) : W7 m ρ c (Proc.devRef .tc main_arg7) = m ((c : Thread nD τ).loc main_arg7) :=
  W7_of_untouched m ρ c main_arg7 (by decide) (by decide) (by decide) (by decide) (by decide) (by decide) (by decide)
/-- `main_arg8` is written by no host stretch and is no region's array (the regions read stacked copies). -/
theorem W7_main_arg8 (c : Dev nD) : W7 m ρ c (Proc.devRef .tc main_arg8) = m ((c : Thread nD τ).loc main_arg8) :=
  W7_of_untouched m ρ c main_arg8 (by decide) (by decide) (by decide) (by decide) (by decide) (by decide) (by decide)
/-- `main_arg9` is written by no host stretch and is no region's array (the regions read stacked copies). -/
theorem W7_main_arg9 (c : Dev nD) : W7 m ρ c (Proc.devRef .tc main_arg9) = m ((c : Thread nD τ).loc main_arg9) :=
  W7_of_untouched m ρ c main_arg9 (by decide) (by decide) (by decide) (by decide) (by decide) (by decide) (by decide)
/-- `main_arg10` is written by no host stretch and is no region's array (the regions read stacked copies). -/
theorem W7_main_arg10 (c : Dev nD) : W7 m ρ c (Proc.devRef .tc main_arg10) = m ((c : Thread nD τ).loc main_arg10) :=
  W7_of_untouched m ρ c main_arg10 (by decide) (by decide) (by decide) (by decide) (by decide) (by decide) (by decide)

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- From any memory with zero counters, every weakly fair execution of @main terminates, nothing faulting, and every final
    state has the eleven argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c =>
    ⟨(h c _ (mem_uc main_arg0 (by decide))).trans (W7_main_arg0 m ρ c),
     (h c _ (mem_uc main_arg1 (by decide))).trans (W7_main_arg1 m ρ c),
     (h c _ (mem_uc main_arg2 (by decide))).trans (W7_main_arg2 m ρ c),
     (h c _ (mem_uc main_arg3 (by decide))).trans (W7_main_arg3 m ρ c),
     (h c _ (mem_uc main_arg4 (by decide))).trans (W7_main_arg4 m ρ c),
     (h c _ (mem_uc main_arg5 (by decide))).trans (W7_main_arg5 m ρ c),
     (h c _ (mem_uc main_arg6 (by decide))).trans (W7_main_arg6 m ρ c),
     (h c _ (mem_uc main_arg7 (by decide))).trans (W7_main_arg7 m ρ c),
     (h c _ (mem_uc main_arg8 (by decide))).trans (W7_main_arg8 m ρ c),
     (h c _ (mem_uc main_arg9 (by decide))).trans (W7_main_arg9 m ρ c),
     (h c _ (mem_uc main_arg10 (by decide))).trans (W7_main_arg10 m ρ c)⟩) (run_all m ρ)

end Cert.KernelIdeal.Sage

end
-- ==== Proof.SageMath.lean ====
/-
  One row of the aggregation layer, as a function on the extended reals.

  A layer maps a node's own feature row `x` (length d) and the feature rows `y₀ … y₉` of its ten sampled neighbours to
  `relu (x · W_self + mean (y) · W_neigh)`, one output per weight column.  Written for one output column with weight
  columns `ws`, `wn`:
      rowLayer x y ws wn = max (∑ₖ x k · ws k + ∑ₖ ((∑ₙ y n k) / 10) · wn k) 0.
  The reference computes the same number as ONE contraction of length 2d of the row `[x, mean y]` against the stacked
  column `[ws; wn]`; a sum over `Fin (d + d)` is the sum over its first `d` indices plus the sum over its last `d`
  (`Fin.sum_univ_add`, an identity of commutative monoids, so it holds on the extended reals with no finiteness).
-/
import Idealize.ShloMosaic.PureOps.Ideal
import Idealize.ShloMosaic.PureOps.Ideal.Laws
import Idealize.ShloMosaic.Lib.ValueIdx

noncomputable section

open scoped BigOperators

namespace Cert.SageMath

open Idealize.ShloMosaic Idealize.ShloMosaic.ValueIdx

/-- The two float literals of the layer, kept as their words: `0.0` and `10.0`. -/
abbrev f0 : EReal := Ideal.ofBits .f32 0x00000000#32
abbrev f10 : EReal := Ideal.ofBits .f32 0x41200000#32

/-- One output entry of a layer: from the node's row, its ten neighbours' rows and one column of each weight half. -/
def rowLayer {d : Nat} (x : Fin d → EReal) (y : Fin 10 → Fin d → EReal) (ws wn : Fin d → EReal) : EReal :=
  max ((∑ k : Fin d, x k * ws k) + ∑ k : Fin d, Ideal.div (∑ n : Fin 10, y n k) f10 * wn k) f0

/-- The layer depends on its four arguments only through their values. -/
theorem rowLayer_congr {d : Nat} {x x' : Fin d → EReal} {y y' : Fin 10 → Fin d → EReal} {ws ws' wn wn' : Fin d → EReal}
    (hx : ∀ k, x k = x' k) (hy : ∀ n k, y n k = y' n k) (hs : ∀ k, ws k = ws' k) (hn : ∀ k, wn k = wn' k) :
    rowLayer x y ws wn = rowLayer x' y' ws' wn' := by
  have e1 : x = x' := funext hx
  have e2 : y = y' := funext fun n => funext (hy n)
  have e3 : ws = ws' := funext hs
  have e4 : wn = wn' := funext hn
  rw [e1, e2, e3, e4]

/-- ONE contraction of length `d + d` of the row `[x, mean y]` against the stacked column `[ws; wn]`, then `relu`: the
    layer's entry.  `cat` and `W` are the concatenated row and the weight column as the reference indexes them; the
    four hypotheses say what they hold on the first and on the last `d` positions. -/
theorem relu_contract_eq_rowLayer {d : Nat} (cat W : Fin (d + d) → EReal) (x : Fin d → EReal) (y : Fin 10 → Fin d → EReal)
    (ws wn : Fin d → EReal)
    (hx : ∀ k : Fin d, cat (Fin.castAdd d k) = x k)
    (hy : ∀ k : Fin d, cat (Fin.natAdd d k) = Ideal.div (f0 + ∑ n : Fin 10, y n k) f10)
    (hs : ∀ k : Fin d, W (Fin.castAdd d k) = ws k) (hn : ∀ k : Fin d, W (Fin.natAdd d k) = wn k) :
    max (∑ k : Fin (d + d), cat k * W k) f0 = rowLayer x y ws wn := by
  unfold rowLayer
  rw [Fin.sum_univ_add]
  simp only [hx, hy, hs, hn, f0, Ideal.ofBits_zero_f32, zero_add]

end Cert.SageMath

end
-- ==== Proof.SagePay0.lean ====
/-
  The body of region 0 at the extended reals, read at one entry of its output block.

  The body's one stored value is `max (xs · ws + (Σₙ xn / 10) · wn) 0` over blocks: `xs` a 256×500 block of rows, `xn` the
  256×10×500 block of their neighbours' rows, `ws` and `wn` the two 500×256 weight halves.  Entry (p, q) of a matrix product
  into a zero accumulator is the sum over the 500 contracted positions of the products; the sum over the neighbour axis
  at (p, k) is the sum over the ten neighbours of row p; both format-preserving shape casts are the identity.  So
  entry (p, q) is the layer's row function of row p and column q.
-/
import proofs.«110833_j58789512348198_2_alg».proof.Proof.Gen.KernelIdeal.Skeleton
import proofs.«110833_j58789512348198_2_alg».proof.Proof.SageMath
import Idealize.ShloMosaic.Lib.Pipeline.Value
import Idealize.ShloMosaic.Lib.ValueIdx
import Idealize.ShloMosaic.PureOps.Ideal.Laws

noncomputable section

open scoped BigOperators

namespace Cert.KernelIdeal.SageV

open Cert.KernelIdeal Cert.KernelIdeal.Gen Cert.SageMath
open Idealize.ShloMosaic Idealize.ShloMosaic.ValueIdx

/-- Entry (p, q) of the product of a 256×500 block and a 500×256 matrix into the zero accumulator. -/
theorem mm0_apply (l : FVec Ideal S256x500 .f32) (r : FVec Ideal S500x256 .f32) (p : Fin 256) (q : Fin 256) :
    matmul dot_S256x500_S500x256_S256x256_1_0_0_1_n_n (some .fp32) l r (constant (F := Ideal) S256x256 .f32 0x00000000#32) (ix2 p q)
      = ∑ k : Fin 500, l (ix2 p k) * r (ix2 k q) := by
  simp only [matmul]
  rw [Ideal.matmul_constant_zero_apply, ← Equiv.sum_comp (contrEquiv1 dot_S256x500_S500x256_S256x256_1_0_0_1_n_n 500 rfl rfl).symm]
  refine Finset.sum_congr rfl fun k _ => ?_
  have hk := contrEquiv1_symm_val dot_S256x500_S500x256_S256x256_1_0_0_1_n_n 500 rfl rfl k
  have el : dot_S256x500_S500x256_S256x256_1_0_0_1_n_n.lhsIdx (ix2 p q) ((contrEquiv1 dot_S256x500_S500x256_S256x256_1_0_0_1_n_n 500 rfl rfl).symm k) = ix2 p k := funext fun a => Fin.ext (by
    match a with
    | ⟨0, _⟩ =>
      show (dot_S256x500_S500x256_S256x256_1_0_0_1_n_n.lhsIdx (ix2 p q) _ 0).val = p.val
      unfold DotDims.lhsIdx
      rw [dif_neg (show ¬(0 : Fin S256x500.rank) ∈ dot_S256x500_S500x256_S256x256_1_0_0_1_n_n.lhsBatch by decide), dif_pos (show (0 : Fin S256x500.rank) ∈ dot_S256x500_S500x256_S256x256_1_0_0_1_n_n.lhsNonContracting by decide)]
      rfl
    | ⟨1, _⟩ => exact (dot_S256x500_S500x256_S256x256_1_0_0_1_n_n.lhsIdx_val_of_single rfl (ix2 p q) _).trans hk)
  have er : dot_S256x500_S500x256_S256x256_1_0_0_1_n_n.rhsIdx (ix2 p q) ((contrEquiv1 dot_S256x500_S500x256_S256x256_1_0_0_1_n_n 500 rfl rfl).symm k) = ix2 k q := funext fun a => Fin.ext (by
    match a with
    | ⟨0, _⟩ => exact (dot_S256x500_S500x256_S256x256_1_0_0_1_n_n.rhsIdx_val_of_single rfl (ix2 p q) _).trans hk
    | ⟨1, _⟩ =>
      show (dot_S256x500_S500x256_S256x256_1_0_0_1_n_n.rhsIdx (ix2 p q) _ 1).val = q.val
      unfold DotDims.rhsIdx
      rw [dif_neg (show ¬(1 : Fin S500x256.rank) ∈ dot_S256x500_S500x256_S256x256_1_0_0_1_n_n.rhsBatch by decide), dif_pos (show (1 : Fin S500x256.rank) ∈ dot_S256x500_S500x256_S256x256_1_0_0_1_n_n.rhsNonContracting by decide)]
      rfl)
  rw [el, er]

/-- The sum over the neighbour axis at (p, k): over the ten neighbours of row p. -/
theorem nsum0_apply (xn : FVec Ideal S256x10x500 .f32) (p : Fin 256) (k : Fin 500) :
    multiReduction (F := Ideal) .add [1] S256x500 xn 0x00000000#32 reduces_S256x10x500_S256x500 (.inl rfl) rfl (ix2 p k) = ∑ n : Fin 10, xn (ix3 p n k) := by
  refine (Ideal.multiReduction_add_single xn 0x00000000#32 reduces_S256x10x500_S256x500 (.inl rfl) rfl (ix2 p k)).trans ?_
  exact Finset.sum_congr rfl fun n _ => congrArg xn (funext fun a => Fin.ext (by
    match a with
    | ⟨0, _⟩ => rfl
    | ⟨1, _⟩ => rfl
    | ⟨2, _⟩ => rfl))

/-- Entry (p, q) of the stored block is the layer's row function of row p of `xs`, the ten rows (p, ·) of `xn` and
    column q of each weight half. -/
theorem pay0_apply (xn : Vec Ideal S256x10x500 .f32) (xs : Vec Ideal S256x500 .f32) (ws wn : Vec Ideal S500x256 .f32) (p : Fin 256) (q : Fin 256) :
    k0_pay1 (F := Ideal) xn xs ws wn (ix2 p q)
      = rowLayer (fun k : Fin 500 => xs (ix2 p k)) (fun n k => xn (ix3 p n k)) (fun k => ws (ix2 k q)) (fun k => wn (ix2 k q)) := by
  unfold k0_pay1 rowLayer
  simp only [shapeCast_self]
  show max (matmul (F := Ideal) dot_S256x500_S500x256_S256x256_1_0_0_1_n_n (some .fp32) xs ws (constant (F := Ideal) S256x256 .f32 0x00000000#32) (ix2 p q)
      + matmul (F := Ideal) dot_S256x500_S500x256_S256x256_1_0_0_1_n_n (some .fp32) (divf (multiReduction (F := Ideal) .add [1] S256x500 xn 0x00000000#32 reduces_S256x10x500_S256x500 (.inl rfl) rfl) (broadcast S256x500 (Scalar.ofBits .f32 0x41200000#32))) wn (constant (F := Ideal) S256x256 .f32 0x00000000#32) (ix2 p q))
      (Ideal.ofBits .f32 0x00000000#32) = _
  rw [mm0_apply, mm0_apply]
  refine congrArg (fun z => max (_ + z) _) (Finset.sum_congr rfl fun k _ => ?_)
  show Ideal.div (multiReduction (F := Ideal) .add [1] S256x500 xn 0x00000000#32 reduces_S256x10x500_S256x500 (.inl rfl) rfl (ix2 p k)) f10 * _ = _
  rw [nsum0_apply]

end Cert.KernelIdeal.SageV

end
-- ==== Proof.SageArr0.lean ====
/-
  What region 0 leaves in its output array: the layer of the arrays it is entered with, row by row.

  Point `t` of the grid works on rows `256·t … 256·t + 255`: its block of `self` rows and its block of neighbour rows sit at
  block index `t` on the row axis and at zero on the others, the weight halves are taken whole, and the output block is
  written back at block index `t`.  So what point `t` writes back is the block of ONE function of the entry arrays —
  entry (a, b) is the row function of row a of `self`, the ten rows (a, ·) of the neighbours and column b of the
  weights — and the 7 blocks tile the 1792 rows, so the array ends holding that function everywhere.
-/
import proofs.«110833_j58789512348198_2_alg».proof.Proof.SageData
import proofs.«110833_j58789512348198_2_alg».proof.Proof.SagePay0

noncomputable section

open scoped BigOperators

namespace Cert.KernelIdeal.SageV

open Cert.KernelIdeal Cert.KernelIdeal.Gen Cert.KernelIdeal.Sage Cert.SageMath
open Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))

theorem zeros2_0 : (![0, 0] : Fin 2 → Nat) = fun _ => 0 := funext fun a => by fin_cases a <;> rfl
theorem zeros3_0 : (![0, 0, 0] : Fin 3 → Nat) = fun _ => 0 := funext fun a => by fin_cases a <;> rfl

/-- The layer over whole arrays of 1792 rows: entry (a, b) from row a of `xs`, rows (a, ·) of `xn`, column b of the halves. -/
def layer0 (xs : S1792x500.Idx → EReal) (xn : S1792x10x500.Idx → EReal) (ws wn : S500x256.Idx → EReal) : S1792x256.Idx → EReal :=
  fun j => rowLayer (fun k : Fin 500 => xs (ix2 (⟨(j 0).val, (j 0).isLt⟩ : Fin 1792) k))
    (fun n k => xn (ix3 (⟨(j 0).val, (j 0).isLt⟩ : Fin 1792) n k))
    (fun k => ws (ix2 k (⟨(j 1).val, (j 1).isLt⟩ : Fin 256))) (fun k => wn (ix2 k (⟨(j 1).val, (j 1).isLt⟩ : Fin 256)))

/-- The printed index maps over the grid: the two row-blocked inputs move with the output on the row axis, every other
    block index is zero. -/
theorem blockIdx0 : ∀ t : Fin cfg0.N, win0_0.index t (0 : Fin 2) = win0_4.index t (0 : Fin 2) ∧ win0_0.index t (1 : Fin 2) = 0
    ∧ win0_1.index t (0 : Fin 3) = win0_4.index t (0 : Fin 2) ∧ win0_1.index t (1 : Fin 3) = 0 ∧ win0_1.index t (2 : Fin 3) = 0
    ∧ win0_2.index t (0 : Fin 2) = 0 ∧ win0_2.index t (1 : Fin 2) = 0
    ∧ win0_3.index t (0 : Fin 2) = 0 ∧ win0_3.index t (1 : Fin 2) = 0
    ∧ win0_4.index t (1 : Fin 2) = 0 ∧ win0_4.index t (0 : Fin 2) ≤ 6 :=
  (by decide +kernel : ∀ t : Fin grid0.N, _)

/-- Every row block is some point's. -/
theorem blockOnto0 : ∀ q0 : Fin 7, ∃ t : Fin cfg0.N, win0_4.index t = ![q0.val, 0] :=
  (by decide +kernel : ∀ q0 : Fin 7, ∃ t : Fin grid0.N, win0_4.index t = ![q0.val, 0])

/-- What point `t` writes back is block `t` of the layer of the entry arrays. -/
theorem flushed0_eq (c : Dev nD) (t : Fin cfg0.N) :
    (dat0 V c).flushed 4 t = ((cfg0.win 4).blk t).view.read (Elt Ideal) (layer0 (V c main_v4) (V c main_v8) (V c main_v0) (V c main_v1)) := by
  show (cfg0.win 4).cut (grid0.coords t) ((dat0 V c).after 4 t) = _
  rw [after0_4]
  unfold sageOut0
  rw [View.canon_unit_zero zeros2_0]
  simp only [View.ld_unit_zero (S := S256x500) zeros2_0, View.ld_unit_zero (S := S256x10x500) zeros3_0, View.ld_unit_zero (S := S500x256) zeros2_0]
  obtain ⟨e0, e1, e2, e3, e4, e5, e6, e7, e8, e9, e10⟩ := blockIdx0 t
  funext j
  obtain ⟨p, q, rfl⟩ : ∃ (p : Fin 256) (q : Fin 256), j = ix2 p q := ⟨j 0, j 1, eq_ix2 j⟩
  show k0_pay1 (F := Ideal) (iblk0 V c 1 t) (iblk0 V c 0 t) (iblk0 V c 2 t) (iblk0 V c 3 t) (ix2 p q)
    = layer0 (V c main_v4) (V c main_v8) (V c main_v0) (V c main_v1) (((cfg0.win 4).blk t).view.emb (ix2 p q))
  refine (pay0_apply (iblk0 V c 1 t) (iblk0 V c 0 t) (iblk0 V c 2 t) (iblk0 V c 3 t) p q).trans ?_
  unfold layer0
  refine rowLayer_congr (fun k => ?_) (fun n k => ?_) (fun k => ?_) (fun k => ?_)
  · show V c main_v4 (((cfg0.win 0).blk t).view.emb (ix2 p k)) = V c main_v4 _
    refine congrArg (V c main_v4) (funext fun a => Fin.ext ?_)
    match a with
    | ⟨0, _⟩ => show win0_0.index t (0 : Fin 2) * 256 + 1 * p.val = win0_4.index t (0 : Fin 2) * 256 + 1 * p.val; omega
    | ⟨1, _⟩ => show win0_0.index t (1 : Fin 2) * 500 + 1 * k.val = k.val; omega
  · show V c main_v8 (((cfg0.win 1).blk t).view.emb (ix3 p n k)) = V c main_v8 _
    refine congrArg (V c main_v8) (funext fun a => Fin.ext ?_)
    match a with
    | ⟨0, _⟩ => show win0_1.index t (0 : Fin 3) * 256 + 1 * p.val = win0_4.index t (0 : Fin 2) * 256 + 1 * p.val; omega
    | ⟨1, _⟩ => show win0_1.index t (1 : Fin 3) * 10 + 1 * n.val = n.val; omega
    | ⟨2, _⟩ => show win0_1.index t (2 : Fin 3) * 500 + 1 * k.val = k.val; omega
  · show V c main_v0 (((cfg0.win 2).blk t).view.emb (ix2 k q)) = V c main_v0 _
    refine congrArg (V c main_v0) (funext fun a => Fin.ext ?_)
    match a with
    | ⟨0, _⟩ => show win0_2.index t (0 : Fin 2) * 500 + 1 * k.val = k.val; omega
    | ⟨1, _⟩ => show win0_2.index t (1 : Fin 2) * 256 + 1 * q.val = win0_4.index t (1 : Fin 2) * 256 + 1 * q.val; omega
  · show V c main_v1 (((cfg0.win 3).blk t).view.emb (ix2 k q)) = V c main_v1 _
    refine congrArg (V c main_v1) (funext fun a => Fin.ext ?_)
    match a with
    | ⟨0, _⟩ => show win0_3.index t (0 : Fin 2) * 500 + 1 * k.val = k.val; omega
    | ⟨1, _⟩ => show win0_3.index t (1 : Fin 2) * 256 + 1 * q.val = win0_4.index t (1 : Fin 2) * 256 + 1 * q.val; omega

/-- An index of the output array is in point `t`'s block iff each coordinate is in the block's range on its axis. -/
theorem memBlock0 (t : Fin cfg0.N) (i : S1792x256.Idx) :
    i ∈ ((cfg0.win 4).blk t).view.set ↔ ∀ a : Fin 2, win0_4.index t a * S256x256.size a ≤ (i a).val ∧ (i a).val < win0_4.index t a * S256x256.size a + S256x256.size a := by
  show i ∈ ((View.whole main_v9).slice (win0_4.rect t)).set ↔ _
  rw [View.set_slice_whole, Rect.mem_set_unit]
  exact Iff.rfl

/-- Every index of the output array is in the block of the point that works on its row. -/
theorem covered0 (i : S1792x256.Idx) : ∃ t : Fin cfg0.N, (cfg0.win 4).flush t = true ∧ i ∈ ((cfg0.win 4).blk t).view.set := by
  have hi0 : (i 0).val < 1792 := (i 0).isLt
  have hi1 : (i 1).val < 256 := (i 1).isLt
  obtain ⟨t, ht⟩ := blockOnto0 ⟨(i 0).val / 256, by omega⟩
  have q0 : win0_4.index t (0 : Fin 2) = (i 0).val / 256 := congrFun ht 0
  have q1 : win0_4.index t (1 : Fin 2) = 0 := congrFun ht 1
  refine ⟨t, flush0_4 t, ?_⟩
  rw [memBlock0]
  intro a
  match a with
  | ⟨0, _⟩ => show win0_4.index t (0 : Fin 2) * 256 ≤ (i 0).val ∧ (i 0).val < win0_4.index t (0 : Fin 2) * 256 + 256; omega
  | ⟨1, _⟩ => show win0_4.index t (1 : Fin 2) * 256 ≤ (i 1).val ∧ (i 1).val < win0_4.index t (1 : Fin 2) * 256 + 256; omega

/-- The output array after the region: the layer of the entry arrays. -/
theorem final0 (c : Dev nD) :
    (dat0 V c).arrAt 4 cfg0.N = layer0 (V c main_v4) (V c main_v8) (V c main_v0) (V c main_v1) :=
  (dat0 V c).arrAt_eq_of_cover 4 _ (fun t _ => flushed0_eq V c t) covered0

end Cert.KernelIdeal.SageV

end
-- ==== Proof.SagePay1.lean ====
/-
  The body of region 1 at the extended reals, read at one entry of its output block.

  The body's one stored value is `max (xs · ws + (Σₙ xn / 10) · wn) 0` over blocks: `xs` a 640×500 block of rows, `xn` the
  640×10×500 block of their neighbours' rows, `ws` and `wn` the two 500×256 weight halves.  Entry (p, q) of a matrix product
  into a zero accumulator is the sum over the 500 contracted positions of the products; the sum over the neighbour axis
  at (p, k) is the sum over the ten neighbours of row p; both format-preserving shape casts are the identity.  So
  entry (p, q) is the layer's row function of row p and column q.
-/
import proofs.«110833_j58789512348198_2_alg».proof.Proof.Gen.KernelIdeal.Skeleton
import proofs.«110833_j58789512348198_2_alg».proof.Proof.SageMath
import Idealize.ShloMosaic.Lib.Pipeline.Value
import Idealize.ShloMosaic.Lib.ValueIdx
import Idealize.ShloMosaic.PureOps.Ideal.Laws

noncomputable section

open scoped BigOperators

namespace Cert.KernelIdeal.SageV

open Cert.KernelIdeal Cert.KernelIdeal.Gen Cert.SageMath
open Idealize.ShloMosaic Idealize.ShloMosaic.ValueIdx

/-- Entry (p, q) of the product of a 640×500 block and a 500×256 matrix into the zero accumulator. -/
theorem mm1_apply (l : FVec Ideal S640x500 .f32) (r : FVec Ideal S500x256 .f32) (p : Fin 640) (q : Fin 256) :
    matmul dot_S640x500_S500x256_S640x256_1_0_0_1_n_n (some .fp32) l r (constant (F := Ideal) S640x256 .f32 0x00000000#32) (ix2 p q)
      = ∑ k : Fin 500, l (ix2 p k) * r (ix2 k q) := by
  simp only [matmul]
  rw [Ideal.matmul_constant_zero_apply, ← Equiv.sum_comp (contrEquiv1 dot_S640x500_S500x256_S640x256_1_0_0_1_n_n 500 rfl rfl).symm]
  refine Finset.sum_congr rfl fun k _ => ?_
  have hk := contrEquiv1_symm_val dot_S640x500_S500x256_S640x256_1_0_0_1_n_n 500 rfl rfl k
  have el : dot_S640x500_S500x256_S640x256_1_0_0_1_n_n.lhsIdx (ix2 p q) ((contrEquiv1 dot_S640x500_S500x256_S640x256_1_0_0_1_n_n 500 rfl rfl).symm k) = ix2 p k := funext fun a => Fin.ext (by
    match a with
    | ⟨0, _⟩ =>
      show (dot_S640x500_S500x256_S640x256_1_0_0_1_n_n.lhsIdx (ix2 p q) _ 0).val = p.val
      unfold DotDims.lhsIdx
      rw [dif_neg (show ¬(0 : Fin S640x500.rank) ∈ dot_S640x500_S500x256_S640x256_1_0_0_1_n_n.lhsBatch by decide), dif_pos (show (0 : Fin S640x500.rank) ∈ dot_S640x500_S500x256_S640x256_1_0_0_1_n_n.lhsNonContracting by decide)]
      rfl
    | ⟨1, _⟩ => exact (dot_S640x500_S500x256_S640x256_1_0_0_1_n_n.lhsIdx_val_of_single rfl (ix2 p q) _).trans hk)
  have er : dot_S640x500_S500x256_S640x256_1_0_0_1_n_n.rhsIdx (ix2 p q) ((contrEquiv1 dot_S640x500_S500x256_S640x256_1_0_0_1_n_n 500 rfl rfl).symm k) = ix2 k q := funext fun a => Fin.ext (by
    match a with
    | ⟨0, _⟩ => exact (dot_S640x500_S500x256_S640x256_1_0_0_1_n_n.rhsIdx_val_of_single rfl (ix2 p q) _).trans hk
    | ⟨1, _⟩ =>
      show (dot_S640x500_S500x256_S640x256_1_0_0_1_n_n.rhsIdx (ix2 p q) _ 1).val = q.val
      unfold DotDims.rhsIdx
      rw [dif_neg (show ¬(1 : Fin S500x256.rank) ∈ dot_S640x500_S500x256_S640x256_1_0_0_1_n_n.rhsBatch by decide), dif_pos (show (1 : Fin S500x256.rank) ∈ dot_S640x500_S500x256_S640x256_1_0_0_1_n_n.rhsNonContracting by decide)]
      rfl)
  rw [el, er]

/-- The sum over the neighbour axis at (p, k): over the ten neighbours of row p. -/
theorem nsum1_apply (xn : FVec Ideal S640x10x500 .f32) (p : Fin 640) (k : Fin 500) :
    multiReduction (F := Ideal) .add [1] S640x500 xn 0x00000000#32 reduces_S640x10x500_S640x500 (.inl rfl) rfl (ix2 p k) = ∑ n : Fin 10, xn (ix3 p n k) := by
  refine (Ideal.multiReduction_add_single xn 0x00000000#32 reduces_S640x10x500_S640x500 (.inl rfl) rfl (ix2 p k)).trans ?_
  exact Finset.sum_congr rfl fun n _ => congrArg xn (funext fun a => Fin.ext (by
    match a with
    | ⟨0, _⟩ => rfl
    | ⟨1, _⟩ => rfl
    | ⟨2, _⟩ => rfl))

/-- Entry (p, q) of the stored block is the layer's row function of row p of `xs`, the ten rows (p, ·) of `xn` and
    column q of each weight half. -/
theorem pay1_apply (xn : Vec Ideal S640x10x500 .f32) (xs : Vec Ideal S640x500 .f32) (ws wn : Vec Ideal S500x256 .f32) (p : Fin 640) (q : Fin 256) :
    k1_pay1 (F := Ideal) xn xs ws wn (ix2 p q)
      = rowLayer (fun k : Fin 500 => xs (ix2 p k)) (fun n k => xn (ix3 p n k)) (fun k => ws (ix2 k q)) (fun k => wn (ix2 k q)) := by
  unfold k1_pay1 rowLayer
  simp only [shapeCast_self]
  show max (matmul (F := Ideal) dot_S640x500_S500x256_S640x256_1_0_0_1_n_n (some .fp32) xs ws (constant (F := Ideal) S640x256 .f32 0x00000000#32) (ix2 p q)
      + matmul (F := Ideal) dot_S640x500_S500x256_S640x256_1_0_0_1_n_n (some .fp32) (divf (multiReduction (F := Ideal) .add [1] S640x500 xn 0x00000000#32 reduces_S640x10x500_S640x500 (.inl rfl) rfl) (broadcast S640x500 (Scalar.ofBits .f32 0x41200000#32))) wn (constant (F := Ideal) S640x256 .f32 0x00000000#32) (ix2 p q))
      (Ideal.ofBits .f32 0x00000000#32) = _
  rw [mm1_apply, mm1_apply]
  refine congrArg (fun z => max (_ + z) _) (Finset.sum_congr rfl fun k _ => ?_)
  show Ideal.div (multiReduction (F := Ideal) .add [1] S640x500 xn 0x00000000#32 reduces_S640x10x500_S640x500 (.inl rfl) rfl (ix2 p k)) f10 * _ = _
  rw [nsum1_apply]

end Cert.KernelIdeal.SageV

end
-- ==== Proof.SageArr1.lean ====
/-
  What region 1 leaves in its output array: the layer of the arrays it is entered with, row by row.

  Point `t` of the grid works on rows `640·t … 640·t + 639`: its block of `self` rows and its block of neighbour rows sit at
  block index `t` on the row axis and at zero on the others, the weight halves are taken whole, and the output block is
  written back at block index `t`.  So what point `t` writes back is the block of ONE function of the entry arrays —
  entry (a, b) is the row function of row a of `self`, the ten rows (a, ·) of the neighbours and column b of the
  weights — and the 28 blocks tile the 17920 rows, so the array ends holding that function everywhere.
-/
import proofs.«110833_j58789512348198_2_alg».proof.Proof.SageData
import proofs.«110833_j58789512348198_2_alg».proof.Proof.SagePay1

noncomputable section

open scoped BigOperators

namespace Cert.KernelIdeal.SageV

open Cert.KernelIdeal Cert.KernelIdeal.Gen Cert.KernelIdeal.Sage Cert.SageMath
open Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))

theorem zeros2_1 : (![0, 0] : Fin 2 → Nat) = fun _ => 0 := funext fun a => by fin_cases a <;> rfl
theorem zeros3_1 : (![0, 0, 0] : Fin 3 → Nat) = fun _ => 0 := funext fun a => by fin_cases a <;> rfl

/-- The layer over whole arrays of 17920 rows: entry (a, b) from row a of `xs`, rows (a, ·) of `xn`, column b of the halves. -/
def layer1 (xs : S17920x500.Idx → EReal) (xn : S17920x10x500.Idx → EReal) (ws wn : S500x256.Idx → EReal) : S17920x256.Idx → EReal :=
  fun j => rowLayer (fun k : Fin 500 => xs (ix2 (⟨(j 0).val, (j 0).isLt⟩ : Fin 17920) k))
    (fun n k => xn (ix3 (⟨(j 0).val, (j 0).isLt⟩ : Fin 17920) n k))
    (fun k => ws (ix2 k (⟨(j 1).val, (j 1).isLt⟩ : Fin 256))) (fun k => wn (ix2 k (⟨(j 1).val, (j 1).isLt⟩ : Fin 256)))

/-- The printed index maps over the grid: the two row-blocked inputs move with the output on the row axis, every other
    block index is zero. -/
theorem blockIdx1 : ∀ t : Fin cfg1.N, win1_0.index t (0 : Fin 2) = win1_4.index t (0 : Fin 2) ∧ win1_0.index t (1 : Fin 2) = 0
    ∧ win1_1.index t (0 : Fin 3) = win1_4.index t (0 : Fin 2) ∧ win1_1.index t (1 : Fin 3) = 0 ∧ win1_1.index t (2 : Fin 3) = 0
    ∧ win1_2.index t (0 : Fin 2) = 0 ∧ win1_2.index t (1 : Fin 2) = 0
    ∧ win1_3.index t (0 : Fin 2) = 0 ∧ win1_3.index t (1 : Fin 2) = 0
    ∧ win1_4.index t (1 : Fin 2) = 0 ∧ win1_4.index t (0 : Fin 2) ≤ 27 :=
  (by decide +kernel : ∀ t : Fin grid1.N, _)

/-- Every row block is some point's. -/
theorem blockOnto1 : ∀ q0 : Fin 28, ∃ t : Fin cfg1.N, win1_4.index t = ![q0.val, 0] :=
  (by decide +kernel : ∀ q0 : Fin 28, ∃ t : Fin grid1.N, win1_4.index t = ![q0.val, 0])

/-- What point `t` writes back is block `t` of the layer of the entry arrays. -/
theorem flushed1_eq (c : Dev nD) (t : Fin cfg1.N) :
    (dat1 V c).flushed 4 t = ((cfg1.win 4).blk t).view.read (Elt Ideal) (layer1 (V c main_v13) (V c main_v17) (V c main_v0) (V c main_v1)) := by
  show (cfg1.win 4).cut (grid1.coords t) ((dat1 V c).after 4 t) = _
  rw [after1_4]
  unfold sageOut1
  rw [View.canon_unit_zero zeros2_1]
  simp only [View.ld_unit_zero (S := S640x500) zeros2_1, View.ld_unit_zero (S := S640x10x500) zeros3_1, View.ld_unit_zero (S := S500x256) zeros2_1]
  obtain ⟨e0, e1, e2, e3, e4, e5, e6, e7, e8, e9, e10⟩ := blockIdx1 t
  funext j
  obtain ⟨p, q, rfl⟩ : ∃ (p : Fin 640) (q : Fin 256), j = ix2 p q := ⟨j 0, j 1, eq_ix2 j⟩
  show k1_pay1 (F := Ideal) (iblk1 V c 1 t) (iblk1 V c 0 t) (iblk1 V c 2 t) (iblk1 V c 3 t) (ix2 p q)
    = layer1 (V c main_v13) (V c main_v17) (V c main_v0) (V c main_v1) (((cfg1.win 4).blk t).view.emb (ix2 p q))
  refine (pay1_apply (iblk1 V c 1 t) (iblk1 V c 0 t) (iblk1 V c 2 t) (iblk1 V c 3 t) p q).trans ?_
  unfold layer1
  refine rowLayer_congr (fun k => ?_) (fun n k => ?_) (fun k => ?_) (fun k => ?_)
  · show V c main_v13 (((cfg1.win 0).blk t).view.emb (ix2 p k)) = V c main_v13 _
    refine congrArg (V c main_v13) (funext fun a => Fin.ext ?_)
    match a with
    | ⟨0, _⟩ => show win1_0.index t (0 : Fin 2) * 640 + 1 * p.val = win1_4.index t (0 : Fin 2) * 640 + 1 * p.val; omega
    | ⟨1, _⟩ => show win1_0.index t (1 : Fin 2) * 500 + 1 * k.val = k.val; omega
  · show V c main_v17 (((cfg1.win 1).blk t).view.emb (ix3 p n k)) = V c main_v17 _
    refine congrArg (V c main_v17) (funext fun a => Fin.ext ?_)
    match a with
    | ⟨0, _⟩ => show win1_1.index t (0 : Fin 3) * 640 + 1 * p.val = win1_4.index t (0 : Fin 2) * 640 + 1 * p.val; omega
    | ⟨1, _⟩ => show win1_1.index t (1 : Fin 3) * 10 + 1 * n.val = n.val; omega
    | ⟨2, _⟩ => show win1_1.index t (2 : Fin 3) * 500 + 1 * k.val = k.val; omega
  · show V c main_v0 (((cfg1.win 2).blk t).view.emb (ix2 k q)) = V c main_v0 _
    refine congrArg (V c main_v0) (funext fun a => Fin.ext ?_)
    match a with
    | ⟨0, _⟩ => show win1_2.index t (0 : Fin 2) * 500 + 1 * k.val = k.val; omega
    | ⟨1, _⟩ => show win1_2.index t (1 : Fin 2) * 256 + 1 * q.val = win1_4.index t (1 : Fin 2) * 256 + 1 * q.val; omega
  · show V c main_v1 (((cfg1.win 3).blk t).view.emb (ix2 k q)) = V c main_v1 _
    refine congrArg (V c main_v1) (funext fun a => Fin.ext ?_)
    match a with
    | ⟨0, _⟩ => show win1_3.index t (0 : Fin 2) * 500 + 1 * k.val = k.val; omega
    | ⟨1, _⟩ => show win1_3.index t (1 : Fin 2) * 256 + 1 * q.val = win1_4.index t (1 : Fin 2) * 256 + 1 * q.val; omega

/-- An index of the output array is in point `t`'s block iff each coordinate is in the block's range on its axis. -/
theorem memBlock1 (t : Fin cfg1.N) (i : S17920x256.Idx) :
    i ∈ ((cfg1.win 4).blk t).view.set ↔ ∀ a : Fin 2, win1_4.index t a * S640x256.size a ≤ (i a).val ∧ (i a).val < win1_4.index t a * S640x256.size a + S640x256.size a := by
  show i ∈ ((View.whole main_v18).slice (win1_4.rect t)).set ↔ _
  rw [View.set_slice_whole, Rect.mem_set_unit]
  exact Iff.rfl

/-- Every index of the output array is in the block of the point that works on its row. -/
theorem covered1 (i : S17920x256.Idx) : ∃ t : Fin cfg1.N, (cfg1.win 4).flush t = true ∧ i ∈ ((cfg1.win 4).blk t).view.set := by
  have hi0 : (i 0).val < 17920 := (i 0).isLt
  have hi1 : (i 1).val < 256 := (i 1).isLt
  obtain ⟨t, ht⟩ := blockOnto1 ⟨(i 0).val / 640, by omega⟩
  have q0 : win1_4.index t (0 : Fin 2) = (i 0).val / 640 := congrFun ht 0
  have q1 : win1_4.index t (1 : Fin 2) = 0 := congrFun ht 1
  refine ⟨t, flush1_4 t, ?_⟩
  rw [memBlock1]
  intro a
  match a with
  | ⟨0, _⟩ => show win1_4.index t (0 : Fin 2) * 640 ≤ (i 0).val ∧ (i 0).val < win1_4.index t (0 : Fin 2) * 640 + 640; omega
  | ⟨1, _⟩ => show win1_4.index t (1 : Fin 2) * 256 ≤ (i 1).val ∧ (i 1).val < win1_4.index t (1 : Fin 2) * 256 + 256; omega

/-- The output array after the region: the layer of the entry arrays. -/
theorem final1 (c : Dev nD) :
    (dat1 V c).arrAt 4 cfg1.N = layer1 (V c main_v13) (V c main_v17) (V c main_v0) (V c main_v1) :=
  (dat1 V c).arrAt_eq_of_cover 4 _ (fun t _ => flushed1_eq V c t) covered1

end Cert.KernelIdeal.SageV

end
-- ==== Proof.SagePay2.lean ====
/-
  The body of region 2 at the extended reals, read at one entry of its output block.

  The body's one stored value is `max (xs · ws + (Σₙ xn / 10) · wn) 0` over blocks: `xs` a 256×256 block of rows, `xn` the
  256×10×256 block of their neighbours' rows, `ws` and `wn` the two 256×128 weight halves.  Entry (p, q) of a matrix product
  into a zero accumulator is the sum over the 256 contracted positions of the products; the sum over the neighbour axis
  at (p, k) is the sum over the ten neighbours of row p; both format-preserving shape casts are the identity.  So
  entry (p, q) is the layer's row function of row p and column q.
-/
import proofs.«110833_j58789512348198_2_alg».proof.Proof.Gen.KernelIdeal.Skeleton
import proofs.«110833_j58789512348198_2_alg».proof.Proof.SageMath
import Idealize.ShloMosaic.Lib.Pipeline.Value
import Idealize.ShloMosaic.Lib.ValueIdx
import Idealize.ShloMosaic.PureOps.Ideal.Laws

noncomputable section

open scoped BigOperators

namespace Cert.KernelIdeal.SageV

open Cert.KernelIdeal Cert.KernelIdeal.Gen Cert.SageMath
open Idealize.ShloMosaic Idealize.ShloMosaic.ValueIdx

/-- Entry (p, q) of the product of a 256×256 block and a 256×128 matrix into the zero accumulator. -/
theorem mm2_apply (l : FVec Ideal S256x256 .f32) (r : FVec Ideal S256x128 .f32) (p : Fin 256) (q : Fin 128) :
    matmul dot_S256x256_S256x128_S256x128_1_0_0_1_n_n (some .fp32) l r (constant (F := Ideal) S256x128 .f32 0x00000000#32) (ix2 p q)
      = ∑ k : Fin 256, l (ix2 p k) * r (ix2 k q) := by
  simp only [matmul]
  rw [Ideal.matmul_constant_zero_apply, ← Equiv.sum_comp (contrEquiv1 dot_S256x256_S256x128_S256x128_1_0_0_1_n_n 256 rfl rfl).symm]
  refine Finset.sum_congr rfl fun k _ => ?_
  have hk := contrEquiv1_symm_val dot_S256x256_S256x128_S256x128_1_0_0_1_n_n 256 rfl rfl k
  have el : dot_S256x256_S256x128_S256x128_1_0_0_1_n_n.lhsIdx (ix2 p q) ((contrEquiv1 dot_S256x256_S256x128_S256x128_1_0_0_1_n_n 256 rfl rfl).symm k) = ix2 p k := funext fun a => Fin.ext (by
    match a with
    | ⟨0, _⟩ =>
      show (dot_S256x256_S256x128_S256x128_1_0_0_1_n_n.lhsIdx (ix2 p q) _ 0).val = p.val
      unfold DotDims.lhsIdx
      rw [dif_neg (show ¬(0 : Fin S256x256.rank) ∈ dot_S256x256_S256x128_S256x128_1_0_0_1_n_n.lhsBatch by decide), dif_pos (show (0 : Fin S256x256.rank) ∈ dot_S256x256_S256x128_S256x128_1_0_0_1_n_n.lhsNonContracting by decide)]
      rfl
    | ⟨1, _⟩ => exact (dot_S256x256_S256x128_S256x128_1_0_0_1_n_n.lhsIdx_val_of_single rfl (ix2 p q) _).trans hk)
  have er : dot_S256x256_S256x128_S256x128_1_0_0_1_n_n.rhsIdx (ix2 p q) ((contrEquiv1 dot_S256x256_S256x128_S256x128_1_0_0_1_n_n 256 rfl rfl).symm k) = ix2 k q := funext fun a => Fin.ext (by
    match a with
    | ⟨0, _⟩ => exact (dot_S256x256_S256x128_S256x128_1_0_0_1_n_n.rhsIdx_val_of_single rfl (ix2 p q) _).trans hk
    | ⟨1, _⟩ =>
      show (dot_S256x256_S256x128_S256x128_1_0_0_1_n_n.rhsIdx (ix2 p q) _ 1).val = q.val
      unfold DotDims.rhsIdx
      rw [dif_neg (show ¬(1 : Fin S256x128.rank) ∈ dot_S256x256_S256x128_S256x128_1_0_0_1_n_n.rhsBatch by decide), dif_pos (show (1 : Fin S256x128.rank) ∈ dot_S256x256_S256x128_S256x128_1_0_0_1_n_n.rhsNonContracting by decide)]
      rfl)
  rw [el, er]

/-- The sum over the neighbour axis at (p, k): over the ten neighbours of row p. -/
theorem nsum2_apply (xn : FVec Ideal S256x10x256 .f32) (p : Fin 256) (k : Fin 256) :
    multiReduction (F := Ideal) .add [1] S256x256 xn 0x00000000#32 reduces_S256x10x256_S256x256 (.inl rfl) rfl (ix2 p k) = ∑ n : Fin 10, xn (ix3 p n k) := by
  refine (Ideal.multiReduction_add_single xn 0x00000000#32 reduces_S256x10x256_S256x256 (.inl rfl) rfl (ix2 p k)).trans ?_
  exact Finset.sum_congr rfl fun n _ => congrArg xn (funext fun a => Fin.ext (by
    match a with
    | ⟨0, _⟩ => rfl
    | ⟨1, _⟩ => rfl
    | ⟨2, _⟩ => rfl))

/-- Entry (p, q) of the stored block is the layer's row function of row p of `xs`, the ten rows (p, ·) of `xn` and
    column q of each weight half. -/
theorem pay2_apply (xn : Vec Ideal S256x10x256 .f32) (xs : Vec Ideal S256x256 .f32) (ws wn : Vec Ideal S256x128 .f32) (p : Fin 256) (q : Fin 128) :
    k2_pay1 (F := Ideal) xn xs ws wn (ix2 p q)
      = rowLayer (fun k : Fin 256 => xs (ix2 p k)) (fun n k => xn (ix3 p n k)) (fun k => ws (ix2 k q)) (fun k => wn (ix2 k q)) := by
  unfold k2_pay1 rowLayer
  simp only [shapeCast_self]
  show max (matmul (F := Ideal) dot_S256x256_S256x128_S256x128_1_0_0_1_n_n (some .fp32) xs ws (constant (F := Ideal) S256x128 .f32 0x00000000#32) (ix2 p q)
      + matmul (F := Ideal) dot_S256x256_S256x128_S256x128_1_0_0_1_n_n (some .fp32) (divf (multiReduction (F := Ideal) .add [1] S256x256 xn 0x00000000#32 reduces_S256x10x256_S256x256 (.inl rfl) rfl) (broadcast S256x256 (Scalar.ofBits .f32 0x41200000#32))) wn (constant (F := Ideal) S256x128 .f32 0x00000000#32) (ix2 p q))
      (Ideal.ofBits .f32 0x00000000#32) = _
  rw [mm2_apply, mm2_apply]
  refine congrArg (fun z => max (_ + z) _) (Finset.sum_congr rfl fun k _ => ?_)
  show Ideal.div (multiReduction (F := Ideal) .add [1] S256x256 xn 0x00000000#32 reduces_S256x10x256_S256x256 (.inl rfl) rfl (ix2 p k)) f10 * _ = _
  rw [nsum2_apply]

end Cert.KernelIdeal.SageV

end
-- ==== Proof.SageArr2.lean ====
/-
  What region 2 leaves in its output array: the layer of the arrays it is entered with, row by row.

  Point `t` of the grid works on rows `256·t … 256·t + 255`: its block of `self` rows and its block of neighbour rows sit at
  block index `t` on the row axis and at zero on the others, the weight halves are taken whole, and the output block is
  written back at block index `t`.  So what point `t` writes back is the block of ONE function of the entry arrays —
  entry (a, b) is the row function of row a of `self`, the ten rows (a, ·) of the neighbours and column b of the
  weights — and the 7 blocks tile the 1792 rows, so the array ends holding that function everywhere.
-/
import proofs.«110833_j58789512348198_2_alg».proof.Proof.SageData
import proofs.«110833_j58789512348198_2_alg».proof.Proof.SagePay2

noncomputable section

open scoped BigOperators

namespace Cert.KernelIdeal.SageV

open Cert.KernelIdeal Cert.KernelIdeal.Gen Cert.KernelIdeal.Sage Cert.SageMath
open Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))

theorem zeros2_2 : (![0, 0] : Fin 2 → Nat) = fun _ => 0 := funext fun a => by fin_cases a <;> rfl
theorem zeros3_2 : (![0, 0, 0] : Fin 3 → Nat) = fun _ => 0 := funext fun a => by fin_cases a <;> rfl

/-- The layer over whole arrays of 1792 rows: entry (a, b) from row a of `xs`, rows (a, ·) of `xn`, column b of the halves. -/
def layer2 (xs : S1792x256.Idx → EReal) (xn : S1792x10x256.Idx → EReal) (ws wn : S256x128.Idx → EReal) : S1792x128.Idx → EReal :=
  fun j => rowLayer (fun k : Fin 256 => xs (ix2 (⟨(j 0).val, (j 0).isLt⟩ : Fin 1792) k))
    (fun n k => xn (ix3 (⟨(j 0).val, (j 0).isLt⟩ : Fin 1792) n k))
    (fun k => ws (ix2 k (⟨(j 1).val, (j 1).isLt⟩ : Fin 128))) (fun k => wn (ix2 k (⟨(j 1).val, (j 1).isLt⟩ : Fin 128)))

/-- The printed index maps over the grid: the two row-blocked inputs move with the output on the row axis, every other
    block index is zero. -/
theorem blockIdx2 : ∀ t : Fin cfg2.N, win2_0.index t (0 : Fin 2) = win2_4.index t (0 : Fin 2) ∧ win2_0.index t (1 : Fin 2) = 0
    ∧ win2_1.index t (0 : Fin 3) = win2_4.index t (0 : Fin 2) ∧ win2_1.index t (1 : Fin 3) = 0 ∧ win2_1.index t (2 : Fin 3) = 0
    ∧ win2_2.index t (0 : Fin 2) = 0 ∧ win2_2.index t (1 : Fin 2) = 0
    ∧ win2_3.index t (0 : Fin 2) = 0 ∧ win2_3.index t (1 : Fin 2) = 0
    ∧ win2_4.index t (1 : Fin 2) = 0 ∧ win2_4.index t (0 : Fin 2) ≤ 6 :=
  (by decide +kernel : ∀ t : Fin grid2.N, _)

/-- Every row block is some point's. -/
theorem blockOnto2 : ∀ q0 : Fin 7, ∃ t : Fin cfg2.N, win2_4.index t = ![q0.val, 0] :=
  (by decide +kernel : ∀ q0 : Fin 7, ∃ t : Fin grid2.N, win2_4.index t = ![q0.val, 0])

/-- What point `t` writes back is block `t` of the layer of the entry arrays. -/
theorem flushed2_eq (c : Dev nD) (t : Fin cfg2.N) :
    (dat2 V c).flushed 4 t = ((cfg2.win 4).blk t).view.read (Elt Ideal) (layer2 (V c main_v22) (V c main_v26) (V c main_v2) (V c main_v3)) := by
  show (cfg2.win 4).cut (grid2.coords t) ((dat2 V c).after 4 t) = _
  rw [after2_4]
  unfold sageOut2
  rw [View.canon_unit_zero zeros2_2]
  simp only [View.ld_unit_zero (S := S256x256) zeros2_2, View.ld_unit_zero (S := S256x10x256) zeros3_2, View.ld_unit_zero (S := S256x128) zeros2_2]
  obtain ⟨e0, e1, e2, e3, e4, e5, e6, e7, e8, e9, e10⟩ := blockIdx2 t
  funext j
  obtain ⟨p, q, rfl⟩ : ∃ (p : Fin 256) (q : Fin 128), j = ix2 p q := ⟨j 0, j 1, eq_ix2 j⟩
  show k2_pay1 (F := Ideal) (iblk2 V c 1 t) (iblk2 V c 0 t) (iblk2 V c 2 t) (iblk2 V c 3 t) (ix2 p q)
    = layer2 (V c main_v22) (V c main_v26) (V c main_v2) (V c main_v3) (((cfg2.win 4).blk t).view.emb (ix2 p q))
  refine (pay2_apply (iblk2 V c 1 t) (iblk2 V c 0 t) (iblk2 V c 2 t) (iblk2 V c 3 t) p q).trans ?_
  unfold layer2
  refine rowLayer_congr (fun k => ?_) (fun n k => ?_) (fun k => ?_) (fun k => ?_)
  · show V c main_v22 (((cfg2.win 0).blk t).view.emb (ix2 p k)) = V c main_v22 _
    refine congrArg (V c main_v22) (funext fun a => Fin.ext ?_)
    match a with
    | ⟨0, _⟩ => show win2_0.index t (0 : Fin 2) * 256 + 1 * p.val = win2_4.index t (0 : Fin 2) * 256 + 1 * p.val; omega
    | ⟨1, _⟩ => show win2_0.index t (1 : Fin 2) * 256 + 1 * k.val = k.val; omega
  · show V c main_v26 (((cfg2.win 1).blk t).view.emb (ix3 p n k)) = V c main_v26 _
    refine congrArg (V c main_v26) (funext fun a => Fin.ext ?_)
    match a with
    | ⟨0, _⟩ => show win2_1.index t (0 : Fin 3) * 256 + 1 * p.val = win2_4.index t (0 : Fin 2) * 256 + 1 * p.val; omega
    | ⟨1, _⟩ => show win2_1.index t (1 : Fin 3) * 10 + 1 * n.val = n.val; omega
    | ⟨2, _⟩ => show win2_1.index t (2 : Fin 3) * 256 + 1 * k.val = k.val; omega
  · show V c main_v2 (((cfg2.win 2).blk t).view.emb (ix2 k q)) = V c main_v2 _
    refine congrArg (V c main_v2) (funext fun a => Fin.ext ?_)
    match a with
    | ⟨0, _⟩ => show win2_2.index t (0 : Fin 2) * 256 + 1 * k.val = k.val; omega
    | ⟨1, _⟩ => show win2_2.index t (1 : Fin 2) * 128 + 1 * q.val = win2_4.index t (1 : Fin 2) * 128 + 1 * q.val; omega
  · show V c main_v3 (((cfg2.win 3).blk t).view.emb (ix2 k q)) = V c main_v3 _
    refine congrArg (V c main_v3) (funext fun a => Fin.ext ?_)
    match a with
    | ⟨0, _⟩ => show win2_3.index t (0 : Fin 2) * 256 + 1 * k.val = k.val; omega
    | ⟨1, _⟩ => show win2_3.index t (1 : Fin 2) * 128 + 1 * q.val = win2_4.index t (1 : Fin 2) * 128 + 1 * q.val; omega

/-- An index of the output array is in point `t`'s block iff each coordinate is in the block's range on its axis. -/
theorem memBlock2 (t : Fin cfg2.N) (i : S1792x128.Idx) :
    i ∈ ((cfg2.win 4).blk t).view.set ↔ ∀ a : Fin 2, win2_4.index t a * S256x128.size a ≤ (i a).val ∧ (i a).val < win2_4.index t a * S256x128.size a + S256x128.size a := by
  show i ∈ ((View.whole main_v27).slice (win2_4.rect t)).set ↔ _
  rw [View.set_slice_whole, Rect.mem_set_unit]
  exact Iff.rfl

/-- Every index of the output array is in the block of the point that works on its row. -/
theorem covered2 (i : S1792x128.Idx) : ∃ t : Fin cfg2.N, (cfg2.win 4).flush t = true ∧ i ∈ ((cfg2.win 4).blk t).view.set := by
  have hi0 : (i 0).val < 1792 := (i 0).isLt
  have hi1 : (i 1).val < 128 := (i 1).isLt
  obtain ⟨t, ht⟩ := blockOnto2 ⟨(i 0).val / 256, by omega⟩
  have q0 : win2_4.index t (0 : Fin 2) = (i 0).val / 256 := congrFun ht 0
  have q1 : win2_4.index t (1 : Fin 2) = 0 := congrFun ht 1
  refine ⟨t, flush2_4 t, ?_⟩
  rw [memBlock2]
  intro a
  match a with
  | ⟨0, _⟩ => show win2_4.index t (0 : Fin 2) * 256 ≤ (i 0).val ∧ (i 0).val < win2_4.index t (0 : Fin 2) * 256 + 256; omega
  | ⟨1, _⟩ => show win2_4.index t (1 : Fin 2) * 128 ≤ (i 1).val ∧ (i 1).val < win2_4.index t (1 : Fin 2) * 128 + 128; omega

/-- The output array after the region: the layer of the entry arrays. -/
theorem final2 (c : Dev nD) :
    (dat2 V c).arrAt 4 cfg2.N = layer2 (V c main_v22) (V c main_v26) (V c main_v2) (V c main_v3) :=
  (dat2 V c).arrAt_eq_of_cover 4 _ (fun t _ => flushed2_eq V c t) covered2

end Cert.KernelIdeal.SageV

end
-- ==== Proof.SageHost.lean ====
/-
  The idealized kernel program's three results as ONE pure term of its eleven argument arrays.

  @main is seven items: host operations, region 0, host operations, region 1, host operations, region 2, host
  operations.  The host operations only re-lay data: they cut each weight matrix into its upper and lower half, stack
  the three node sets (source, destination, negative) of a level into one array of rows, view each level's neighbour
  rows as ten per node and stack those, and cut a region's stacked output back into the three node sets.  Region 0
  computes layer one for the stacked level-0 rows (neighbours: level 1), region 1 layer one for the stacked level-1 rows
  (neighbours: level 2), region 2 layer two for the stacked level-0 outputs with the level-1 outputs as neighbours.
  Folding the buffer contents through the seven items gives each result as the composed term below.
-/
import proofs.«110833_j58789512348198_2_alg».proof.Proof.SageArr0
import proofs.«110833_j58789512348198_2_alg».proof.Proof.SageArr1
import proofs.«110833_j58789512348198_2_alg».proof.Proof.SageArr2
import Idealize.ShloMosaic.Lib.StableHlo.Run

noncomputable section

namespace Cert.KernelIdeal.SageV

open Cert.KernelIdeal Cert.KernelIdeal.Gen Cert.KernelIdeal.Sage Cert.SageMath
open Idealize.ShloMosaic Idealize.ShloMosaic.TcCoe Idealize.ShloMosaic.ValueIdx Idealize.ShloMosaic.StableHlo
open Idealize.SL.Sem
open Idealize.ShloMosaic.Pipeline (Dat)

/-! ## The re-laying operations, as functions of arrays -/

/-- The upper and the lower half of each weight matrix. -/
def wLo0 (a9 : S1000x256.Idx → EReal) : S500x256.Idx → EReal := extractStridedSlice S500x256 ![0, 0] a9 slices_S1000x256_S500x256_0_0
def wHi0 (a9 : S1000x256.Idx → EReal) : S500x256.Idx → EReal := extractStridedSlice S500x256 ![500, 0] a9 slices_S1000x256_S500x256_500_0
def wLo1 (a10 : S512x128.Idx → EReal) : S256x128.Idx → EReal := extractStridedSlice S256x128 ![0, 0] a10 slices_S512x128_S256x128_0_0
def wHi1 (a10 : S512x128.Idx → EReal) : S256x128.Idx → EReal := extractStridedSlice S256x128 ![256, 0] a10 slices_S512x128_S256x128_256_0

/-- Level 0's three node sets stacked, and their neighbours (level 1, ten per node) stacked. -/
def selfA (a0 a3 : S256x500.Idx → EReal) (a6 : S1280x500.Idx → EReal) : S1792x500.Idx → EReal :=
  concatenate S1792x500 0 [⟨S256x500, a0⟩, ⟨S256x500, a3⟩, ⟨S1280x500, a6⟩] concatenates_S256x500_S256x500_S1280x500_S1792x500_d0
def neighA (a1 a4 : S2560x500.Idx → EReal) (a7 : S12800x500.Idx → EReal) : S1792x10x500.Idx → EReal :=
  concatenate S1792x10x500 0 [⟨S256x10x500, shapeCast S256x10x500 a1 shapeCasts_S2560x500_S256x10x500⟩, ⟨S256x10x500, shapeCast S256x10x500 a4 shapeCasts_S2560x500_S256x10x500⟩, ⟨S1280x10x500, shapeCast S1280x10x500 a7 shapeCasts_S12800x500_S1280x10x500⟩] concatenates_S256x10x500_S256x10x500_S1280x10x500_S1792x10x500_d0
/-- Level 1's three node sets stacked, and their neighbours (level 2) stacked. -/
def selfB (a1 a4 : S2560x500.Idx → EReal) (a7 : S12800x500.Idx → EReal) : S17920x500.Idx → EReal :=
  concatenate S17920x500 0 [⟨S2560x500, a1⟩, ⟨S2560x500, a4⟩, ⟨S12800x500, a7⟩] concatenates_S2560x500_S2560x500_S12800x500_S17920x500_d0
def neighB (a2 a5 : S25600x500.Idx → EReal) (a8 : S128000x500.Idx → EReal) : S17920x10x500.Idx → EReal :=
  concatenate S17920x10x500 0 [⟨S2560x10x500, shapeCast S2560x10x500 a2 shapeCasts_S25600x500_S2560x10x500⟩, ⟨S2560x10x500, shapeCast S2560x10x500 a5 shapeCasts_S25600x500_S2560x10x500⟩, ⟨S12800x10x500, shapeCast S12800x10x500 a8 shapeCasts_S128000x500_S12800x10x500⟩] concatenates_S2560x10x500_S2560x10x500_S12800x10x500_S17920x10x500_d0
/-- Layer one's stacked level-0 output cut into the node sets and stacked again; its stacked level-1 output cut into the
    node sets, each viewed ten rows per node, and stacked. -/
def selfC (oA : S1792x256.Idx → EReal) : S1792x256.Idx → EReal :=
  concatenate S1792x256 0 [⟨S256x256, extractStridedSlice S256x256 ![0, 0] oA slices_S1792x256_S256x256_0_0⟩, ⟨S256x256, extractStridedSlice S256x256 ![256, 0] oA slices_S1792x256_S256x256_256_0⟩, ⟨S1280x256, extractStridedSlice S1280x256 ![512, 0] oA slices_S1792x256_S1280x256_512_0⟩] concatenates_S256x256_S256x256_S1280x256_S1792x256_d0
def neighC (oB : S17920x256.Idx → EReal) : S1792x10x256.Idx → EReal :=
  concatenate S1792x10x256 0 [⟨S256x10x256, shapeCast S256x10x256 (extractStridedSlice S2560x256 ![0, 0] oB slices_S17920x256_S2560x256_0_0) shapeCasts_S2560x256_S256x10x256⟩, ⟨S256x10x256, shapeCast S256x10x256 (extractStridedSlice S2560x256 ![2560, 0] oB slices_S17920x256_S2560x256_2560_0) shapeCasts_S2560x256_S256x10x256⟩, ⟨S1280x10x256, shapeCast S1280x10x256 (extractStridedSlice S12800x256 ![5120, 0] oB slices_S17920x256_S12800x256_5120_0) shapeCasts_S12800x256_S1280x10x256⟩] concatenates_S256x10x256_S256x10x256_S1280x10x256_S1792x10x256_d0

variable (m : (ℓ : Loc nD τ sig) → Buf (Elt Ideal) ℓ) (ρ : Dev nD → PrngReg) (c : Dev nD)

/-- Region 0's output array, region 1's, region 2's, as terms of the arguments. -/
def outA : S1792x256.Idx → EReal :=
  layer0 (selfA (m ((c : Thread nD τ).loc main_arg0)) (m ((c : Thread nD τ).loc main_arg3)) (m ((c : Thread nD τ).loc main_arg6))) (neighA (m ((c : Thread nD τ).loc main_arg1)) (m ((c : Thread nD τ).loc main_arg4)) (m ((c : Thread nD τ).loc main_arg7))) (wLo0 (m ((c : Thread nD τ).loc main_arg9))) (wHi0 (m ((c : Thread nD τ).loc main_arg9)))
def outB : S17920x256.Idx → EReal :=
  layer1 (selfB (m ((c : Thread nD τ).loc main_arg1)) (m ((c : Thread nD τ).loc main_arg4)) (m ((c : Thread nD τ).loc main_arg7))) (neighB (m ((c : Thread nD τ).loc main_arg2)) (m ((c : Thread nD τ).loc main_arg5)) (m ((c : Thread nD τ).loc main_arg8))) (wLo0 (m ((c : Thread nD τ).loc main_arg9))) (wHi0 (m ((c : Thread nD τ).loc main_arg9)))
def outC : S1792x128.Idx → EReal :=
  layer2 (selfC (outA m c)) (neighC (outB m c)) (wLo1 (m ((c : Thread nD τ).loc main_arg10))) (wHi1 (m ((c : Thread nD τ).loc main_arg10)))

/-! ## The fold -/

/-! ### The first host stretch, from the launch memory -/

theorem W1_v4 : (W1 m ρ c (Proc.devRef .tc main_v4) : S1792x500.Idx → EReal) = selfA (m ((c : Thread nD τ).loc main_arg0)) (m ((c : Thread nD τ).loc main_arg3)) (m ((c : Thread nD τ).loc main_arg6)) := by
  show StableHlo.after hostOps0 (W0 m ρ c) (Proc.devRef .tc main_v4) = _
  dsimp only [hostOps0]
  after_results
  all_goals rfl
theorem W1_v8 : (W1 m ρ c (Proc.devRef .tc main_v8) : S1792x10x500.Idx → EReal) = neighA (m ((c : Thread nD τ).loc main_arg1)) (m ((c : Thread nD τ).loc main_arg4)) (m ((c : Thread nD τ).loc main_arg7)) := by
  show StableHlo.after hostOps0 (W0 m ρ c) (Proc.devRef .tc main_v8) = _
  dsimp only [hostOps0]
  after_results
  all_goals rfl
theorem W1_v0 : (W1 m ρ c (Proc.devRef .tc main_v0) : S500x256.Idx → EReal) = wLo0 (m ((c : Thread nD τ).loc main_arg9)) := by
  show StableHlo.after hostOps0 (W0 m ρ c) (Proc.devRef .tc main_v0) = _
  dsimp only [hostOps0]
  after_results
  all_goals rfl
theorem W1_v1 : (W1 m ρ c (Proc.devRef .tc main_v1) : S500x256.Idx → EReal) = wHi0 (m ((c : Thread nD τ).loc main_arg9)) := by
  show StableHlo.after hostOps0 (W0 m ρ c) (Proc.devRef .tc main_v1) = _
  dsimp only [hostOps0]
  after_results
  all_goals rfl
theorem W1_v2 : (W1 m ρ c (Proc.devRef .tc main_v2) : S256x128.Idx → EReal) = wLo1 (m ((c : Thread nD τ).loc main_arg10)) := by
  show StableHlo.after hostOps0 (W0 m ρ c) (Proc.devRef .tc main_v2) = _
  dsimp only [hostOps0]
  after_results
  all_goals rfl
theorem W1_v3 : (W1 m ρ c (Proc.devRef .tc main_v3) : S256x128.Idx → EReal) = wHi1 (m ((c : Thread nD τ).loc main_arg10)) := by
  show StableHlo.after hostOps0 (W0 m ρ c) (Proc.devRef .tc main_v3) = _
  dsimp only [hostOps0]
  after_results
  all_goals rfl
theorem W1_arg1 : (W1 m ρ c (Proc.devRef .tc main_arg1) : S2560x500.Idx → EReal) = (m ((c : Thread nD τ).loc main_arg1)) := by
  show StableHlo.after hostOps0 (W0 m ρ c) (Proc.devRef .tc main_arg1) = _
  dsimp only [hostOps0]
  after_results
  all_goals rfl
theorem W1_arg2 : (W1 m ρ c (Proc.devRef .tc main_arg2) : S25600x500.Idx → EReal) = (m ((c : Thread nD τ).loc main_arg2)) := by
  show StableHlo.after hostOps0 (W0 m ρ c) (Proc.devRef .tc main_arg2) = _
  dsimp only [hostOps0]
  after_results
  all_goals rfl
theorem W1_arg4 : (W1 m ρ c (Proc.devRef .tc main_arg4) : S2560x500.Idx → EReal) = (m ((c : Thread nD τ).loc main_arg4)) := by
  show StableHlo.after hostOps0 (W0 m ρ c) (Proc.devRef .tc main_arg4) = _
  dsimp only [hostOps0]
  after_results
  all_goals rfl
theorem W1_arg5 : (W1 m ρ c (Proc.devRef .tc main_arg5) : S25600x500.Idx → EReal) = (m ((c : Thread nD τ).loc main_arg5)) := by
  show StableHlo.after hostOps0 (W0 m ρ c) (Proc.devRef .tc main_arg5) = _
  dsimp only [hostOps0]
  after_results
  all_goals rfl
theorem W1_arg7 : (W1 m ρ c (Proc.devRef .tc main_arg7) : S12800x500.Idx → EReal) = (m ((c : Thread nD τ).loc main_arg7)) := by
  show StableHlo.after hostOps0 (W0 m ρ c) (Proc.devRef .tc main_arg7) = _
  dsimp only [hostOps0]
  after_results
  all_goals rfl
theorem W1_arg8 : (W1 m ρ c (Proc.devRef .tc main_arg8) : S128000x500.Idx → EReal) = (m ((c : Thread nD τ).loc main_arg8)) := by
  show StableHlo.after hostOps0 (W0 m ρ c) (Proc.devRef .tc main_arg8) = _
  dsimp only [hostOps0]
  after_results
  all_goals rfl
/-! ### Region 0 -/

theorem W2_v9 : (W2 m ρ c (Proc.devRef .tc main_v9) : S1792x256.Idx → EReal) = outA m c := by
  refine (W2_arr m ρ c 4).trans ((final0 (V1 m ρ) c).trans ?_)
  unfold outA
  rw [show (V1 m ρ c main_v4 : S1792x500.Idx → EReal) = _ from W1_v4 m ρ c, show (V1 m ρ c main_v8 : S1792x10x500.Idx → EReal) = _ from W1_v8 m ρ c,
    show (V1 m ρ c main_v0 : S500x256.Idx → EReal) = _ from W1_v0 m ρ c, show (V1 m ρ c main_v1 : S500x256.Idx → EReal) = _ from W1_v1 m ρ c]
theorem W2_arg1 : (W2 m ρ c (Proc.devRef .tc main_arg1) : S2560x500.Idx → EReal) = (m ((c : Thread nD τ).loc main_arg1)) :=
  (W2_of_ne m ρ c main_arg1 (by decide)).trans (W1_arg1 m ρ c)
theorem W2_arg2 : (W2 m ρ c (Proc.devRef .tc main_arg2) : S25600x500.Idx → EReal) = (m ((c : Thread nD τ).loc main_arg2)) :=
  (W2_of_ne m ρ c main_arg2 (by decide)).trans (W1_arg2 m ρ c)
theorem W2_arg4 : (W2 m ρ c (Proc.devRef .tc main_arg4) : S2560x500.Idx → EReal) = (m ((c : Thread nD τ).loc main_arg4)) :=
  (W2_of_ne m ρ c main_arg4 (by decide)).trans (W1_arg4 m ρ c)
theorem W2_arg5 : (W2 m ρ c (Proc.devRef .tc main_arg5) : S25600x500.Idx → EReal) = (m ((c : Thread nD τ).loc main_arg5)) :=
  (W2_of_ne m ρ c main_arg5 (by decide)).trans (W1_arg5 m ρ c)
theorem W2_arg7 : (W2 m ρ c (Proc.devRef .tc main_arg7) : S12800x500.Idx → EReal) = (m ((c : Thread nD τ).loc main_arg7)) :=
  (W2_of_ne m ρ c main_arg7 (by decide)).trans (W1_arg7 m ρ c)
theorem W2_arg8 : (W2 m ρ c (Proc.devRef .tc main_arg8) : S128000x500.Idx → EReal) = (m ((c : Thread nD τ).loc main_arg8)) :=
  (W2_of_ne m ρ c main_arg8 (by decide)).trans (W1_arg8 m ρ c)
theorem W2_v2 : (W2 m ρ c (Proc.devRef .tc main_v2) : S256x128.Idx → EReal) = wLo1 (m ((c : Thread nD τ).loc main_arg10)) := (W2_of_ne m ρ c main_v2 (by decide)).trans (W1_v2 m ρ c)
theorem W2_v3 : (W2 m ρ c (Proc.devRef .tc main_v3) : S256x128.Idx → EReal) = wHi1 (m ((c : Thread nD τ).loc main_arg10)) := (W2_of_ne m ρ c main_v3 (by decide)).trans (W1_v3 m ρ c)
theorem W2_v0 : (W2 m ρ c (Proc.devRef .tc main_v0) : S500x256.Idx → EReal) = wLo0 (m ((c : Thread nD τ).loc main_arg9)) :=
  (W2_arr m ρ c 2).trans ((((dat0 (V1 m ρ) c).arrAt_in 2 rfl _).trans (A_eq0 (V1 m ρ) c 2)).trans (W1_v0 m ρ c))
theorem W2_v1 : (W2 m ρ c (Proc.devRef .tc main_v1) : S500x256.Idx → EReal) = wHi0 (m ((c : Thread nD τ).loc main_arg9)) :=
  (W2_arr m ρ c 3).trans ((((dat0 (V1 m ρ) c).arrAt_in 3 rfl _).trans (A_eq0 (V1 m ρ) c 3)).trans (W1_v1 m ρ c))
/-! ### The second host stretch -/

theorem W3_v13 : (W3 m ρ c (Proc.devRef .tc main_v13) : S17920x500.Idx → EReal) = selfB (W2 m ρ c (Proc.devRef .tc main_arg1) : S2560x500.Idx → EReal) (W2 m ρ c (Proc.devRef .tc main_arg4) : S2560x500.Idx → EReal) (W2 m ρ c (Proc.devRef .tc main_arg7) : S12800x500.Idx → EReal) := by
  show StableHlo.after hostOps1 (W2 m ρ c) (Proc.devRef .tc main_v13) = _
  dsimp only [hostOps1]
  after_results
  all_goals rfl
theorem W3_v17 : (W3 m ρ c (Proc.devRef .tc main_v17) : S17920x10x500.Idx → EReal) = neighB (W2 m ρ c (Proc.devRef .tc main_arg2) : S25600x500.Idx → EReal) (W2 m ρ c (Proc.devRef .tc main_arg5) : S25600x500.Idx → EReal) (W2 m ρ c (Proc.devRef .tc main_arg8) : S128000x500.Idx → EReal) := by
  show StableHlo.after hostOps1 (W2 m ρ c) (Proc.devRef .tc main_v17) = _
  dsimp only [hostOps1]
  after_results
  all_goals rfl
theorem W3_v10 : (W3 m ρ c (Proc.devRef .tc main_v10) : S256x256.Idx → EReal) = extractStridedSlice S256x256 ![0, 0] (W2 m ρ c (Proc.devRef .tc main_v9) : S1792x256.Idx → EReal) slices_S1792x256_S256x256_0_0 := by
  show StableHlo.after hostOps1 (W2 m ρ c) (Proc.devRef .tc main_v10) = _
  dsimp only [hostOps1]
  after_results
  all_goals rfl
theorem W3_v11 : (W3 m ρ c (Proc.devRef .tc main_v11) : S256x256.Idx → EReal) = extractStridedSlice S256x256 ![256, 0] (W2 m ρ c (Proc.devRef .tc main_v9) : S1792x256.Idx → EReal) slices_S1792x256_S256x256_256_0 := by
  show StableHlo.after hostOps1 (W2 m ρ c) (Proc.devRef .tc main_v11) = _
  dsimp only [hostOps1]
  after_results
  all_goals rfl
theorem W3_v12 : (W3 m ρ c (Proc.devRef .tc main_v12) : S1280x256.Idx → EReal) = extractStridedSlice S1280x256 ![512, 0] (W2 m ρ c (Proc.devRef .tc main_v9) : S1792x256.Idx → EReal) slices_S1792x256_S1280x256_512_0 := by
  show StableHlo.after hostOps1 (W2 m ρ c) (Proc.devRef .tc main_v12) = _
  dsimp only [hostOps1]
  after_results
  all_goals rfl
theorem W3_v0 : (W3 m ρ c (Proc.devRef .tc main_v0) : S500x256.Idx → EReal) = (W2 m ρ c (Proc.devRef .tc main_v0) : S500x256.Idx → EReal) := by
  show StableHlo.after hostOps1 (W2 m ρ c) (Proc.devRef .tc main_v0) = _
  dsimp only [hostOps1]
  after_results
  all_goals rfl
theorem W3_v1 : (W3 m ρ c (Proc.devRef .tc main_v1) : S500x256.Idx → EReal) = (W2 m ρ c (Proc.devRef .tc main_v1) : S500x256.Idx → EReal) := by
  show StableHlo.after hostOps1 (W2 m ρ c) (Proc.devRef .tc main_v1) = _
  dsimp only [hostOps1]
  after_results
  all_goals rfl
theorem W3_v2 : (W3 m ρ c (Proc.devRef .tc main_v2) : S256x128.Idx → EReal) = (W2 m ρ c (Proc.devRef .tc main_v2) : S256x128.Idx → EReal) := by
  show StableHlo.after hostOps1 (W2 m ρ c) (Proc.devRef .tc main_v2) = _
  dsimp only [hostOps1]
  after_results
  all_goals rfl
theorem W3_v3 : (W3 m ρ c (Proc.devRef .tc main_v3) : S256x128.Idx → EReal) = (W2 m ρ c (Proc.devRef .tc main_v3) : S256x128.Idx → EReal) := by
  show StableHlo.after hostOps1 (W2 m ρ c) (Proc.devRef .tc main_v3) = _
  dsimp only [hostOps1]
  after_results
  all_goals rfl
/-! ### Region 1 -/

theorem W4_v18 : (W4 m ρ c (Proc.devRef .tc main_v18) : S17920x256.Idx → EReal) = outB m c := by
  refine (W4_arr m ρ c 4).trans ((final1 (V3 m ρ) c).trans ?_)
  unfold outB
  rw [show (V3 m ρ c main_v13 : S17920x500.Idx → EReal) = _ from W3_v13 m ρ c, show (V3 m ρ c main_v17 : S17920x10x500.Idx → EReal) = _ from W3_v17 m ρ c,
    show (V3 m ρ c main_v0 : S500x256.Idx → EReal) = _ from (W3_v0 m ρ c).trans (W2_v0 m ρ c), show (V3 m ρ c main_v1 : S500x256.Idx → EReal) = _ from (W3_v1 m ρ c).trans (W2_v1 m ρ c),
    W2_arg1, W2_arg4, W2_arg7, W2_arg2, W2_arg5, W2_arg8]
theorem W4_v10 : (W4 m ρ c (Proc.devRef .tc main_v10) : S256x256.Idx → EReal) = (W3 m ρ c (Proc.devRef .tc main_v10) : S256x256.Idx → EReal) := W4_of_ne m ρ c main_v10 (by decide)
theorem W4_v11 : (W4 m ρ c (Proc.devRef .tc main_v11) : S256x256.Idx → EReal) = (W3 m ρ c (Proc.devRef .tc main_v11) : S256x256.Idx → EReal) := W4_of_ne m ρ c main_v11 (by decide)
theorem W4_v12 : (W4 m ρ c (Proc.devRef .tc main_v12) : S1280x256.Idx → EReal) = (W3 m ρ c (Proc.devRef .tc main_v12) : S1280x256.Idx → EReal) := W4_of_ne m ρ c main_v12 (by decide)
theorem W4_v2 : (W4 m ρ c (Proc.devRef .tc main_v2) : S256x128.Idx → EReal) = (W3 m ρ c (Proc.devRef .tc main_v2) : S256x128.Idx → EReal) := W4_of_ne m ρ c main_v2 (by decide)
theorem W4_v3 : (W4 m ρ c (Proc.devRef .tc main_v3) : S256x128.Idx → EReal) = (W3 m ρ c (Proc.devRef .tc main_v3) : S256x128.Idx → EReal) := W4_of_ne m ρ c main_v3 (by decide)
/-! ### The third host stretch -/

theorem W5_v22 : (W5 m ρ c (Proc.devRef .tc main_v22) : S1792x256.Idx → EReal) = concatenate S1792x256 0 [⟨S256x256, (W4 m ρ c (Proc.devRef .tc main_v10) : S256x256.Idx → EReal)⟩, ⟨S256x256, (W4 m ρ c (Proc.devRef .tc main_v11) : S256x256.Idx → EReal)⟩, ⟨S1280x256, (W4 m ρ c (Proc.devRef .tc main_v12) : S1280x256.Idx → EReal)⟩] concatenates_S256x256_S256x256_S1280x256_S1792x256_d0 := by
  show StableHlo.after hostOps2 (W4 m ρ c) (Proc.devRef .tc main_v22) = _
  dsimp only [hostOps2]
  after_results
  all_goals rfl
theorem W5_v26 : (W5 m ρ c (Proc.devRef .tc main_v26) : S1792x10x256.Idx → EReal) = neighC (W4 m ρ c (Proc.devRef .tc main_v18) : S17920x256.Idx → EReal) := by
  show StableHlo.after hostOps2 (W4 m ρ c) (Proc.devRef .tc main_v26) = _
  dsimp only [hostOps2]
  after_results
  all_goals rfl
theorem W5_v2 : (W5 m ρ c (Proc.devRef .tc main_v2) : S256x128.Idx → EReal) = (W4 m ρ c (Proc.devRef .tc main_v2) : S256x128.Idx → EReal) := by
  show StableHlo.after hostOps2 (W4 m ρ c) (Proc.devRef .tc main_v2) = _
  dsimp only [hostOps2]
  after_results
  all_goals rfl
theorem W5_v3 : (W5 m ρ c (Proc.devRef .tc main_v3) : S256x128.Idx → EReal) = (W4 m ρ c (Proc.devRef .tc main_v3) : S256x128.Idx → EReal) := by
  show StableHlo.after hostOps2 (W4 m ρ c) (Proc.devRef .tc main_v3) = _
  dsimp only [hostOps2]
  after_results
  all_goals rfl
theorem W5_v22' : (W5 m ρ c (Proc.devRef .tc main_v22) : S1792x256.Idx → EReal) = selfC (outA m c) := by
  rw [W5_v22, W4_v10, W4_v11, W4_v12, W3_v10, W3_v11, W3_v12, W2_v9]
  rfl
/-! ### Region 2 -/

theorem W6_v27 : (W6 m ρ c (Proc.devRef .tc main_v27) : S1792x128.Idx → EReal) = outC m c := by
  refine (W6_arr m ρ c 4).trans ((final2 (V5 m ρ) c).trans ?_)
  unfold outC
  rw [show (V5 m ρ c main_v22 : S1792x256.Idx → EReal) = _ from W5_v22' m ρ c, show (V5 m ρ c main_v26 : S1792x10x256.Idx → EReal) = _ from (W5_v26 m ρ c).trans (congrArg neighC (W4_v18 m ρ c)),
    show (V5 m ρ c main_v2 : S256x128.Idx → EReal) = _ from (W5_v2 m ρ c).trans ((W4_v2 m ρ c).trans ((W3_v2 m ρ c).trans (W2_v2 m ρ c))),
    show (V5 m ρ c main_v3 : S256x128.Idx → EReal) = _ from (W5_v3 m ρ c).trans ((W4_v3 m ρ c).trans ((W3_v3 m ρ c).trans (W2_v3 m ρ c)))]
/-! ### The last host stretch: the three results -/

theorem W7_v28 : (W7 m ρ c (Proc.devRef .tc main_v28) : S256x128.Idx → EReal) = extractStridedSlice S256x128 ![0, 0] (outC m c) slices_S1792x128_S256x128_0_0 := by
  rw [← W6_v27 m ρ c]
  show StableHlo.after hostOps3 (W6 m ρ c) (Proc.devRef .tc main_v28) = _
  dsimp only [hostOps3]
  after_results
  all_goals rfl
theorem W7_v29 : (W7 m ρ c (Proc.devRef .tc main_v29) : S256x128.Idx → EReal) = extractStridedSlice S256x128 ![256, 0] (outC m c) slices_S1792x128_S256x128_256_0 := by
  rw [← W6_v27 m ρ c]
  show StableHlo.after hostOps3 (W6 m ρ c) (Proc.devRef .tc main_v29) = _
  dsimp only [hostOps3]
  after_results
  all_goals rfl
theorem W7_v30 : (W7 m ρ c (Proc.devRef .tc main_v30) : S1280x128.Idx → EReal) = extractStridedSlice S1280x128 ![512, 0] (outC m c) slices_S1792x128_S1280x128_512_0 := by
  rw [← W6_v27 m ρ c]
  show StableHlo.after hostOps3 (W6 m ρ c) (Proc.devRef .tc main_v30) = _
  dsimp only [hostOps3]
  after_results
  all_goals rfl

end Cert.KernelIdeal.SageV

end
-- ==== Proof.LibRowStack.lean ====
/-
  GENERAL LEMMAS: re-laying operations read at one entry, over arrays of any extents (nothing here depends on a program).

  `stack2_first / _second / _third`: three rank-2 arrays stacked along the rows (a `concatenate` of three operands on
  axis 0) read, at a row of the stack, the array whose span of rows holds it, at the row less the extents of the arrays
  before it; `stack3_*`: the same for rank-3 arrays [rows, 10, columns].  `tenRows_apply`: an array of `R · 10` rows
  viewed as `R` groups of ten (a shape cast [R·10, C] → [R, 10, C]) reads, at group `a` and place `n`, row `10·a + n`
  (`tenth a n`).  `rowCut_apply`: a run of rows cut out of an array (a unit-stride slice at offsets [off, 0]) reads,
  at its row `i`, the array's row `off + i`.  All are statements about indices; none about the entries.
-/
import Idealize.ShloMosaic.PureOps.Ideal
import Idealize.ShloMosaic.Lib.ValueIdx
import Idealize.ShloMosaic.Lib.Pipeline.Value

noncomputable section

namespace Cert.SageMath

open Idealize.ShloMosaic Idealize.ShloMosaic.ValueIdx

variable {α : Type}

/-- Row `10·a + n` of an array of `R · 10` rows. -/
def tenth {R : Nat} (a : Fin R) (n : Fin 10) : Fin (R * 10) :=
  ⟨a.val * 10 + n.val, by have := a.isLt; have := n.isLt; omega⟩

/-! ## Three arrays stacked along the rows -/

section Stack2
variable {R1 R2 R3 T C : Nat} (x1 : (⟨2, ![R1, C]⟩ : Shape).Idx → α) (x2 : (⟨2, ![R2, C]⟩ : Shape).Idx → α)
  (x3 : (⟨2, ![R3, C]⟩ : Shape).Idx → α)
  (h : Shape.Concatenates [(⟨2, ![R1, C]⟩ : Shape), ⟨2, ![R2, C]⟩, ⟨2, ![R3, C]⟩] ⟨2, ![T, C]⟩ 0)

theorem stack2_first (a : Fin T) (k : Fin C) (a' : Fin R1) (ha : a'.val = a.val) :
    concatenate ⟨2, ![T, C]⟩ 0 [⟨⟨2, ![R1, C]⟩, x1⟩, ⟨⟨2, ![R2, C]⟩, x2⟩, ⟨⟨2, ![R3, C]⟩, x3⟩] h (ix2 a k) = x1 (ix2 a' k) :=
  concatenate_apply_piece (t := ⟨2, ![T, C]⟩) 0 [⟨⟨2, ![R1, C]⟩, x1⟩, ⟨⟨2, ![R2, C]⟩, x2⟩, ⟨⟨2, ![R3, C]⟩, x3⟩] h (ix2 a k) 0 (by simp) ⟨2, ![R1, C]⟩ x1 rfl rfl 0 rfl (ix2 a' k)
    (fun b hb => by
      match b with
      | ⟨0, _⟩ => exact absurd rfl hb
      | ⟨1, _⟩ => rfl)
    (by show 0 + a'.val = a.val; omega)

theorem stack2_second (a : Fin T) (k : Fin C) (a' : Fin R2) (ha : R1 + a'.val = a.val) :
    concatenate ⟨2, ![T, C]⟩ 0 [⟨⟨2, ![R1, C]⟩, x1⟩, ⟨⟨2, ![R2, C]⟩, x2⟩, ⟨⟨2, ![R3, C]⟩, x3⟩] h (ix2 a k) = x2 (ix2 a' k) :=
  concatenate_apply_piece (t := ⟨2, ![T, C]⟩) 0 [⟨⟨2, ![R1, C]⟩, x1⟩, ⟨⟨2, ![R2, C]⟩, x2⟩, ⟨⟨2, ![R3, C]⟩, x3⟩] h (ix2 a k) 1 (by simp) ⟨2, ![R2, C]⟩ x2 rfl rfl R1 (by simp) (ix2 a' k)
    (fun b hb => by
      match b with
      | ⟨0, _⟩ => exact absurd rfl hb
      | ⟨1, _⟩ => rfl)
    (by show R1 + a'.val = a.val; omega)

theorem stack2_third (a : Fin T) (k : Fin C) (a' : Fin R3) (ha : R1 + R2 + a'.val = a.val) :
    concatenate ⟨2, ![T, C]⟩ 0 [⟨⟨2, ![R1, C]⟩, x1⟩, ⟨⟨2, ![R2, C]⟩, x2⟩, ⟨⟨2, ![R3, C]⟩, x3⟩] h (ix2 a k) = x3 (ix2 a' k) :=
  concatenate_apply_piece (t := ⟨2, ![T, C]⟩) 0 [⟨⟨2, ![R1, C]⟩, x1⟩, ⟨⟨2, ![R2, C]⟩, x2⟩, ⟨⟨2, ![R3, C]⟩, x3⟩] h (ix2 a k) 2 (by simp) ⟨2, ![R3, C]⟩ x3 rfl rfl (R1 + R2) (by simp) (ix2 a' k)
    (fun b hb => by
      match b with
      | ⟨0, _⟩ => exact absurd rfl hb
      | ⟨1, _⟩ => rfl)
    (by show R1 + R2 + a'.val = a.val; omega)

end Stack2

section Stack3
variable {R1 R2 R3 T C : Nat} (x1 : (⟨3, ![R1, 10, C]⟩ : Shape).Idx → α) (x2 : (⟨3, ![R2, 10, C]⟩ : Shape).Idx → α)
  (x3 : (⟨3, ![R3, 10, C]⟩ : Shape).Idx → α)
  (h : Shape.Concatenates [(⟨3, ![R1, 10, C]⟩ : Shape), ⟨3, ![R2, 10, C]⟩, ⟨3, ![R3, 10, C]⟩] ⟨3, ![T, 10, C]⟩ 0)

theorem stack3_first (a : Fin T) (n : Fin 10) (k : Fin C) (a' : Fin R1) (ha : a'.val = a.val) :
    concatenate ⟨3, ![T, 10, C]⟩ 0 [⟨⟨3, ![R1, 10, C]⟩, x1⟩, ⟨⟨3, ![R2, 10, C]⟩, x2⟩, ⟨⟨3, ![R3, 10, C]⟩, x3⟩] h (ix3 a n k) = x1 (ix3 a' n k) :=
  concatenate_apply_piece (t := ⟨3, ![T, 10, C]⟩) 0 [⟨⟨3, ![R1, 10, C]⟩, x1⟩, ⟨⟨3, ![R2, 10, C]⟩, x2⟩, ⟨⟨3, ![R3, 10, C]⟩, x3⟩] h (ix3 a n k) 0 (by simp) ⟨3, ![R1, 10, C]⟩ x1 rfl rfl 0 rfl (ix3 a' n k)
    (fun b hb => by
      match b with
      | ⟨0, _⟩ => exact absurd rfl hb
      | ⟨1, _⟩ => rfl
      | ⟨2, _⟩ => rfl)
    (by show 0 + a'.val = a.val; omega)

theorem stack3_second (a : Fin T) (n : Fin 10) (k : Fin C) (a' : Fin R2) (ha : R1 + a'.val = a.val) :
    concatenate ⟨3, ![T, 10, C]⟩ 0 [⟨⟨3, ![R1, 10, C]⟩, x1⟩, ⟨⟨3, ![R2, 10, C]⟩, x2⟩, ⟨⟨3, ![R3, 10, C]⟩, x3⟩] h (ix3 a n k) = x2 (ix3 a' n k) :=
  concatenate_apply_piece (t := ⟨3, ![T, 10, C]⟩) 0 [⟨⟨3, ![R1, 10, C]⟩, x1⟩, ⟨⟨3, ![R2, 10, C]⟩, x2⟩, ⟨⟨3, ![R3, 10, C]⟩, x3⟩] h (ix3 a n k) 1 (by simp) ⟨3, ![R2, 10, C]⟩ x2 rfl rfl R1 (by simp) (ix3 a' n k)
    (fun b hb => by
      match b with
      | ⟨0, _⟩ => exact absurd rfl hb
      | ⟨1, _⟩ => rfl
      | ⟨2, _⟩ => rfl)
    (by show R1 + a'.val = a.val; omega)

theorem stack3_third (a : Fin T) (n : Fin 10) (k : Fin C) (a' : Fin R3) (ha : R1 + R2 + a'.val = a.val) :
    concatenate ⟨3, ![T, 10, C]⟩ 0 [⟨⟨3, ![R1, 10, C]⟩, x1⟩, ⟨⟨3, ![R2, 10, C]⟩, x2⟩, ⟨⟨3, ![R3, 10, C]⟩, x3⟩] h (ix3 a n k) = x3 (ix3 a' n k) :=
  concatenate_apply_piece (t := ⟨3, ![T, 10, C]⟩) 0 [⟨⟨3, ![R1, 10, C]⟩, x1⟩, ⟨⟨3, ![R2, 10, C]⟩, x2⟩, ⟨⟨3, ![R3, 10, C]⟩, x3⟩] h (ix3 a n k) 2 (by simp) ⟨3, ![R3, 10, C]⟩ x3 rfl rfl (R1 + R2) (by simp) (ix3 a' n k)
    (fun b hb => by
      match b with
      | ⟨0, _⟩ => exact absurd rfl hb
      | ⟨1, _⟩ => rfl
      | ⟨2, _⟩ => rfl)
    (by show R1 + R2 + a'.val = a.val; omega)

end Stack3

/-! ## Ten rows per group, and a run of rows -/

/-- An array of `R · 10` rows viewed as `R` groups of ten: group `a`, place `n` is row `10·a + n`. -/
theorem tenRows_apply {R C : Nat} (x : (⟨2, ![R * 10, C]⟩ : Shape).Idx → α)
    (h : (⟨2, ![R * 10, C]⟩ : Shape).ShapeCasts ⟨3, ![R, 10, C]⟩) (a : Fin R) (n : Fin 10) (k : Fin C) :
    shapeCast ⟨3, ![R, 10, C]⟩ x h (ix3 a n k) = x (ix2 (tenth a n) k) :=
  shapeCast_apply x h (ix3 a n k) (ix2 (tenth a n) k) (by
    rw [Shape.rowMajor_val_two, Shape.rowMajor_val_three]; rfl)

/-- Rows `off … off + R - 1` cut out of an array of `T` rows: row `i` of the cut is row `off + i`. -/
theorem rowCut_apply {T R C : Nat} (off : Nat) (x : (⟨2, ![T, C]⟩ : Shape).Idx → α)
    (h : (⟨2, ![T, C]⟩ : Shape).Slices ![off, 0] ⟨2, ![R, C]⟩) (i : Fin R) (k : Fin C) (i' : Fin T) (hi : i'.val = off + i.val) :
    extractStridedSlice ⟨2, ![R, C]⟩ ![off, 0] x h (ix2 i k) = x (ix2 i' k) :=
  extractStridedSlice_apply ![off, 0] x h (ix2 i k) (ix2 i' k) (fun a => by
    match a with
    | ⟨0, _⟩ => exact hi
    | ⟨1, _⟩ => show k.val = 0 + k.val; omega)

end Cert.SageMath

end
-- ==== Proof.SageStack.lean ====
/-
  The two layers of the neighbour-aggregation network as functions of a node set's arrays: what both programs are shown
  to compute, entry by entry, through the row function of SageMath and the row arithmetic of LibRowStack.
-/
import proofs.«110833_j58789512348198_2_alg».proof.Proof.SageMath
import proofs.«110833_j58789512348198_2_alg».proof.Proof.LibRowStack

noncomputable section

namespace Cert.SageMath

open Idealize.ShloMosaic Idealize.ShloMosaic.ValueIdx

/-! ## The two layers of the network, per node set

A node set of `R` nodes has feature rows `self` (R rows), its nodes' sampled neighbours `neigh` (10·R rows, ten per
node, node `i`'s at rows `10·i … 10·i + 9`) and their neighbours in turn (100·R rows).  Layer one applies the row
function with the weight matrix's upper half against the node's own row and its lower half against the neighbours'
mean; layer two does the same to layer one's outputs, a node's neighbours' outputs being layer one of the neighbour
set.  These two functions are what both programs are shown to compute. -/

/-- Layer one, entry (i, k): node `i`'s own row, its ten neighbours' rows, column k of the 1000×256 weights' halves. -/
def firstLayer (R : Nat) (self : (⟨2, ![R, 500]⟩ : Shape).Idx → EReal) (neigh : (⟨2, ![R * 10, 500]⟩ : Shape).Idx → EReal)
    (W : (⟨2, ![1000, 256]⟩ : Shape).Idx → EReal) (i : Fin R) (k : Fin 256) : EReal :=
  rowLayer (fun k' : Fin 500 => self (ix2 i k')) (fun n k' => neigh (ix2 (tenth i n) k'))
    (fun k' => W (ix2 (Fin.castAdd 500 k' : Fin 1000) k)) (fun k' => W (ix2 (Fin.natAdd 500 k' : Fin 1000) k))

/-- Layer two, entry (i, b): from layer one's output rows of the node (`h0`) and of its ten neighbours (`h1`), column b
    of the 512×128 weights' halves. -/
def secondLayer (R : Nat) (h0 : Fin R → Fin 256 → EReal) (h1 : Fin (R * 10) → Fin 256 → EReal)
    (W : (⟨2, ![512, 128]⟩ : Shape).Idx → EReal) (i : Fin R) (b : Fin 128) : EReal :=
  rowLayer (fun k : Fin 256 => h0 i k) (fun n k => h1 (tenth i n) k)
    (fun k => W (ix2 (Fin.castAdd 256 k : Fin 512) b)) (fun k => W (ix2 (Fin.natAdd 256 k : Fin 512) b))

/-- The whole network on one node set: layer two of layer one of the set and of layer one of its neighbour set. -/
def sageNet (R : Nat) (x0 : (⟨2, ![R, 500]⟩ : Shape).Idx → EReal) (x1 : (⟨2, ![R * 10, 500]⟩ : Shape).Idx → EReal)
    (x2 : (⟨2, ![R * 10 * 10, 500]⟩ : Shape).Idx → EReal) (W0 : (⟨2, ![1000, 256]⟩ : Shape).Idx → EReal)
    (W1 : (⟨2, ![512, 128]⟩ : Shape).Idx → EReal) : (⟨2, ![R, 128]⟩ : Shape).Idx → EReal :=
  fun j => secondLayer R (firstLayer R x0 x1 W0) (firstLayer (R * 10) x1 x2 W0) W1 ⟨(j 0).val, (j 0).isLt⟩ ⟨(j 1).val, (j 1).isLt⟩

end Cert.SageMath

end
-- ==== Proof.SageKernelNet.lean ====
/-
  The idealized kernel program's results are the network of each node set.

  Row `a` of region 0's stacked output belongs to one node set — rows 0…255 the sources, 256…511 the destinations,
  512…1791 the negatives — and is layer one of that set's node `a − offset`: the stacked `self` array reads that set's
  row, the stacked neighbour array that set's ten neighbour rows `10·i … 10·i + 9`, and the weight halves are the upper
  and lower 500 rows of the 1000×256 matrix.  Region 1's stacked output is likewise layer one of the level-1 sets
  (offsets ten times as large).  Region 2 reads region 0's output re-stacked in the same order (so unchanged) and region
  1's output viewed ten rows per node — for every set the ten rows `10·a … 10·a + 9` of the stack, since each set's
  offset in the level-1 stack is ten times its offset in the level-0 stack — and the last cut returns each set's rows.
-/
import proofs.«110833_j58789512348198_2_alg».proof.Proof.SageHost
import proofs.«110833_j58789512348198_2_alg».proof.Proof.SageStack

noncomputable section

namespace Cert.KernelIdeal.SageV

open Cert.KernelIdeal Cert.KernelIdeal.Gen Cert.KernelIdeal.Sage Cert.SageMath
open Idealize.ShloMosaic Idealize.ShloMosaic.TcCoe Idealize.ShloMosaic.ValueIdx
open Idealize.SL.Sem

/-! ## The weight halves at an entry -/

theorem wLo0_apply (a9 : S1000x256.Idx → EReal) (k' : Fin 500) (k : Fin 256) : wLo0 a9 (ix2 k' k) = a9 (ix2 (Fin.castAdd 500 k' : Fin 1000) k) :=
  rowCut_apply 0 a9 slices_S1000x256_S500x256_0_0 k' k (Fin.castAdd 500 k' : Fin 1000) (by show k'.val = 0 + k'.val; omega)
theorem wHi0_apply (a9 : S1000x256.Idx → EReal) (k' : Fin 500) (k : Fin 256) : wHi0 a9 (ix2 k' k) = a9 (ix2 (Fin.natAdd 500 k' : Fin 1000) k) :=
  rowCut_apply 500 a9 slices_S1000x256_S500x256_500_0 k' k (Fin.natAdd 500 k' : Fin 1000) (by show 500 + k'.val = 500 + k'.val; rfl)
theorem wLo1_apply (a10 : S512x128.Idx → EReal) (k' : Fin 256) (b : Fin 128) : wLo1 a10 (ix2 k' b) = a10 (ix2 (Fin.castAdd 256 k' : Fin 512) b) :=
  rowCut_apply 0 a10 slices_S512x128_S256x128_0_0 k' b (Fin.castAdd 256 k' : Fin 512) (by show k'.val = 0 + k'.val; omega)
theorem wHi1_apply (a10 : S512x128.Idx → EReal) (k' : Fin 256) (b : Fin 128) : wHi1 a10 (ix2 k' b) = a10 (ix2 (Fin.natAdd 256 k' : Fin 512) b) :=
  rowCut_apply 256 a10 slices_S512x128_S256x128_256_0 k' b (Fin.natAdd 256 k' : Fin 512) (by show 256 + k'.val = 256 + k'.val; rfl)

variable (m : (ℓ : Loc nD τ sig) → Buf (Elt Ideal) ℓ) (c : Dev nD)

/-! ## The source node set (256 nodes, rows 0… of the level-0 stack) -/

/-- Region 0's output at a row of this set: layer one of the set. -/
theorem outA_src (i : Fin 256) (k : Fin 256) (a : Fin 1792) (ha : a.val = 0 + i.val) :
    outA m c (ix2 a k) = firstLayer 256 (m ((c : Thread nD τ).loc main_arg0)) (m ((c : Thread nD τ).loc main_arg1)) (m ((c : Thread nD τ).loc main_arg9)) i k := by
  unfold outA layer0 firstLayer
  refine rowLayer_congr (fun k' => ?_) (fun n k' => ?_) (fun k' => ?_) (fun k' => ?_)
  · unfold selfA
    exact stack2_first _ _ _ _ (⟨a.val, a.isLt⟩ : Fin 1792) k' i (by show i.val = a.val; omega)
  · unfold neighA
    refine (stack3_first _ _ _ _ (⟨a.val, a.isLt⟩ : Fin 1792) n k' i (by show i.val = a.val; omega)).trans ?_
    exact tenRows_apply (R := 256) (m ((c : Thread nD τ).loc main_arg1)) _ i n k'
  · exact wLo0_apply _ k' k
  · exact wHi0_apply _ k' k

/-- Region 1's output at a row of this set's neighbours: layer one of the neighbour set. -/
theorem outB_src (i : Fin 2560) (k : Fin 256) (a : Fin 17920) (ha : a.val = 0 + i.val) :
    outB m c (ix2 a k) = firstLayer 2560 (m ((c : Thread nD τ).loc main_arg1)) (m ((c : Thread nD τ).loc main_arg2)) (m ((c : Thread nD τ).loc main_arg9)) i k := by
  unfold outB layer1 firstLayer
  refine rowLayer_congr (fun k' => ?_) (fun n k' => ?_) (fun k' => ?_) (fun k' => ?_)
  · unfold selfB
    exact stack2_first _ _ _ _ (⟨a.val, a.isLt⟩ : Fin 17920) k' i (by show i.val = a.val; omega)
  · unfold neighB
    refine (stack3_first _ _ _ _ (⟨a.val, a.isLt⟩ : Fin 17920) n k' i (by show i.val = a.val; omega)).trans ?_
    exact tenRows_apply (R := 2560) (m ((c : Thread nD τ).loc main_arg2)) _ i n k'
  · exact wLo0_apply _ k' k
  · exact wHi0_apply _ k' k

/-- Region 2's output at a row of this set: layer two of the set. -/
theorem outC_src (i : Fin 256) (b : Fin 128) (a : Fin 1792) (ha : a.val = 0 + i.val) :
    outC m c (ix2 a b) = secondLayer 256 (firstLayer 256 (m ((c : Thread nD τ).loc main_arg0)) (m ((c : Thread nD τ).loc main_arg1)) (m ((c : Thread nD τ).loc main_arg9)))
      (firstLayer 2560 (m ((c : Thread nD τ).loc main_arg1)) (m ((c : Thread nD τ).loc main_arg2)) (m ((c : Thread nD τ).loc main_arg9))) (m ((c : Thread nD τ).loc main_arg10)) i b := by
  unfold outC layer2 secondLayer
  refine rowLayer_congr (fun k => ?_) (fun n k => ?_) (fun k => ?_) (fun k => ?_)
  · unfold selfC
    refine (stack2_first _ _ _ _ (⟨a.val, a.isLt⟩ : Fin 1792) k i (by show i.val = a.val; omega)).trans ?_
    refine (rowCut_apply 0 (outA m c) _ i k (⟨0 + i.val, by have := i.isLt; omega⟩ : Fin 1792) rfl).trans ?_
    exact outA_src m c i k _ rfl
  · unfold neighC
    refine (stack3_first _ _ _ _ (⟨a.val, a.isLt⟩ : Fin 1792) n k i (by show i.val = a.val; omega)).trans ?_
    refine (tenRows_apply (R := 256) _ _ i n k).trans ?_
    refine (rowCut_apply 0 (outB m c) _ (tenth i n) k (⟨0 + (tenth i n).val, by have := (tenth i n).isLt; omega⟩ : Fin 17920) rfl).trans ?_
    exact outB_src m c (tenth i n) k _ rfl
  · exact wLo1_apply _ k b
  · exact wHi1_apply _ k b

/-- The set's rows cut out of region 2's output: the network on the set. -/
theorem result_src :
    extractStridedSlice S256x128 ![0, 0] (outC m c) slices_S1792x128_S256x128_0_0
      = sageNet 256 (m ((c : Thread nD τ).loc main_arg0)) (m ((c : Thread nD τ).loc main_arg1)) (m ((c : Thread nD τ).loc main_arg2)) (m ((c : Thread nD τ).loc main_arg9)) (m ((c : Thread nD τ).loc main_arg10)) := by
  funext j
  obtain ⟨i, b, rfl⟩ : ∃ (i : Fin 256) (b : Fin 128), j = ix2 i b := ⟨j 0, j 1, eq_ix2 j⟩
  refine (rowCut_apply 0 (outC m c) _ i b (⟨0 + i.val, by have := i.isLt; omega⟩ : Fin 1792) rfl).trans ?_
  exact outC_src m c i b _ rfl

/-! ## The destination node set (256 nodes, rows 256… of the level-0 stack) -/

/-- Region 0's output at a row of this set: layer one of the set. -/
theorem outA_dst (i : Fin 256) (k : Fin 256) (a : Fin 1792) (ha : a.val = 256 + i.val) :
    outA m c (ix2 a k) = firstLayer 256 (m ((c : Thread nD τ).loc main_arg3)) (m ((c : Thread nD τ).loc main_arg4)) (m ((c : Thread nD τ).loc main_arg9)) i k := by
  unfold outA layer0 firstLayer
  refine rowLayer_congr (fun k' => ?_) (fun n k' => ?_) (fun k' => ?_) (fun k' => ?_)
  · unfold selfA
    exact stack2_second _ _ _ _ (⟨a.val, a.isLt⟩ : Fin 1792) k' i (by show 256 + i.val = a.val; omega)
  · unfold neighA
    refine (stack3_second _ _ _ _ (⟨a.val, a.isLt⟩ : Fin 1792) n k' i (by show 256 + i.val = a.val; omega)).trans ?_
    exact tenRows_apply (R := 256) (m ((c : Thread nD τ).loc main_arg4)) _ i n k'
  · exact wLo0_apply _ k' k
  · exact wHi0_apply _ k' k

/-- Region 1's output at a row of this set's neighbours: layer one of the neighbour set. -/
theorem outB_dst (i : Fin 2560) (k : Fin 256) (a : Fin 17920) (ha : a.val = 2560 + i.val) :
    outB m c (ix2 a k) = firstLayer 2560 (m ((c : Thread nD τ).loc main_arg4)) (m ((c : Thread nD τ).loc main_arg5)) (m ((c : Thread nD τ).loc main_arg9)) i k := by
  unfold outB layer1 firstLayer
  refine rowLayer_congr (fun k' => ?_) (fun n k' => ?_) (fun k' => ?_) (fun k' => ?_)
  · unfold selfB
    exact stack2_second _ _ _ _ (⟨a.val, a.isLt⟩ : Fin 17920) k' i (by show 2560 + i.val = a.val; omega)
  · unfold neighB
    refine (stack3_second _ _ _ _ (⟨a.val, a.isLt⟩ : Fin 17920) n k' i (by show 2560 + i.val = a.val; omega)).trans ?_
    exact tenRows_apply (R := 2560) (m ((c : Thread nD τ).loc main_arg5)) _ i n k'
  · exact wLo0_apply _ k' k
  · exact wHi0_apply _ k' k

/-- Region 2's output at a row of this set: layer two of the set. -/
theorem outC_dst (i : Fin 256) (b : Fin 128) (a : Fin 1792) (ha : a.val = 256 + i.val) :
    outC m c (ix2 a b) = secondLayer 256 (firstLayer 256 (m ((c : Thread nD τ).loc main_arg3)) (m ((c : Thread nD τ).loc main_arg4)) (m ((c : Thread nD τ).loc main_arg9)))
      (firstLayer 2560 (m ((c : Thread nD τ).loc main_arg4)) (m ((c : Thread nD τ).loc main_arg5)) (m ((c : Thread nD τ).loc main_arg9))) (m ((c : Thread nD τ).loc main_arg10)) i b := by
  unfold outC layer2 secondLayer
  refine rowLayer_congr (fun k => ?_) (fun n k => ?_) (fun k => ?_) (fun k => ?_)
  · unfold selfC
    refine (stack2_second _ _ _ _ (⟨a.val, a.isLt⟩ : Fin 1792) k i (by show 256 + i.val = a.val; omega)).trans ?_
    refine (rowCut_apply 256 (outA m c) _ i k (⟨256 + i.val, by have := i.isLt; omega⟩ : Fin 1792) rfl).trans ?_
    exact outA_dst m c i k _ rfl
  · unfold neighC
    refine (stack3_second _ _ _ _ (⟨a.val, a.isLt⟩ : Fin 1792) n k i (by show 256 + i.val = a.val; omega)).trans ?_
    refine (tenRows_apply (R := 256) _ _ i n k).trans ?_
    refine (rowCut_apply 2560 (outB m c) _ (tenth i n) k (⟨2560 + (tenth i n).val, by have := (tenth i n).isLt; omega⟩ : Fin 17920) rfl).trans ?_
    exact outB_dst m c (tenth i n) k _ rfl
  · exact wLo1_apply _ k b
  · exact wHi1_apply _ k b

/-- The set's rows cut out of region 2's output: the network on the set. -/
theorem result_dst :
    extractStridedSlice S256x128 ![256, 0] (outC m c) slices_S1792x128_S256x128_256_0
      = sageNet 256 (m ((c : Thread nD τ).loc main_arg3)) (m ((c : Thread nD τ).loc main_arg4)) (m ((c : Thread nD τ).loc main_arg5)) (m ((c : Thread nD τ).loc main_arg9)) (m ((c : Thread nD τ).loc main_arg10)) := by
  funext j
  obtain ⟨i, b, rfl⟩ : ∃ (i : Fin 256) (b : Fin 128), j = ix2 i b := ⟨j 0, j 1, eq_ix2 j⟩
  refine (rowCut_apply 256 (outC m c) _ i b (⟨256 + i.val, by have := i.isLt; omega⟩ : Fin 1792) rfl).trans ?_
  exact outC_dst m c i b _ rfl

/-! ## The negative node set (1280 nodes, rows 512… of the level-0 stack) -/

/-- Region 0's output at a row of this set: layer one of the set. -/
theorem outA_neg (i : Fin 1280) (k : Fin 256) (a : Fin 1792) (ha : a.val = 512 + i.val) :
    outA m c (ix2 a k) = firstLayer 1280 (m ((c : Thread nD τ).loc main_arg6)) (m ((c : Thread nD τ).loc main_arg7)) (m ((c : Thread nD τ).loc main_arg9)) i k := by
  unfold outA layer0 firstLayer
  refine rowLayer_congr (fun k' => ?_) (fun n k' => ?_) (fun k' => ?_) (fun k' => ?_)
  · unfold selfA
    exact stack2_third _ _ _ _ (⟨a.val, a.isLt⟩ : Fin 1792) k' i (by show 256 + 256 + i.val = a.val; omega)
  · unfold neighA
    refine (stack3_third _ _ _ _ (⟨a.val, a.isLt⟩ : Fin 1792) n k' i (by show 256 + 256 + i.val = a.val; omega)).trans ?_
    exact tenRows_apply (R := 1280) (m ((c : Thread nD τ).loc main_arg7)) _ i n k'
  · exact wLo0_apply _ k' k
  · exact wHi0_apply _ k' k

/-- Region 1's output at a row of this set's neighbours: layer one of the neighbour set. -/
theorem outB_neg (i : Fin 12800) (k : Fin 256) (a : Fin 17920) (ha : a.val = 5120 + i.val) :
    outB m c (ix2 a k) = firstLayer 12800 (m ((c : Thread nD τ).loc main_arg7)) (m ((c : Thread nD τ).loc main_arg8)) (m ((c : Thread nD τ).loc main_arg9)) i k := by
  unfold outB layer1 firstLayer
  refine rowLayer_congr (fun k' => ?_) (fun n k' => ?_) (fun k' => ?_) (fun k' => ?_)
  · unfold selfB
    exact stack2_third _ _ _ _ (⟨a.val, a.isLt⟩ : Fin 17920) k' i (by show 2560 + 2560 + i.val = a.val; omega)
  · unfold neighB
    refine (stack3_third _ _ _ _ (⟨a.val, a.isLt⟩ : Fin 17920) n k' i (by show 2560 + 2560 + i.val = a.val; omega)).trans ?_
    exact tenRows_apply (R := 12800) (m ((c : Thread nD τ).loc main_arg8)) _ i n k'
  · exact wLo0_apply _ k' k
  · exact wHi0_apply _ k' k

/-- Region 2's output at a row of this set: layer two of the set. -/
theorem outC_neg (i : Fin 1280) (b : Fin 128) (a : Fin 1792) (ha : a.val = 512 + i.val) :
    outC m c (ix2 a b) = secondLayer 1280 (firstLayer 1280 (m ((c : Thread nD τ).loc main_arg6)) (m ((c : Thread nD τ).loc main_arg7)) (m ((c : Thread nD τ).loc main_arg9)))
      (firstLayer 12800 (m ((c : Thread nD τ).loc main_arg7)) (m ((c : Thread nD τ).loc main_arg8)) (m ((c : Thread nD τ).loc main_arg9))) (m ((c : Thread nD τ).loc main_arg10)) i b := by
  unfold outC layer2 secondLayer
  refine rowLayer_congr (fun k => ?_) (fun n k => ?_) (fun k => ?_) (fun k => ?_)
  · unfold selfC
    refine (stack2_third _ _ _ _ (⟨a.val, a.isLt⟩ : Fin 1792) k i (by show 256 + 256 + i.val = a.val; omega)).trans ?_
    refine (rowCut_apply 512 (outA m c) _ i k (⟨512 + i.val, by have := i.isLt; omega⟩ : Fin 1792) rfl).trans ?_
    exact outA_neg m c i k _ rfl
  · unfold neighC
    refine (stack3_third _ _ _ _ (⟨a.val, a.isLt⟩ : Fin 1792) n k i (by show 256 + 256 + i.val = a.val; omega)).trans ?_
    refine (tenRows_apply (R := 1280) _ _ i n k).trans ?_
    refine (rowCut_apply 5120 (outB m c) _ (tenth i n) k (⟨5120 + (tenth i n).val, by have := (tenth i n).isLt; omega⟩ : Fin 17920) rfl).trans ?_
    exact outB_neg m c (tenth i n) k _ rfl
  · exact wLo1_apply _ k b
  · exact wHi1_apply _ k b

/-- The set's rows cut out of region 2's output: the network on the set. -/
theorem result_neg :
    extractStridedSlice S1280x128 ![512, 0] (outC m c) slices_S1792x128_S1280x128_512_0
      = sageNet 1280 (m ((c : Thread nD τ).loc main_arg6)) (m ((c : Thread nD τ).loc main_arg7)) (m ((c : Thread nD τ).loc main_arg8)) (m ((c : Thread nD τ).loc main_arg9)) (m ((c : Thread nD τ).loc main_arg10)) := by
  funext j
  obtain ⟨i, b, rfl⟩ : ∃ (i : Fin 1280) (b : Fin 128), j = ix2 i b := ⟨j 0, j 1, eq_ix2 j⟩
  refine (rowCut_apply 512 (outC m c) _ i b (⟨512 + i.val, by have := i.isLt; omega⟩ : Fin 1792) rfl).trans ?_
  exact outC_neg m c i b _ rfl

end Cert.KernelIdeal.SageV

end
-- ==== Proof.SageRefFirst.lean ====
/-
  Layer one of the reference network, read entry by entry.

  The reference computes a layer as relu of ONE contraction of the row `[self, mean of the ten neighbour rows]` against the
  whole weight matrix.  At an output entry (i, k) the left half of the contracted row is node i's own row and the right half
  is the mean of its ten neighbours' rows (rows 10·i … 10·i + 9 of the neighbour array), so the entry is the row function at
  those rows and at column k of the two halves of the weights.  Every step is a statement about which index an operation
  reads; the six node sets differ only in their extents.
-/
import proofs.«110833_j58789512348198_2_alg».proof.Proof.Gen.ReferenceIdeal.Read
import proofs.«110833_j58789512348198_2_alg».proof.Proof.SageStack

noncomputable section

open scoped BigOperators

namespace Cert.ReferenceIdeal.SageRef

open Idealize.ShloMosaic Idealize.ShloMosaic.ValueIdx Cert.SageMath
open Cert.ReferenceIdeal Cert.ReferenceIdeal.Read

/-! ## Layer one on 256 nodes: `x0` (own rows), `x1` (ten neighbour rows per node) -/

/-- The mean of node `i`'s ten neighbour rows at feature `k'`, as the reference computes it. -/
theorem mean_v3 (x1 : (⟨S2560x500, .f32⟩ : BufTy).Contents (Elt Ideal)) (i : Fin 256) (k' : Fin 500) :
    val_main_v3 (F := Ideal) x1 (ix2 i k') = Ideal.div (f0 + ∑ n : Fin 10, x1 (ix2 (tenth i n) k')) f10 := by
  rw [val_main_v3_apply, Ideal.hostDivf_def, val_main_v1_apply, val_main_v2_apply, val_main_cst_0_apply, val_main_cst_apply]
  refine congrArg₂ Ideal.div (congrArg (_ + ·) (Finset.sum_congr rfl fun n _ => ?_)) rfl
  exact (val_main_v0_apply x1 _).trans (congrArg x1 (funext fun a => Fin.ext (by
    match a with
    | ⟨0, _⟩ => show ((i.val * 10 + n.val) * 500 + k'.val) / 500 = i.val * 10 + n.val; have := k'.isLt; omega
    | ⟨1, _⟩ => show ((i.val * 10 + n.val) * 500 + k'.val) % 500 = k'.val; have := k'.isLt; omega)))

/-- Entry (i, k) of the reference's layer one on these nodes is the layer's row function. -/
theorem first_v6 (x0 : (⟨S256x500, .f32⟩ : BufTy).Contents (Elt Ideal)) (x1 : (⟨S2560x500, .f32⟩ : BufTy).Contents (Elt Ideal))
    (x9 : (⟨S1000x256, .f32⟩ : BufTy).Contents (Elt Ideal)) (i : Fin 256) (k : Fin 256) :
    val_main_v6 (F := Ideal) x0 x1 x9 (ix2 i k) = firstLayer 256 x0 x1 x9 i k := by
  rw [val_main_v6_apply, val_main_v5_apply, val_main_call0_v0_apply, val_main_call0_cst_apply]
  have hx : ∀ k' : Fin 500, val_main_v4 (F := Ideal) x0 x1 (lidx_main_v5 (ix2 i k) (Fin.castAdd 500 k')) = x0 (ix2 i k') := fun k' => by
    unfold val_main_v4
    refine concatenate_pair_apply_left (t := S256x1000) (s₁ := S256x500) (s₂ := S256x500) 1 _ _ _ _ rfl (ix2 i k') ?_
    intro b
    match b with
    | ⟨0, _⟩ => rfl
    | ⟨1, _⟩ => rfl
  have hy : ∀ k' : Fin 500, val_main_v4 (F := Ideal) x0 x1 (lidx_main_v5 (ix2 i k) (Fin.natAdd 500 k'))
      = Ideal.div (f0 + ∑ n : Fin 10, x1 (ix2 (tenth i n) k')) f10 := fun k' => by
    unfold val_main_v4
    refine (concatenate_pair_apply_right (t := S256x1000) (s₁ := S256x500) (s₂ := S256x500) 1 _ _ _ _ rfl rfl (ix2 i k') ?_ ?_).trans (mean_v3 x1 i k')
    · intro b hb
      match b with
      | ⟨0, _⟩ => rfl
      | ⟨1, _⟩ => exact absurd rfl hb
    · show k'.val + 500 = 500 + k'.val; omega
  have hs : ∀ k' : Fin 500, x9 (ridx_main_v5 (ix2 i k) (Fin.castAdd 500 k')) = x9 (ix2 (Fin.castAdd 500 k' : Fin 1000) k) := fun k' =>
    congrArg x9 (funext fun a => Fin.ext (by
      match a with
      | ⟨0, _⟩ => rfl
      | ⟨1, _⟩ => rfl))
  have hn : ∀ k' : Fin 500, x9 (ridx_main_v5 (ix2 i k) (Fin.natAdd 500 k')) = x9 (ix2 (Fin.natAdd 500 k' : Fin 1000) k) := fun k' =>
    congrArg x9 (funext fun a => Fin.ext (by
      match a with
      | ⟨0, _⟩ => rfl
      | ⟨1, _⟩ => rfl))
  unfold firstLayer
  exact relu_contract_eq_rowLayer (d := 500)
    (fun q => val_main_v4 (F := Ideal) x0 x1 (lidx_main_v5 (ix2 i k) q))
    (fun q => x9 (ridx_main_v5 (ix2 i k) q)) _ _ _ _ hx hy hs hn

/-! ## Layer one on 256 nodes: `x3` (own rows), `x4` (ten neighbour rows per node) -/

/-- The mean of node `i`'s ten neighbour rows at feature `k'`, as the reference computes it. -/
theorem mean_v10 (x4 : (⟨S2560x500, .f32⟩ : BufTy).Contents (Elt Ideal)) (i : Fin 256) (k' : Fin 500) :
    val_main_v10 (F := Ideal) x4 (ix2 i k') = Ideal.div (f0 + ∑ n : Fin 10, x4 (ix2 (tenth i n) k')) f10 := by
  rw [val_main_v10_apply, Ideal.hostDivf_def, val_main_v8_apply, val_main_v9_apply, val_main_cst_2_apply, val_main_cst_1_apply]
  refine congrArg₂ Ideal.div (congrArg (_ + ·) (Finset.sum_congr rfl fun n _ => ?_)) rfl
  exact (val_main_v7_apply x4 _).trans (congrArg x4 (funext fun a => Fin.ext (by
    match a with
    | ⟨0, _⟩ => show ((i.val * 10 + n.val) * 500 + k'.val) / 500 = i.val * 10 + n.val; have := k'.isLt; omega
    | ⟨1, _⟩ => show ((i.val * 10 + n.val) * 500 + k'.val) % 500 = k'.val; have := k'.isLt; omega)))

/-- Entry (i, k) of the reference's layer one on these nodes is the layer's row function. -/
theorem first_v13 (x3 : (⟨S256x500, .f32⟩ : BufTy).Contents (Elt Ideal)) (x4 : (⟨S2560x500, .f32⟩ : BufTy).Contents (Elt Ideal))
    (x9 : (⟨S1000x256, .f32⟩ : BufTy).Contents (Elt Ideal)) (i : Fin 256) (k : Fin 256) :
    val_main_v13 (F := Ideal) x3 x4 x9 (ix2 i k) = firstLayer 256 x3 x4 x9 i k := by
  rw [val_main_v13_apply, val_main_v12_apply, val_main_call1_v0_apply, val_main_call1_cst_apply]
  have hx : ∀ k' : Fin 500, val_main_v11 (F := Ideal) x3 x4 (lidx_main_v12 (ix2 i k) (Fin.castAdd 500 k')) = x3 (ix2 i k') := fun k' => by
    unfold val_main_v11
    refine concatenate_pair_apply_left (t := S256x1000) (s₁ := S256x500) (s₂ := S256x500) 1 _ _ _ _ rfl (ix2 i k') ?_
    intro b
    match b with
    | ⟨0, _⟩ => rfl
    | ⟨1, _⟩ => rfl
  have hy : ∀ k' : Fin 500, val_main_v11 (F := Ideal) x3 x4 (lidx_main_v12 (ix2 i k) (Fin.natAdd 500 k'))
      = Ideal.div (f0 + ∑ n : Fin 10, x4 (ix2 (tenth i n) k')) f10 := fun k' => by
    unfold val_main_v11
    refine (concatenate_pair_apply_right (t := S256x1000) (s₁ := S256x500) (s₂ := S256x500) 1 _ _ _ _ rfl rfl (ix2 i k') ?_ ?_).trans (mean_v10 x4 i k')
    · intro b hb
      match b with
      | ⟨0, _⟩ => rfl
      | ⟨1, _⟩ => exact absurd rfl hb
    · show k'.val + 500 = 500 + k'.val; omega
  have hs : ∀ k' : Fin 500, x9 (ridx_main_v12 (ix2 i k) (Fin.castAdd 500 k')) = x9 (ix2 (Fin.castAdd 500 k' : Fin 1000) k) := fun k' =>
    congrArg x9 (funext fun a => Fin.ext (by
      match a with
      | ⟨0, _⟩ => rfl
      | ⟨1, _⟩ => rfl))
  have hn : ∀ k' : Fin 500, x9 (ridx_main_v12 (ix2 i k) (Fin.natAdd 500 k')) = x9 (ix2 (Fin.natAdd 500 k' : Fin 1000) k) := fun k' =>
    congrArg x9 (funext fun a => Fin.ext (by
      match a with
      | ⟨0, _⟩ => rfl
      | ⟨1, _⟩ => rfl))
  unfold firstLayer
  exact relu_contract_eq_rowLayer (d := 500)
    (fun q => val_main_v11 (F := Ideal) x3 x4 (lidx_main_v12 (ix2 i k) q))
    (fun q => x9 (ridx_main_v12 (ix2 i k) q)) _ _ _ _ hx hy hs hn

/-! ## Layer one on 1280 nodes: `x6` (own rows), `x7` (ten neighbour rows per node) -/

/-- The mean of node `i`'s ten neighbour rows at feature `k'`, as the reference computes it. -/
theorem mean_v17 (x7 : (⟨S12800x500, .f32⟩ : BufTy).Contents (Elt Ideal)) (i : Fin 1280) (k' : Fin 500) :
    val_main_v17 (F := Ideal) x7 (ix2 i k') = Ideal.div (f0 + ∑ n : Fin 10, x7 (ix2 (tenth i n) k')) f10 := by
  rw [val_main_v17_apply, Ideal.hostDivf_def, val_main_v15_apply, val_main_v16_apply, val_main_cst_4_apply, val_main_cst_3_apply]
  refine congrArg₂ Ideal.div (congrArg (_ + ·) (Finset.sum_congr rfl fun n _ => ?_)) rfl
  exact (val_main_v14_apply x7 _).trans (congrArg x7 (funext fun a => Fin.ext (by
    match a with
    | ⟨0, _⟩ => show ((i.val * 10 + n.val) * 500 + k'.val) / 500 = i.val * 10 + n.val; have := k'.isLt; omega
    | ⟨1, _⟩ => show ((i.val * 10 + n.val) * 500 + k'.val) % 500 = k'.val; have := k'.isLt; omega)))

/-- Entry (i, k) of the reference's layer one on these nodes is the layer's row function. -/
theorem first_v20 (x6 : (⟨S1280x500, .f32⟩ : BufTy).Contents (Elt Ideal)) (x7 : (⟨S12800x500, .f32⟩ : BufTy).Contents (Elt Ideal))
    (x9 : (⟨S1000x256, .f32⟩ : BufTy).Contents (Elt Ideal)) (i : Fin 1280) (k : Fin 256) :
    val_main_v20 (F := Ideal) x6 x7 x9 (ix2 i k) = firstLayer 1280 x6 x7 x9 i k := by
  rw [val_main_v20_apply, val_main_v19_apply, val_main_call2_v0_apply, val_main_call2_cst_apply]
  have hx : ∀ k' : Fin 500, val_main_v18 (F := Ideal) x6 x7 (lidx_main_v19 (ix2 i k) (Fin.castAdd 500 k')) = x6 (ix2 i k') := fun k' => by
    unfold val_main_v18
    refine concatenate_pair_apply_left (t := S1280x1000) (s₁ := S1280x500) (s₂ := S1280x500) 1 _ _ _ _ rfl (ix2 i k') ?_
    intro b
    match b with
    | ⟨0, _⟩ => rfl
    | ⟨1, _⟩ => rfl
  have hy : ∀ k' : Fin 500, val_main_v18 (F := Ideal) x6 x7 (lidx_main_v19 (ix2 i k) (Fin.natAdd 500 k'))
      = Ideal.div (f0 + ∑ n : Fin 10, x7 (ix2 (tenth i n) k')) f10 := fun k' => by
    unfold val_main_v18
    refine (concatenate_pair_apply_right (t := S1280x1000) (s₁ := S1280x500) (s₂ := S1280x500) 1 _ _ _ _ rfl rfl (ix2 i k') ?_ ?_).trans (mean_v17 x7 i k')
    · intro b hb
      match b with
      | ⟨0, _⟩ => rfl
      | ⟨1, _⟩ => exact absurd rfl hb
    · show k'.val + 500 = 500 + k'.val; omega
  have hs : ∀ k' : Fin 500, x9 (ridx_main_v19 (ix2 i k) (Fin.castAdd 500 k')) = x9 (ix2 (Fin.castAdd 500 k' : Fin 1000) k) := fun k' =>
    congrArg x9 (funext fun a => Fin.ext (by
      match a with
      | ⟨0, _⟩ => rfl
      | ⟨1, _⟩ => rfl))
  have hn : ∀ k' : Fin 500, x9 (ridx_main_v19 (ix2 i k) (Fin.natAdd 500 k')) = x9 (ix2 (Fin.natAdd 500 k' : Fin 1000) k) := fun k' =>
    congrArg x9 (funext fun a => Fin.ext (by
      match a with
      | ⟨0, _⟩ => rfl
      | ⟨1, _⟩ => rfl))
  unfold firstLayer
  exact relu_contract_eq_rowLayer (d := 500)
    (fun q => val_main_v18 (F := Ideal) x6 x7 (lidx_main_v19 (ix2 i k) q))
    (fun q => x9 (ridx_main_v19 (ix2 i k) q)) _ _ _ _ hx hy hs hn

/-! ## Layer one on 2560 nodes: `x1` (own rows), `x2` (ten neighbour rows per node) -/

/-- The mean of node `i`'s ten neighbour rows at feature `k'`, as the reference computes it. -/
theorem mean_v24 (x2 : (⟨S25600x500, .f32⟩ : BufTy).Contents (Elt Ideal)) (i : Fin 2560) (k' : Fin 500) :
    val_main_v24 (F := Ideal) x2 (ix2 i k') = Ideal.div (f0 + ∑ n : Fin 10, x2 (ix2 (tenth i n) k')) f10 := by
  rw [val_main_v24_apply, Ideal.hostDivf_def, val_main_v22_apply, val_main_v23_apply, val_main_cst_6_apply, val_main_cst_5_apply]
  refine congrArg₂ Ideal.div (congrArg (_ + ·) (Finset.sum_congr rfl fun n _ => ?_)) rfl
  exact (val_main_v21_apply x2 _).trans (congrArg x2 (funext fun a => Fin.ext (by
    match a with
    | ⟨0, _⟩ => show ((i.val * 10 + n.val) * 500 + k'.val) / 500 = i.val * 10 + n.val; have := k'.isLt; omega
    | ⟨1, _⟩ => show ((i.val * 10 + n.val) * 500 + k'.val) % 500 = k'.val; have := k'.isLt; omega)))

/-- Entry (i, k) of the reference's layer one on these nodes is the layer's row function. -/
theorem first_v27 (x1 : (⟨S2560x500, .f32⟩ : BufTy).Contents (Elt Ideal)) (x2 : (⟨S25600x500, .f32⟩ : BufTy).Contents (Elt Ideal))
    (x9 : (⟨S1000x256, .f32⟩ : BufTy).Contents (Elt Ideal)) (i : Fin 2560) (k : Fin 256) :
    val_main_v27 (F := Ideal) x1 x2 x9 (ix2 i k) = firstLayer 2560 x1 x2 x9 i k := by
  rw [val_main_v27_apply, val_main_v26_apply, val_main_call3_v0_apply, val_main_call3_cst_apply]
  have hx : ∀ k' : Fin 500, val_main_v25 (F := Ideal) x1 x2 (lidx_main_v26 (ix2 i k) (Fin.castAdd 500 k')) = x1 (ix2 i k') := fun k' => by
    unfold val_main_v25
    refine concatenate_pair_apply_left (t := S2560x1000) (s₁ := S2560x500) (s₂ := S2560x500) 1 _ _ _ _ rfl (ix2 i k') ?_
    intro b
    match b with
    | ⟨0, _⟩ => rfl
    | ⟨1, _⟩ => rfl
  have hy : ∀ k' : Fin 500, val_main_v25 (F := Ideal) x1 x2 (lidx_main_v26 (ix2 i k) (Fin.natAdd 500 k'))
      = Ideal.div (f0 + ∑ n : Fin 10, x2 (ix2 (tenth i n) k')) f10 := fun k' => by
    unfold val_main_v25
    refine (concatenate_pair_apply_right (t := S2560x1000) (s₁ := S2560x500) (s₂ := S2560x500) 1 _ _ _ _ rfl rfl (ix2 i k') ?_ ?_).trans (mean_v24 x2 i k')
    · intro b hb
      match b with
      | ⟨0, _⟩ => rfl
      | ⟨1, _⟩ => exact absurd rfl hb
    · show k'.val + 500 = 500 + k'.val; omega
  have hs : ∀ k' : Fin 500, x9 (ridx_main_v26 (ix2 i k) (Fin.castAdd 500 k')) = x9 (ix2 (Fin.castAdd 500 k' : Fin 1000) k) := fun k' =>
    congrArg x9 (funext fun a => Fin.ext (by
      match a with
      | ⟨0, _⟩ => rfl
      | ⟨1, _⟩ => rfl))
  have hn : ∀ k' : Fin 500, x9 (ridx_main_v26 (ix2 i k) (Fin.natAdd 500 k')) = x9 (ix2 (Fin.natAdd 500 k' : Fin 1000) k) := fun k' =>
    congrArg x9 (funext fun a => Fin.ext (by
      match a with
      | ⟨0, _⟩ => rfl
      | ⟨1, _⟩ => rfl))
  unfold firstLayer
  exact relu_contract_eq_rowLayer (d := 500)
    (fun q => val_main_v25 (F := Ideal) x1 x2 (lidx_main_v26 (ix2 i k) q))
    (fun q => x9 (ridx_main_v26 (ix2 i k) q)) _ _ _ _ hx hy hs hn

/-! ## Layer one on 2560 nodes: `x4` (own rows), `x5` (ten neighbour rows per node) -/

/-- The mean of node `i`'s ten neighbour rows at feature `k'`, as the reference computes it. -/
theorem mean_v31 (x5 : (⟨S25600x500, .f32⟩ : BufTy).Contents (Elt Ideal)) (i : Fin 2560) (k' : Fin 500) :
    val_main_v31 (F := Ideal) x5 (ix2 i k') = Ideal.div (f0 + ∑ n : Fin 10, x5 (ix2 (tenth i n) k')) f10 := by
  rw [val_main_v31_apply, Ideal.hostDivf_def, val_main_v29_apply, val_main_v30_apply, val_main_cst_8_apply, val_main_cst_7_apply]
  refine congrArg₂ Ideal.div (congrArg (_ + ·) (Finset.sum_congr rfl fun n _ => ?_)) rfl
  exact (val_main_v28_apply x5 _).trans (congrArg x5 (funext fun a => Fin.ext (by
    match a with
    | ⟨0, _⟩ => show ((i.val * 10 + n.val) * 500 + k'.val) / 500 = i.val * 10 + n.val; have := k'.isLt; omega
    | ⟨1, _⟩ => show ((i.val * 10 + n.val) * 500 + k'.val) % 500 = k'.val; have := k'.isLt; omega)))

/-- Entry (i, k) of the reference's layer one on these nodes is the layer's row function. -/
theorem first_v34 (x4 : (⟨S2560x500, .f32⟩ : BufTy).Contents (Elt Ideal)) (x5 : (⟨S25600x500, .f32⟩ : BufTy).Contents (Elt Ideal))
    (x9 : (⟨S1000x256, .f32⟩ : BufTy).Contents (Elt Ideal)) (i : Fin 2560) (k : Fin 256) :
    val_main_v34 (F := Ideal) x4 x5 x9 (ix2 i k) = firstLayer 2560 x4 x5 x9 i k := by
  rw [val_main_v34_apply, val_main_v33_apply, val_main_call4_v0_apply, val_main_call4_cst_apply]
  have hx : ∀ k' : Fin 500, val_main_v32 (F := Ideal) x4 x5 (lidx_main_v33 (ix2 i k) (Fin.castAdd 500 k')) = x4 (ix2 i k') := fun k' => by
    unfold val_main_v32
    refine concatenate_pair_apply_left (t := S2560x1000) (s₁ := S2560x500) (s₂ := S2560x500) 1 _ _ _ _ rfl (ix2 i k') ?_
    intro b
    match b with
    | ⟨0, _⟩ => rfl
    | ⟨1, _⟩ => rfl
  have hy : ∀ k' : Fin 500, val_main_v32 (F := Ideal) x4 x5 (lidx_main_v33 (ix2 i k) (Fin.natAdd 500 k'))
      = Ideal.div (f0 + ∑ n : Fin 10, x5 (ix2 (tenth i n) k')) f10 := fun k' => by
    unfold val_main_v32
    refine (concatenate_pair_apply_right (t := S2560x1000) (s₁ := S2560x500) (s₂ := S2560x500) 1 _ _ _ _ rfl rfl (ix2 i k') ?_ ?_).trans (mean_v31 x5 i k')
    · intro b hb
      match b with
      | ⟨0, _⟩ => rfl
      | ⟨1, _⟩ => exact absurd rfl hb
    · show k'.val + 500 = 500 + k'.val; omega
  have hs : ∀ k' : Fin 500, x9 (ridx_main_v33 (ix2 i k) (Fin.castAdd 500 k')) = x9 (ix2 (Fin.castAdd 500 k' : Fin 1000) k) := fun k' =>
    congrArg x9 (funext fun a => Fin.ext (by
      match a with
      | ⟨0, _⟩ => rfl
      | ⟨1, _⟩ => rfl))
  have hn : ∀ k' : Fin 500, x9 (ridx_main_v33 (ix2 i k) (Fin.natAdd 500 k')) = x9 (ix2 (Fin.natAdd 500 k' : Fin 1000) k) := fun k' =>
    congrArg x9 (funext fun a => Fin.ext (by
      match a with
      | ⟨0, _⟩ => rfl
      | ⟨1, _⟩ => rfl))
  unfold firstLayer
  exact relu_contract_eq_rowLayer (d := 500)
    (fun q => val_main_v32 (F := Ideal) x4 x5 (lidx_main_v33 (ix2 i k) q))
    (fun q => x9 (ridx_main_v33 (ix2 i k) q)) _ _ _ _ hx hy hs hn

/-! ## Layer one on 12800 nodes: `x7` (own rows), `x8` (ten neighbour rows per node) -/

/-- The mean of node `i`'s ten neighbour rows at feature `k'`, as the reference computes it. -/
theorem mean_v38 (x8 : (⟨S128000x500, .f32⟩ : BufTy).Contents (Elt Ideal)) (i : Fin 12800) (k' : Fin 500) :
    val_main_v38 (F := Ideal) x8 (ix2 i k') = Ideal.div (f0 + ∑ n : Fin 10, x8 (ix2 (tenth i n) k')) f10 := by
  rw [val_main_v38_apply, Ideal.hostDivf_def, val_main_v36_apply, val_main_v37_apply, val_main_cst_10_apply, val_main_cst_9_apply]
  refine congrArg₂ Ideal.div (congrArg (_ + ·) (Finset.sum_congr rfl fun n _ => ?_)) rfl
  exact (val_main_v35_apply x8 _).trans (congrArg x8 (funext fun a => Fin.ext (by
    match a with
    | ⟨0, _⟩ => show ((i.val * 10 + n.val) * 500 + k'.val) / 500 = i.val * 10 + n.val; have := k'.isLt; omega
    | ⟨1, _⟩ => show ((i.val * 10 + n.val) * 500 + k'.val) % 500 = k'.val; have := k'.isLt; omega)))

/-- Entry (i, k) of the reference's layer one on these nodes is the layer's row function. -/
theorem first_v41 (x7 : (⟨S12800x500, .f32⟩ : BufTy).Contents (Elt Ideal)) (x8 : (⟨S128000x500, .f32⟩ : BufTy).Contents (Elt Ideal))
    (x9 : (⟨S1000x256, .f32⟩ : BufTy).Contents (Elt Ideal)) (i : Fin 12800) (k : Fin 256) :
    val_main_v41 (F := Ideal) x7 x8 x9 (ix2 i k) = firstLayer 12800 x7 x8 x9 i k := by
  rw [val_main_v41_apply, val_main_v40_apply, val_main_call5_v0_apply, val_main_call5_cst_apply]
  have hx : ∀ k' : Fin 500, val_main_v39 (F := Ideal) x7 x8 (lidx_main_v40 (ix2 i k) (Fin.castAdd 500 k')) = x7 (ix2 i k') := fun k' => by
    unfold val_main_v39
    refine concatenate_pair_apply_left (t := S12800x1000) (s₁ := S12800x500) (s₂ := S12800x500) 1 _ _ _ _ rfl (ix2 i k') ?_
    intro b
    match b with
    | ⟨0, _⟩ => rfl
    | ⟨1, _⟩ => rfl
  have hy : ∀ k' : Fin 500, val_main_v39 (F := Ideal) x7 x8 (lidx_main_v40 (ix2 i k) (Fin.natAdd 500 k'))
      = Ideal.div (f0 + ∑ n : Fin 10, x8 (ix2 (tenth i n) k')) f10 := fun k' => by
    unfold val_main_v39
    refine (concatenate_pair_apply_right (t := S12800x1000) (s₁ := S12800x500) (s₂ := S12800x500) 1 _ _ _ _ rfl rfl (ix2 i k') ?_ ?_).trans (mean_v38 x8 i k')
    · intro b hb
      match b with
      | ⟨0, _⟩ => rfl
      | ⟨1, _⟩ => exact absurd rfl hb
    · show k'.val + 500 = 500 + k'.val; omega
  have hs : ∀ k' : Fin 500, x9 (ridx_main_v40 (ix2 i k) (Fin.castAdd 500 k')) = x9 (ix2 (Fin.castAdd 500 k' : Fin 1000) k) := fun k' =>
    congrArg x9 (funext fun a => Fin.ext (by
      match a with
      | ⟨0, _⟩ => rfl
      | ⟨1, _⟩ => rfl))
  have hn : ∀ k' : Fin 500, x9 (ridx_main_v40 (ix2 i k) (Fin.natAdd 500 k')) = x9 (ix2 (Fin.natAdd 500 k' : Fin 1000) k) := fun k' =>
    congrArg x9 (funext fun a => Fin.ext (by
      match a with
      | ⟨0, _⟩ => rfl
      | ⟨1, _⟩ => rfl))
  unfold firstLayer
  exact relu_contract_eq_rowLayer (d := 500)
    (fun q => val_main_v39 (F := Ideal) x7 x8 (lidx_main_v40 (ix2 i k) q))
    (fun q => x9 (ridx_main_v40 (ix2 i k) q)) _ _ _ _ hx hy hs hn

end Cert.ReferenceIdeal.SageRef

end
-- ==== Proof.SageRefNet.lean ====
/-
  The idealized reference's three results are the network of each node set.

  The reference's last layer for a node set contracts the row `[h¹ᵢ, mean₁₀ h¹ of i's neighbours]` of length 512 against
  the 512×128 weight matrix and applies `relu`; its ten neighbour rows are rows `10·i … 10·i + 9` of layer one of the
  neighbour set (the 10·R × 256 array viewed ten rows per node).  Splitting the contraction at position 256 gives layer
  two's row function of layer one's outputs, and layer one's entries are the row function of the inputs.
-/
import proofs.«110833_j58789512348198_2_alg».proof.Proof.SageRefFirst
import proofs.«110833_j58789512348198_2_alg».proof.Proof.Gen.ReferenceIdeal.Read
import proofs.«110833_j58789512348198_2_alg».proof.Proof.SageStack

noncomputable section

open scoped BigOperators

namespace Cert.ReferenceIdeal.SageRef

open Cert.ReferenceIdeal Cert.ReferenceIdeal.Read Cert.SageMath
open Idealize.ShloMosaic Idealize.ShloMosaic.ValueIdx

/-- Layer two of the source set, entry (i, b), from the reference's layer-one arrays. -/
theorem second_v48 (x0 : (⟨S256x500, .f32⟩ : BufTy).Contents (Elt Ideal)) (x1 : (⟨S2560x500, .f32⟩ : BufTy).Contents (Elt Ideal)) (x2 : (⟨S25600x500, .f32⟩ : BufTy).Contents (Elt Ideal)) (x9 : (⟨S1000x256, .f32⟩ : BufTy).Contents (Elt Ideal)) (x10 : (⟨S512x128, .f32⟩ : BufTy).Contents (Elt Ideal)) (i : Fin 256) (b : Fin 128) :
    val_main_v48 (F := Ideal) x0 x1 x2 x9 x10 (ix2 i b)
      = secondLayer 256 (fun i k => val_main_v6 (F := Ideal) x0 x1 x9 (ix2 i k))
          (fun i k => val_main_v27 (F := Ideal) x1 x2 x9 (ix2 i k)) x10 i b := by
  rw [val_main_v48_apply, val_main_v47_apply, val_main_call6_v0_apply, val_main_call6_cst_apply]
  show max (∑ k : Fin (256 + 256), val_main_v46 (F := Ideal) x0 x1 x2 x9 (lidx_main_v47 (ix2 i b) k) * x10 (ridx_main_v47 (ix2 i b) k)) f0 = _
  unfold secondLayer
  refine relu_contract_eq_rowLayer (d := 256) _ _ _ _ _ _ (fun k => ?_) (fun k => ?_) (fun k => ?_) (fun k => ?_)
  · unfold val_main_v46
    exact concatenate_pair_apply_left (s₁ := S256x256) (s₂ := S256x256) 1 _ _ _ (lidx_main_v47 (ix2 i b) (Fin.castAdd 256 k)) rfl (ix2 i k) (fun a => by
      match a with
      | ⟨0, _⟩ => rfl
      | ⟨1, _⟩ => rfl)
  · unfold val_main_v46
    refine (concatenate_pair_apply_right (s₁ := S256x256) (s₂ := S256x256) 1 _ _ _ (lidx_main_v47 (ix2 i b) (Fin.natAdd 256 k)) rfl rfl (ix2 i k) (fun a ha => by
      match a with
      | ⟨0, _⟩ => rfl
      | ⟨1, _⟩ => exact absurd rfl ha) (by show k.val + 256 = 256 + k.val; omega)).trans ?_
    rw [val_main_v45_apply, val_main_v43_apply, val_main_v44_apply, val_main_cst_12_apply, val_main_cst_11_apply]
    show Ideal.div (f0 + ∑ n : Fin 10, val_main_v42 (F := Ideal) x1 x2 x9 (idx_main_v43 (ix2 i k) n)) f10 = _
    refine congrArg (fun z => Ideal.div (f0 + z) f10) (Finset.sum_congr rfl fun n _ => ?_)
    refine (val_main_v42_apply x1 x2 x9 _).trans (congrArg (val_main_v27 (F := Ideal) x1 x2 x9) (funext fun a => Fin.ext ?_))
    match a with
    | ⟨0, _⟩ => show ((i.val * 10 + n.val) * 256 + k.val) / 256 = i.val * 10 + n.val; have := k.isLt; omega
    | ⟨1, _⟩ => show ((i.val * 10 + n.val) * 256 + k.val) % 256 = k.val; have := k.isLt; omega
  · exact congrArg x10 (funext fun a => Fin.ext (by
      match a with
      | ⟨0, _⟩ => rfl
      | ⟨1, _⟩ => rfl))
  · exact congrArg x10 (funext fun a => Fin.ext (by
      match a with
      | ⟨0, _⟩ => rfl
      | ⟨1, _⟩ => rfl))

/-- The reference's first result is the network on the source set. -/
theorem ref_src (x0 : (⟨S256x500, .f32⟩ : BufTy).Contents (Elt Ideal)) (x1 : (⟨S2560x500, .f32⟩ : BufTy).Contents (Elt Ideal)) (x2 : (⟨S25600x500, .f32⟩ : BufTy).Contents (Elt Ideal)) (x9 : (⟨S1000x256, .f32⟩ : BufTy).Contents (Elt Ideal)) (x10 : (⟨S512x128, .f32⟩ : BufTy).Contents (Elt Ideal)) :
    val_main_v48 (F := Ideal) x0 x1 x2 x9 x10 = sageNet 256 x0 x1 x2 x9 x10 := by
  funext j
  obtain ⟨i, b, rfl⟩ : ∃ (i : Fin 256) (b : Fin 128), j = ix2 i b := ⟨j 0, j 1, eq_ix2 j⟩
  refine (second_v48 x0 x1 x2 x9 x10 i b).trans ?_
  unfold sageNet
  have e0 : (fun (i : Fin 256) (k : Fin 256) => val_main_v6 (F := Ideal) x0 x1 x9 (ix2 i k)) = firstLayer 256 x0 x1 x9 :=
    funext fun i => funext fun k => first_v6 x0 x1 x9 i k
  have e1 : (fun (i : Fin 2560) (k : Fin 256) => val_main_v27 (F := Ideal) x1 x2 x9 (ix2 i k)) = firstLayer 2560 x1 x2 x9 :=
    funext fun i => funext fun k => first_v27 x1 x2 x9 i k
  rw [e0, e1]

/-- Layer two of the destination set, entry (i, b), from the reference's layer-one arrays. -/
theorem second_v55 (x3 : (⟨S256x500, .f32⟩ : BufTy).Contents (Elt Ideal)) (x4 : (⟨S2560x500, .f32⟩ : BufTy).Contents (Elt Ideal)) (x5 : (⟨S25600x500, .f32⟩ : BufTy).Contents (Elt Ideal)) (x9 : (⟨S1000x256, .f32⟩ : BufTy).Contents (Elt Ideal)) (x10 : (⟨S512x128, .f32⟩ : BufTy).Contents (Elt Ideal)) (i : Fin 256) (b : Fin 128) :
    val_main_v55 (F := Ideal) x3 x4 x5 x9 x10 (ix2 i b)
      = secondLayer 256 (fun i k => val_main_v13 (F := Ideal) x3 x4 x9 (ix2 i k))
          (fun i k => val_main_v34 (F := Ideal) x4 x5 x9 (ix2 i k)) x10 i b := by
  rw [val_main_v55_apply, val_main_v54_apply, val_main_call7_v0_apply, val_main_call7_cst_apply]
  show max (∑ k : Fin (256 + 256), val_main_v53 (F := Ideal) x3 x4 x5 x9 (lidx_main_v54 (ix2 i b) k) * x10 (ridx_main_v54 (ix2 i b) k)) f0 = _
  unfold secondLayer
  refine relu_contract_eq_rowLayer (d := 256) _ _ _ _ _ _ (fun k => ?_) (fun k => ?_) (fun k => ?_) (fun k => ?_)
  · unfold val_main_v53
    exact concatenate_pair_apply_left (s₁ := S256x256) (s₂ := S256x256) 1 _ _ _ (lidx_main_v54 (ix2 i b) (Fin.castAdd 256 k)) rfl (ix2 i k) (fun a => by
      match a with
      | ⟨0, _⟩ => rfl
      | ⟨1, _⟩ => rfl)
  · unfold val_main_v53
    refine (concatenate_pair_apply_right (s₁ := S256x256) (s₂ := S256x256) 1 _ _ _ (lidx_main_v54 (ix2 i b) (Fin.natAdd 256 k)) rfl rfl (ix2 i k) (fun a ha => by
      match a with
      | ⟨0, _⟩ => rfl
      | ⟨1, _⟩ => exact absurd rfl ha) (by show k.val + 256 = 256 + k.val; omega)).trans ?_
    rw [val_main_v52_apply, val_main_v50_apply, val_main_v51_apply, val_main_cst_14_apply, val_main_cst_13_apply]
    show Ideal.div (f0 + ∑ n : Fin 10, val_main_v49 (F := Ideal) x4 x5 x9 (idx_main_v50 (ix2 i k) n)) f10 = _
    refine congrArg (fun z => Ideal.div (f0 + z) f10) (Finset.sum_congr rfl fun n _ => ?_)
    refine (val_main_v49_apply x4 x5 x9 _).trans (congrArg (val_main_v34 (F := Ideal) x4 x5 x9) (funext fun a => Fin.ext ?_))
    match a with
    | ⟨0, _⟩ => show ((i.val * 10 + n.val) * 256 + k.val) / 256 = i.val * 10 + n.val; have := k.isLt; omega
    | ⟨1, _⟩ => show ((i.val * 10 + n.val) * 256 + k.val) % 256 = k.val; have := k.isLt; omega
  · exact congrArg x10 (funext fun a => Fin.ext (by
      match a with
      | ⟨0, _⟩ => rfl
      | ⟨1, _⟩ => rfl))
  · exact congrArg x10 (funext fun a => Fin.ext (by
      match a with
      | ⟨0, _⟩ => rfl
      | ⟨1, _⟩ => rfl))

/-- The reference's second result is the network on the destination set. -/
theorem ref_dst (x3 : (⟨S256x500, .f32⟩ : BufTy).Contents (Elt Ideal)) (x4 : (⟨S2560x500, .f32⟩ : BufTy).Contents (Elt Ideal)) (x5 : (⟨S25600x500, .f32⟩ : BufTy).Contents (Elt Ideal)) (x9 : (⟨S1000x256, .f32⟩ : BufTy).Contents (Elt Ideal)) (x10 : (⟨S512x128, .f32⟩ : BufTy).Contents (Elt Ideal)) :
    val_main_v55 (F := Ideal) x3 x4 x5 x9 x10 = sageNet 256 x3 x4 x5 x9 x10 := by
  funext j
  obtain ⟨i, b, rfl⟩ : ∃ (i : Fin 256) (b : Fin 128), j = ix2 i b := ⟨j 0, j 1, eq_ix2 j⟩
  refine (second_v55 x3 x4 x5 x9 x10 i b).trans ?_
  unfold sageNet
  have e0 : (fun (i : Fin 256) (k : Fin 256) => val_main_v13 (F := Ideal) x3 x4 x9 (ix2 i k)) = firstLayer 256 x3 x4 x9 :=
    funext fun i => funext fun k => first_v13 x3 x4 x9 i k
  have e1 : (fun (i : Fin 2560) (k : Fin 256) => val_main_v34 (F := Ideal) x4 x5 x9 (ix2 i k)) = firstLayer 2560 x4 x5 x9 :=
    funext fun i => funext fun k => first_v34 x4 x5 x9 i k
  rw [e0, e1]

/-- Layer two of the negative set, entry (i, b), from the reference's layer-one arrays. -/
theorem second_v62 (x6 : (⟨S1280x500, .f32⟩ : BufTy).Contents (Elt Ideal)) (x7 : (⟨S12800x500, .f32⟩ : BufTy).Contents (Elt Ideal)) (x8 : (⟨S128000x500, .f32⟩ : BufTy).Contents (Elt Ideal)) (x9 : (⟨S1000x256, .f32⟩ : BufTy).Contents (Elt Ideal)) (x10 : (⟨S512x128, .f32⟩ : BufTy).Contents (Elt Ideal)) (i : Fin 1280) (b : Fin 128) :
    val_main_v62 (F := Ideal) x6 x7 x8 x9 x10 (ix2 i b)
      = secondLayer 1280 (fun i k => val_main_v20 (F := Ideal) x6 x7 x9 (ix2 i k))
          (fun i k => val_main_v41 (F := Ideal) x7 x8 x9 (ix2 i k)) x10 i b := by
  rw [val_main_v62_apply, val_main_v61_apply, val_main_call8_v0_apply, val_main_call8_cst_apply]
  show max (∑ k : Fin (256 + 256), val_main_v60 (F := Ideal) x6 x7 x8 x9 (lidx_main_v61 (ix2 i b) k) * x10 (ridx_main_v61 (ix2 i b) k)) f0 = _
  unfold secondLayer
  refine relu_contract_eq_rowLayer (d := 256) _ _ _ _ _ _ (fun k => ?_) (fun k => ?_) (fun k => ?_) (fun k => ?_)
  · unfold val_main_v60
    exact concatenate_pair_apply_left (s₁ := S1280x256) (s₂ := S1280x256) 1 _ _ _ (lidx_main_v61 (ix2 i b) (Fin.castAdd 256 k)) rfl (ix2 i k) (fun a => by
      match a with
      | ⟨0, _⟩ => rfl
      | ⟨1, _⟩ => rfl)
  · unfold val_main_v60
    refine (concatenate_pair_apply_right (s₁ := S1280x256) (s₂ := S1280x256) 1 _ _ _ (lidx_main_v61 (ix2 i b) (Fin.natAdd 256 k)) rfl rfl (ix2 i k) (fun a ha => by
      match a with
      | ⟨0, _⟩ => rfl
      | ⟨1, _⟩ => exact absurd rfl ha) (by show k.val + 256 = 256 + k.val; omega)).trans ?_
    rw [val_main_v59_apply, val_main_v57_apply, val_main_v58_apply, val_main_cst_16_apply, val_main_cst_15_apply]
    show Ideal.div (f0 + ∑ n : Fin 10, val_main_v56 (F := Ideal) x7 x8 x9 (idx_main_v57 (ix2 i k) n)) f10 = _
    refine congrArg (fun z => Ideal.div (f0 + z) f10) (Finset.sum_congr rfl fun n _ => ?_)
    refine (val_main_v56_apply x7 x8 x9 _).trans (congrArg (val_main_v41 (F := Ideal) x7 x8 x9) (funext fun a => Fin.ext ?_))
    match a with
    | ⟨0, _⟩ => show ((i.val * 10 + n.val) * 256 + k.val) / 256 = i.val * 10 + n.val; have := k.isLt; omega
    | ⟨1, _⟩ => show ((i.val * 10 + n.val) * 256 + k.val) % 256 = k.val; have := k.isLt; omega
  · exact congrArg x10 (funext fun a => Fin.ext (by
      match a with
      | ⟨0, _⟩ => rfl
      | ⟨1, _⟩ => rfl))
  · exact congrArg x10 (funext fun a => Fin.ext (by
      match a with
      | ⟨0, _⟩ => rfl
      | ⟨1, _⟩ => rfl))

/-- The reference's third result is the network on the negative set. -/
theorem ref_neg (x6 : (⟨S1280x500, .f32⟩ : BufTy).Contents (Elt Ideal)) (x7 : (⟨S12800x500, .f32⟩ : BufTy).Contents (Elt Ideal)) (x8 : (⟨S128000x500, .f32⟩ : BufTy).Contents (Elt Ideal)) (x9 : (⟨S1000x256, .f32⟩ : BufTy).Contents (Elt Ideal)) (x10 : (⟨S512x128, .f32⟩ : BufTy).Contents (Elt Ideal)) :
    val_main_v62 (F := Ideal) x6 x7 x8 x9 x10 = sageNet 1280 x6 x7 x8 x9 x10 := by
  funext j
  obtain ⟨i, b, rfl⟩ : ∃ (i : Fin 1280) (b : Fin 128), j = ix2 i b := ⟨j 0, j 1, eq_ix2 j⟩
  refine (second_v62 x6 x7 x8 x9 x10 i b).trans ?_
  unfold sageNet
  have e0 : (fun (i : Fin 1280) (k : Fin 256) => val_main_v20 (F := Ideal) x6 x7 x9 (ix2 i k)) = firstLayer 1280 x6 x7 x9 :=
    funext fun i => funext fun k => first_v20 x6 x7 x9 i k
  have e1 : (fun (i : Fin 12800) (k : Fin 256) => val_main_v41 (F := Ideal) x7 x8 x9 (ix2 i k)) = firstLayer 12800 x7 x8 x9 :=
    funext fun i => funext fun k => first_v41 x7 x8 x9 i k
  rw [e0, e1]

end Cert.ReferenceIdeal.SageRef

end
-- ==== Proof.lean ====
/-
  The certificate of the batched neighbour-aggregation kernel against its plain reference.

  Both programs compute, for each of three node sets (sources, destinations, negatives), a two-layer network
      h¹ = relu (x · W⁰_self + mean₁₀ (neighbours' x) · W⁰_neigh),   out = relu (h¹ · W¹_self + mean₁₀ (neighbours' h¹) · W¹_neigh).
  The reference evaluates nine layers one node set at a time, each as ONE contraction of the concatenated row
  `[self, mean]` against the whole weight matrix.  The kernel stacks the three node sets of a level into one array,
  cuts each weight matrix into its two halves, and runs three blocked regions (layer one on level 0, layer one on
  level 1, layer two), each entry as the SUM of two contractions, one per half.  At the extended reals a contraction
  over 2d positions is the sum of the contractions over its first and last d positions, so the two are one function;
  no finiteness is needed.

  Frames of the two kernel programs: each region's body loads its four input blocks whole and stores its whole output
  block, so the run is the three regions' launches chained with the host stretches between them, every unscoped buffer
  followed through (`Sage.run_all`, `Sage.frame`; the same text at both instances).  The reference's frame is its run.
  The idealization rewrote nothing, so `preserves` is trivial.
-/
import proofs.«110833_j58789512348198_2_alg».proof.Defs
import proofs.«110833_j58789512348198_2_alg».proof.Proof.Gen.Kernel
import proofs.«110833_j58789512348198_2_alg».proof.Proof.Gen.KernelIdeal
import proofs.«110833_j58789512348198_2_alg».proof.Proof.Gen.ReferenceIdeal
import proofs.«110833_j58789512348198_2_alg».proof.Proof.Gen.Pre_finite_inputs
import proofs.«110833_j58789512348198_2_alg».proof.Proof.Gen.ReferenceIdeal.Run
import proofs.«110833_j58789512348198_2_alg».proof.Proof.Gen.ReferenceIdeal.Read
import proofs.«110833_j58789512348198_2_alg».proof.Proof.KSageRun
import proofs.«110833_j58789512348198_2_alg».proof.Proof.SageRun
import proofs.«110833_j58789512348198_2_alg».proof.Proof.SageKernelNet
import proofs.«110833_j58789512348198_2_alg».proof.Proof.SageRefNet

noncomputable section

namespace Cert.Proof

open Idealize.ShloMosaic Idealize.ShloMosaic.TcCoe Idealize.SL.Sem Cert.SageMath

theorem frame_k : Cert.frame_Kernel := fun m ρ _ => Cert.Kernel.Sage.frame m ρ
theorem frame_ki : Cert.frame_KernelIdeal := fun m ρ _ => Cert.KernelIdeal.Sage.frame m ρ
theorem frame_ri : Cert.frame_ReferenceIdeal := fun m ρ _ =>
  (θ_run Cert.ReferenceIdeal.defs _ _).mono (fun _ h c => (h c).2.2.2) (Cert.ReferenceIdeal.Value.run (F := Ideal) m ρ)

/-- The idealized kernel's run with its three results named: each is the network on its node set. -/
theorem kernel_run (m : (ℓ : Loc Cert.KernelIdeal.nD Cert.KernelIdeal.τ Cert.KernelIdeal.sig) → Buf (Elt Ideal) ℓ) (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩ (fun r => ∀ c : Dev Cert.KernelIdeal.nD,
      r.2.mem ((c.tc : Thread Cert.KernelIdeal.nD Cert.KernelIdeal.τ).loc Cert.KernelIdeal.main_v28) = sageNet 256 (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))
      ∧ r.2.mem ((c.tc : Thread Cert.KernelIdeal.nD Cert.KernelIdeal.τ).loc Cert.KernelIdeal.main_v29) = sageNet 256 (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))
      ∧ r.2.mem ((c.tc : Thread Cert.KernelIdeal.nD Cert.KernelIdeal.τ).loc Cert.KernelIdeal.main_v30) = sageNet 1280 (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)) :=
  (θ_run Cert.KernelIdeal.defs _ _).mono (fun r h c =>
    ⟨(h c _ (Cert.KernelIdeal.Sage.mem_uc Cert.KernelIdeal.main_v28 (by decide))).trans
        ((Cert.KernelIdeal.SageV.W7_v28 m ρ c).trans (Cert.KernelIdeal.SageV.result_src m c)),
      (h c _ (Cert.KernelIdeal.Sage.mem_uc Cert.KernelIdeal.main_v29 (by decide))).trans
        ((Cert.KernelIdeal.SageV.W7_v29 m ρ c).trans (Cert.KernelIdeal.SageV.result_dst m c)),
      (h c _ (Cert.KernelIdeal.Sage.mem_uc Cert.KernelIdeal.main_v30 (by decide))).trans
        ((Cert.KernelIdeal.SageV.W7_v30 m ρ c).trans (Cert.KernelIdeal.SageV.result_neg m c)),
      (h c _ (Cert.KernelIdeal.Sage.mem_uc Cert.KernelIdeal.main_arg0 (by decide))).trans (Cert.KernelIdeal.Sage.W7_main_arg0 m ρ c),
      (h c _ (Cert.KernelIdeal.Sage.mem_uc Cert.KernelIdeal.main_arg1 (by decide))).trans (Cert.KernelIdeal.Sage.W7_main_arg1 m ρ c),
      (h c _ (Cert.KernelIdeal.Sage.mem_uc Cert.KernelIdeal.main_arg2 (by decide))).trans (Cert.KernelIdeal.Sage.W7_main_arg2 m ρ c),
      (h c _ (Cert.KernelIdeal.Sage.mem_uc Cert.KernelIdeal.main_arg3 (by decide))).trans (Cert.KernelIdeal.Sage.W7_main_arg3 m ρ c),
      (h c _ (Cert.KernelIdeal.Sage.mem_uc Cert.KernelIdeal.main_arg4 (by decide))).trans (Cert.KernelIdeal.Sage.W7_main_arg4 m ρ c),
      (h c _ (Cert.KernelIdeal.Sage.mem_uc Cert.KernelIdeal.main_arg5 (by decide))).trans (Cert.KernelIdeal.Sage.W7_main_arg5 m ρ c),
      (h c _ (Cert.KernelIdeal.Sage.mem_uc Cert.KernelIdeal.main_arg6 (by decide))).trans (Cert.KernelIdeal.Sage.W7_main_arg6 m ρ c),
      (h c _ (Cert.KernelIdeal.Sage.mem_uc Cert.KernelIdeal.main_arg7 (by decide))).trans (Cert.KernelIdeal.Sage.W7_main_arg7 m ρ c),
      (h c _ (Cert.KernelIdeal.Sage.mem_uc Cert.KernelIdeal.main_arg8 (by decide))).trans (Cert.KernelIdeal.Sage.W7_main_arg8 m ρ c),
      (h c _ (Cert.KernelIdeal.Sage.mem_uc Cert.KernelIdeal.main_arg9 (by decide))).trans (Cert.KernelIdeal.Sage.W7_main_arg9 m ρ c),
      (h c _ (Cert.KernelIdeal.Sage.mem_uc Cert.KernelIdeal.main_arg10 (by decide))).trans (Cert.KernelIdeal.Sage.W7_main_arg10 m ρ c)⟩)
    (Cert.KernelIdeal.Sage.run_all (F := Ideal) m ρ)

/-- Both idealized programs end with the network of each node set in their three results. -/
theorem algebraic : Cert.algebraic_KernelIdeal_ReferenceIdeal := by
  intro m ρ m' ρ' _ hagree
  refine ⟨_, _, _, kernel_run m ρ, ?_⟩
  refine (θ_run Cert.ReferenceIdeal.defs _ _).mono (fun r h c => ?_) (Cert.ReferenceIdeal.Value.run (F := Ideal) m' ρ')
  obtain ⟨h0, h1, h2, hargs⟩ := h c
  obtain ⟨e0, e1, e2, e3, e4, e5, e6, e7, e8, e9, e10⟩ := hagree c
  refine ⟨?_, ?_, ?_, hargs⟩
  · rw [h0, Cert.ReferenceIdeal.Read.val_main_v48_eq, Cert.ReferenceIdeal.SageRef.ref_src, e0, e1, e2, e9, e10]
  · rw [h1, Cert.ReferenceIdeal.Read.val_main_v55_eq, Cert.ReferenceIdeal.SageRef.ref_dst, e3, e4, e5, e9, e10]
  · rw [h2, Cert.ReferenceIdeal.Read.val_main_v62_eq, Cert.ReferenceIdeal.SageRef.ref_neg, e6, e7, e8, e9, e10]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
